-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S128x10 : Shape := ⟨2, ![128, 10]⟩
abbrev S10 : Shape := ⟨1, ![10]⟩
abbrev S2x1600000 : Shape := ⟨2, ![2, 1600000]⟩
abbrev S100000 : Shape := ⟨1, ![100000]⟩
abbrev S5000 : Shape := ⟨1, ![5000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg4 : FVec F S10 .f32) (main_arg5 : FVec F S2x1600000 .f32) (main_v13 : IVec S_ 1) (main_v16 : IVec S128x10 1) : IVec S_ 1 :=
  let main_c_5 : IVec S_ 1 := constantI S_ 1 1#1
  let main_v17 : IVec S_ 1 := (fun x v => Host.reduce IntOp.andi x v reducesTo_S128x10_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S2x1600000 .f32 := Host.absf main_arg5
  let main_cst_8 : FVec F S_ .f32 := constant S_ .f32 0x7F800000#32
  let main_v25 : FVec F S2x1600000 .f32 := broadcastInDim S2x1600000 ![] bcast_S_S2x1600000 main_cst_8
  let main_v26 : IVec S2x1600000 1 := cmpf .olt main_v24 main_v25
  let main_c_9 : IVec S_ 1 := constantI S_ 1 1#1
  let main_v27 : IVec S_ 1 := (fun x v => Host.reduce IntOp.andi x v reducesTo_S2x1600000_S_d0_1 h_S_) main_v26 main_c_9
  let main_v28 : IVec S_ 1 := andi main_v23 main_v27
  main_v28

def fn {F : FTy → Type} [FloatOps F] (main_arg0 : FVec F S100000x256 .f32) (main_arg1 : FVec F S256x128 .f32) (main_arg2 : FVec F S128 .f32) (main_arg3 : FVec F S128x10 .f32) (main_arg4 : FVec F S10 .f32) (main_arg5 : FVec F S2x1600000 .f32) (main_arg6 : IVec S2x1600000 32) (main_arg7 : IVec S2x1600000 32) (main_arg8 : IVec S100000 32) (main_arg9 : IVec S5000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x10 .f32 := Host.absf main_arg3
  let main_cst_4 : FVec F S_ .f32 := constant S_ .f32 0x7F800000#32
  let main_v15 : FVec F S128x10 .f32 := broadcastInDim S128x10 ![] bcast_S_S128x10 main_cst_4
  let main_v16 : IVec S128x10 1 := cmpf .olt main_v14 main_v15
  fn_part1 (F := F) main_arg4 main_arg5 main_v13 main_v16
-- ==== Kernel.lean ====
abbrev S100000x256 : Shape := ⟨2, ![100000, 256]⟩
abbrev S256x128 : Shape := ⟨2, ![256, 128]⟩
abbrev S128 : Shape := ⟨1, ![128]⟩
abbrev S128x10 : Shape := ⟨2, ![128, 10]⟩
abbrev S10 : Shape := ⟨1, ![10]⟩
abbrev S2x1600000 : Shape := ⟨2, ![2, 1600000]⟩
abbrev S100000 : Shape := ⟨1, ![100000]⟩
abbrev S5000 : Shape := ⟨1, ![5000]⟩
abbrev S100000x128 : Shape := ⟨2, ![100000, 128]⟩
abbrev S5000x256 : Shape := ⟨2, ![5000, 256]⟩
abbrev S5000x128 : Shape := ⟨2, ![5000, 128]⟩
abbrev S1x128 : Shape := ⟨2, ![1, 128]⟩
abbrev S1x10 : Shape := ⟨2, ![1, 10]⟩
abbrev S1x1600000 : Shape := ⟨2, ![1, 1600000]⟩
abbrev S1600000 : Shape := ⟨1, ![1600000]⟩
abbrev S1600000x1 : Shape := ⟨2, ![1600000, 1]⟩
abbrev S_ : Shape := ⟨0, ![]⟩
abbrev S1600000x128 : Shape := ⟨2, ![1600000, 128]⟩
abbrev S100000x10 : Shape := ⟨2, ![100000, 10]⟩
abbrev S5000x10 : Shape := ⟨2, ![5000, 10]⟩
abbrev S1600000x10 : Shape := ⟨2, ![1600000, 10]⟩
abbrev S5000x1 : Shape := ⟨2, ![5000, 1]⟩
abbrev S5000x1x1 : Shape := ⟨3, ![5000, 1, 1]⟩
abbrev S1 : Shape := ⟨1, ![1]⟩
abbrev S1x1x1 : Shape := ⟨3, ![1, 1, 1]⟩

abbrev nBuf : Space → Nat
  | .hbm => 154
  | .vmem => 24
  | .smem => 0
  | _ => 0

abbrev hbmTy0_0 (i : Nat) : BufTy := match i % 128 with
  | 0 => ⟨S100000x256, .f32⟩
  | 1 => ⟨S256x128, .f32⟩
  | 2 => ⟨S128, .f32⟩
  | 3 => ⟨S128x10, .f32⟩
  | 4 => ⟨S10, .f32⟩
  | 5 => ⟨S2x1600000, .f32⟩
  | 6 => ⟨S2x1600000, .i32⟩
  | 7 => ⟨S2x1600000, .i32⟩
  | 8 => ⟨S100000, .i32⟩
  | 9 => ⟨S5000, .i32⟩
  | 10 => ⟨S100000x128, .f32⟩
  | 11 => ⟨S1x128, .f32⟩
  | 12 => ⟨S1x10, .f32⟩
  | 13 => ⟨S1x1600000, .i32⟩
  | 14 => ⟨S1600000, .i32⟩
  | 15 => ⟨S1x1600000, .i32⟩
  | 16 => ⟨S1600000, .i32⟩
  | 17 => ⟨S1x1600000, .f32⟩
  | 18 => ⟨S1600000, .f32⟩
  | 19 => ⟨S1600000x1, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S1600000x128, .f32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S100000x10, .f32⟩
  | 36 => ⟨S1600000x1, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x10, .f32⟩
  | 46 => ⟨S1600000x10, .f32⟩
  | 47 => ⟨S1600000x10, .f32⟩
  | 48 => ⟨S_, .f32⟩
  | 49 => ⟨S100000x10, .f32⟩
  | 50 => ⟨S1600000x1, .i32⟩
  | 51 => ⟨S100000x10, .f32⟩
  | 52 => ⟨S1x1600000, .i32⟩
  | 53 => ⟨S1600000, .i32⟩
  | 54 => ⟨S1x1600000, .i32⟩
  | 55 => ⟨S1600000, .i32⟩
  | 56 => ⟨S1x1600000, .f32⟩
  | 57 => ⟨S1600000, .f32⟩
  | 58 => ⟨S1600000x1, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S1600000x128, .f32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S100000x10, .f32⟩
  | 75 => ⟨S1600000x1, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x10, .f32⟩
  | 85 => ⟨S1600000x10, .f32⟩
  | 86 => ⟨S1600000x10, .f32⟩
  | 87 => ⟨S_, .f32⟩
  | 88 => ⟨S100000x10, .f32⟩
  | 89 => ⟨S1600000x1, .i32⟩
  | 90 => ⟨S100000x10, .f32⟩
  | 91 => ⟨S100000x10, .f32⟩
  | 92 => ⟨S_, .i32⟩
  | 93 => ⟨S5000, .i32⟩
  | 94 => ⟨S5000, .i1⟩
  | 95 => ⟨S_, .i32⟩
  | 96 => ⟨S5000, .i32⟩
  | 97 => ⟨S5000, .i32⟩
  | 98 => ⟨S5000, .i32⟩
  | 99 => ⟨S5000x1, .i32⟩
  | 100 => ⟨S5000x10, .f32⟩
  | 101 => ⟨S_, .f32⟩
  | 102 => ⟨S5000, .f32⟩
  | 103 => ⟨S_, .f32⟩
  | 104 => ⟨S5000, .f32⟩
  | 105 => ⟨S5000, .f32⟩
  | 106 => ⟨S5000x1, .f32⟩
  | 107 => ⟨S5000x10, .f32⟩
  | 108 => ⟨S5000x10, .f32⟩
  | 109 => ⟨S5000x10, .f32⟩
  | 110 => ⟨S_, .f32⟩
  | 111 => ⟨S5000, .f32⟩
  | 112 => ⟨S5000x1, .f32⟩
  | 113 => ⟨S5000x1, .f32⟩
  | 114 => ⟨S5000x10, .f32⟩
  | 115 => ⟨S5000x10, .f32⟩
  | 116 => ⟨S_, .i32⟩
  | 117 => ⟨S5000, .i32⟩
  | 118 => ⟨S5000, .i1⟩
  | 119 => ⟨S_, .i32⟩
  | 120 => ⟨S5000, .i32⟩
  | 121 => ⟨S5000, .i32⟩
  | 122 => ⟨S5000, .i32⟩
  | 123 => ⟨S5000x1, .i32⟩
  | 124 => ⟨S5000, .i32⟩
  | 125 => ⟨S5000x1, .i32⟩
  | 126 => ⟨S_, .i32⟩
  | 127 => ⟨S5000x1, .i32⟩
  | _ => ⟨S100000x256, .f32⟩

abbrev hbmTy0_1 (i : Nat) : BufTy := match i % 128 with
  | 0 => ⟨S5000x1, .i1⟩
  | 1 => ⟨S_, .i32⟩
  | 2 => ⟨S5000x1, .i32⟩
  | 3 => ⟨S5000x1, .i32⟩
  | 4 => ⟨S5000x1, .i32⟩
  | 5 => ⟨S5000x1x1, .i32⟩
  | 6 => ⟨S1, .i32⟩
  | 7 => ⟨S_, .i32⟩
  | 8 => ⟨S5000x1x1, .i32⟩
  | 9 => ⟨S5000x1x1, .i1⟩
  | 10 => ⟨S1x1x1, .i32⟩
  | 11 => ⟨S5000x1x1, .i32⟩
  | 12 => ⟨S5000x1x1, .i1⟩
  | 13 => ⟨S5000x1x1, .i1⟩
  | 14 => ⟨S_, .i1⟩
  | 15 => ⟨S5000x1, .i1⟩
  | 16 => ⟨S5000x1, .f32⟩
  | 17 => ⟨S_, .f32⟩
  | 18 => ⟨S5000x1, .f32⟩
  | 19 => ⟨S5000x1, .f32⟩
  | 20 => ⟨S5000, .f32⟩
  | 21 => ⟨S5000, .f32⟩
  | 22 => ⟨S_, .f32⟩
  | 23 => ⟨S_, .f32⟩
  | 24 => ⟨S_, .f32⟩
  | 25 => ⟨S_, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x10, .f32⟩
  | .local _ .vmem, ⟨9, _⟩ => ⟨S5000x10, .f32⟩
  | .local _ .vmem, ⟨10, _⟩ => ⟨S5000x10, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x10, .f32⟩
  | .local _ .vmem, ⟨15, _⟩ => ⟨S5000x10, .f32⟩
  | .local _ .vmem, ⟨16, _⟩ => ⟨S5000x10, .f32⟩
  | .local _ .vmem, ⟨17, _⟩ => ⟨S5000x10, .f32⟩
  | .local _ .vmem, ⟨18, _⟩ => ⟨S5000x10, .f32⟩
  | .local _ .vmem, ⟨19, _⟩ => ⟨S5000x10, .f32⟩
  | .local _ .vmem, ⟨20, _⟩ => ⟨S5000x10, .f32⟩
  | .local _ .vmem, ⟨21, _⟩ => ⟨S1x10, .f32⟩
  | .local _ .vmem, ⟨22, _⟩ => ⟨S5000x10, .f32⟩
  | .local _ .vmem, ⟨23, _⟩ => ⟨S5000x10, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_1 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_4 : Ref sig .tc := ⟨.hbm, 59, rfl⟩
abbrev main_v43 : Ref sig .tc := ⟨.hbm, 60, rfl⟩
abbrev main_v44 : Ref sig .tc := ⟨.hbm, 61, rfl⟩
abbrev main_c_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_7 : Ref sig .tc := ⟨.hbm, 76, rfl⟩
abbrev main_v57 : Ref sig .tc := ⟨.hbm, 77, rfl⟩
abbrev main_v58 : Ref sig .tc := ⟨.hbm, 78, rfl⟩
abbrev main_c_8 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_c_10 : Ref sig .tc := ⟨.hbm, 92, rfl⟩
abbrev main_v70 : Ref sig .tc := ⟨.hbm, 93, rfl⟩
abbrev main_v71 : Ref sig .tc := ⟨.hbm, 94, rfl⟩
abbrev main_c_11 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_call0_cst : Ref sig .tc := ⟨.hbm, 101, rfl⟩
abbrev main_call0_v0 : Ref sig .tc := ⟨.hbm, 102, rfl⟩
abbrev main_call0_cst_0 : Ref sig .tc := ⟨.hbm, 103, rfl⟩
abbrev main_call0_v1 : Ref sig .tc := ⟨.hbm, 104, rfl⟩
abbrev main_call0_v2 : Ref sig .tc := ⟨.hbm, 105, rfl⟩
abbrev main_call0_v3 : Ref sig .tc := ⟨.hbm, 106, rfl⟩
abbrev main_call0_v4 : Ref sig .tc := ⟨.hbm, 107, rfl⟩
abbrev main_call0_v5 : Ref sig .tc := ⟨.hbm, 108, rfl⟩
abbrev main_call0_v6 : Ref sig .tc := ⟨.hbm, 109, rfl⟩
abbrev main_call0_cst_1 : Ref sig .tc := ⟨.hbm, 110, rfl⟩
abbrev main_call0_v7 : Ref sig .tc := ⟨.hbm, 111, rfl⟩
abbrev main_call0_v8 : Ref sig .tc := ⟨.hbm, 112, rfl⟩
abbrev main_call0_v9 : Ref sig .tc := ⟨.hbm, 113, rfl⟩
abbrev main_call0_v10 : Ref sig .tc := ⟨.hbm, 114, rfl⟩
abbrev main_v77 : Ref sig .tc := ⟨.hbm, 115, rfl⟩
abbrev main_c_12 : Ref sig .tc := ⟨.hbm, 116, rfl⟩
abbrev main_v78 : Ref sig .tc := ⟨.hbm, 117, rfl⟩
abbrev main_v79 : Ref sig .tc := ⟨.hbm, 118, rfl⟩
abbrev main_c_13 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_call1_c : Ref sig .tc := ⟨.hbm, 126, rfl⟩
abbrev main_call1_v0 : Ref sig .tc := ⟨.hbm, 127, rfl⟩
abbrev main_call1_v1 : Ref sig .tc := ⟨.hbm, 128, rfl⟩
abbrev main_call1_c_0 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_call1_v5 : Ref sig .tc := ⟨.hbm, 133, rfl⟩
abbrev main_call1_c_1 : Ref sig .tc := ⟨.hbm, 134, rfl⟩
abbrev main_call1_c_2 : Ref sig .tc := ⟨.hbm, 135, rfl⟩
abbrev main_call1_v6 : Ref sig .tc := ⟨.hbm, 136, rfl⟩
abbrev main_call1_v7 : Ref sig .tc := ⟨.hbm, 137, rfl⟩
abbrev main_call1_v8 : Ref sig .tc := ⟨.hbm, 138, rfl⟩
abbrev main_call1_v9 : Ref sig .tc := ⟨.hbm, 139, rfl⟩
abbrev main_call1_v10 : Ref sig .tc := ⟨.hbm, 140, rfl⟩
abbrev main_call1_v11 : Ref sig .tc := ⟨.hbm, 141, rfl⟩
abbrev main_call1_c_3 : Ref sig .tc := ⟨.hbm, 142, rfl⟩
abbrev main_call1_v12 : Ref sig .tc := ⟨.hbm, 143, rfl⟩
abbrev main_call1_v13 : Ref sig .tc := ⟨.hbm, 144, rfl⟩
abbrev main_call1_cst : Ref sig .tc := ⟨.hbm, 145, rfl⟩
abbrev main_call1_v14 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_cst_14 : Ref sig .tc := ⟨.hbm, 150, rfl⟩
abbrev main_v89 : Ref sig .tc := ⟨.hbm, 151, rfl⟩
abbrev main_cst_15 : Ref sig .tc := ⟨.hbm, 152, rfl⟩
abbrev main_v90 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x10 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x10 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x10 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  shapeCasts_S128_S1x128 : S128.ShapeCasts S1x128
  shapeCasts_S10_S1x10 : S10.ShapeCasts S1x10
  slices_S2x1600000_S1x1600000_0_0 : S2x1600000.Slices ![0, 0] S1x1600000
  shapeCasts_S1x1600000_S1600000 : S1x1600000.ShapeCasts S1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x10_S128x10_0_0 : ∀ a, (![0, 0] : Fin 2 → Nat) a + S128x10.size a ≤ S128x10.size a
  h_S128x10 : 0 < S128x10.numel
  inb_S5000x10_S5000x10_0_0 : ∀ a, (![0, 0] : Fin 2 → Nat) a + S5000x10.size a ≤ S5000x10.size a
  h_S5000x10 : 0 < S5000x10.numel
  bcast_S1600000x1_S1600000x10_0_1 : S1600000x1.BroadcastsInDim S1600000x10 (![0, 1] : Fin 2 → Fin S1600000x10.rank)
  bcast_S_S100000x10 : S_.BroadcastsInDim S100000x10 (![] : Fin 0 → Fin S100000x10.rank)
  slices_S2x1600000_S1x1600000_1_0 : S2x1600000.Slices ![1, 0] S1x1600000
  inb_S1x10_S1x10_0_0 : ∀ a, (![0, 0] : Fin 2 → Nat) a + S1x10.size a ≤ S1x10.size a
  h_S1x10 : 0 < S1x10.numel
  shapeCasts_S1x10_S1x10 : S1x10.ShapeCasts S1x10
  shapeCasts_S5000x10_S5000x10 : S5000x10.ShapeCasts S5000x10
  broadcasts_S1x10_S5000x10 : S1x10.Broadcasts S5000x10
  bcast_S_S5000 : S_.BroadcastsInDim S5000 (![] : Fin 0 → Fin S5000.rank)
  bcast_S5000_S5000x1_0 : S5000.BroadcastsInDim S5000x1 (![0] : Fin 1 → Fin S5000x1.rank)
  reducesTo_S5000x10_S5000_d1 : S5000x10.ReducesTo [1] S5000
  h_S_ : 0 < S_.numel
  bcast_S5000x1_S5000x10_0_1 : S5000x1.BroadcastsInDim S5000x10 (![0, 1] : Fin 2 → Fin S5000x10.rank)
  bcast_S_S5000x1 : S_.BroadcastsInDim S5000x1 (![] : Fin 0 → Fin S5000x1.rank)
  shapeCasts_S5000x1_S5000x1x1 : S5000x1.ShapeCasts S5000x1x1
  bcast_S_S5000x1x1 : S_.BroadcastsInDim S5000x1x1 (![] : Fin 0 → Fin S5000x1x1.rank)
  bcast_S1_S1x1x1_2 : S1.BroadcastsInDim S1x1x1 (![2] : Fin 1 → Fin S1x1x1.rank)
  bcast_S1x1x1_S5000x1x1_0_1_2 : S1x1x1.BroadcastsInDim S5000x1x1 (![0, 1, 2] : Fin 3 → Fin S5000x1x1.rank)
  reducesTo_S5000x1x1_S5000x1_d2 : S5000x1x1.ReducesTo [2] S5000x1
  shapeCasts_S5000x1_S5000 : S5000x1.ShapeCasts S5000
  reducesTo_S5000_S_d0 : S5000.ReducesTo [0] S_
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x10_S5000x10_1_0_0_1_n_n_wf : DotDims.WF S5000x128 S128x10 S5000x10 [1] [0] [0] [1] [] []
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1
  gather_S100000x10_S5000x1_S5000x10_1_0_n_n_0_1_110_wf : GatherDims.WF S100000x10 S5000x1 S5000x10 [1] [0] [] [0] [] 1 ![1, 10]
  gather_S100000_S5000x1_S5000_n_0_n_n_0_1_1_wf : GatherDims.WF S100000 S5000x1 S5000 [] [0] [] [0] [] 1 ![1]
  gather_S5000x10_S5000x1x1_S5000x1_n_1_0_0_1_2_11_wf : GatherDims.WF S5000x10 S5000x1x1 S5000x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x10.size a ≤ S128x10.size a
  hwx1_2 : ∀ i : grid1.Coords, EltTy.bits .f32 = 32 ∨ (Rect.block (s := S128x10) S128x10.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x10.size a ≤ S100000x10.size a
  hwx1_3 : ∀ i : grid1.Coords, EltTy.bits .f32 = 32 ∨ (Rect.block (s := S100000x10) S5000x10.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x10.size a ≤ S128x10.size a
  hwx2_2 : ∀ i : grid2.Coords, EltTy.bits .f32 = 32 ∨ (Rect.block (s := S128x10) S128x10.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x10.size a ≤ S100000x10.size a
  hwx2_3 : ∀ i : grid2.Coords, EltTy.bits .f32 = 32 ∨ (Rect.block (s := S100000x10) S5000x10.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x10.size a ≤ S100000x10.size a
  hwx3_0 : ∀ i : grid3.Coords, EltTy.bits .f32 = 32 ∨ (Rect.block (s := S100000x10) S5000x10.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x10.size a ≤ S100000x10.size a
  hwx3_1 : ∀ i : grid3.Coords, EltTy.bits .f32 = 32 ∨ (Rect.block (s := S100000x10) S5000x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x10.size a ≤ S100000x10.size a
  hwx3_3 : ∀ i : grid3.Coords, EltTy.bits .f32 = 32 ∨ (Rect.block (s := S100000x10) S5000x10.size (cc3_transform_3 i) (hinb3_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf
def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf
def gather_S100000x10_S5000x1_S5000x10_1_0_n_n_0_1_110 : GatherDims S100000x10 S5000x1 S5000x10 where
  offsetDims := [1]
  collapsedSliceDims := [0]
  operandBatchingDims := []
  startIndicesBatchingDims := []
  startIndexMap := [0]
  indexVectorDim := 1
  sliceSizes := ![1, 10]
  wf := gather_S100000x10_S5000x1_S5000x10_1_0_n_n_0_1_110_wf
def gather_S100000_S5000x1_S5000_n_0_n_n_0_1_1 : GatherDims S100000 S5000x1 S5000 where
  offsetDims := []
  collapsedSliceDims := [0]
  operandBatchingDims := []
  startIndicesBatchingDims := []
  startIndexMap := [0]
  indexVectorDim := 1
  sliceSizes := ![1]
  wf := gather_S100000_S5000x1_S5000_n_0_n_n_0_1_1_wf
def gather_S5000x10_S5000x1x1_S5000x1_n_1_0_0_1_2_11 : GatherDims S5000x10 S5000x1x1 S5000x1 where
  offsetDims := []
  collapsedSliceDims := [1]
  operandBatchingDims := [0]
  startIndicesBatchingDims := [0]
  startIndexMap := [1]
  indexVectorDim := 2
  sliceSizes := ![1, 1]
  wf := gather_S5000x10_S5000x1x1_S5000x1_n_1_0_0_1_2_11_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S5000x10.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S128x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S5000x10.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v35) S5000x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S5000x10.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S5000x10.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S128x10 : Shape := ⟨2, ![128, 10]⟩
abbrev S10 : Shape := ⟨1, ![10]⟩
abbrev S2x1600000 : Shape := ⟨2, ![2, 1600000]⟩
abbrev S100000 : Shape := ⟨1, ![100000]⟩
abbrev S5000 : Shape := ⟨1, ![5000]⟩
abbrev S1x1600000 : Shape := ⟨2, ![1, 1600000]⟩
abbrev S1600000 : Shape := ⟨1, ![1600000]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x10 : Shape := ⟨2, ![100000, 10]⟩
abbrev S1600000x10 : Shape := ⟨2, ![1600000, 10]⟩
abbrev S1x10 : Shape := ⟨2, ![1, 10]⟩
abbrev S5000x1 : Shape := ⟨2, ![5000, 1]⟩
abbrev S5000x10 : Shape := ⟨2, ![5000, 10]⟩
abbrev S5000x1x1 : Shape := ⟨3, ![5000, 1, 1]⟩
abbrev S1 : Shape := ⟨1, ![1]⟩
abbrev S1x1x1 : Shape := ⟨3, ![1, 1, 1]⟩

abbrev nBuf : Space → Nat
  | .hbm => 180
  | .vmem => 0
  | .smem => 0
  | _ => 0

abbrev hbmTy0_0 (i : Nat) : BufTy := match i % 128 with
  | 0 => ⟨S100000x256, .f32⟩
  | 1 => ⟨S256x128, .f32⟩
  | 2 => ⟨S128, .f32⟩
  | 3 => ⟨S128x10, .f32⟩
  | 4 => ⟨S10, .f32⟩
  | 5 => ⟨S2x1600000, .f32⟩
  | 6 => ⟨S2x1600000, .i32⟩
  | 7 => ⟨S2x1600000, .i32⟩
  | 8 => ⟨S100000, .i32⟩
  | 9 => ⟨S5000, .i32⟩
  | 10 => ⟨S1x1600000, .i32⟩
  | 11 => ⟨S1600000, .i32⟩
  | 12 => ⟨S1x1600000, .i32⟩
  | 13 => ⟨S1600000, .i32⟩
  | 14 => ⟨S1x1600000, .f32⟩
  | 15 => ⟨S1600000, .f32⟩
  | 16 => ⟨S100000x128, .f32⟩
  | 17 => ⟨S1600000x1, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S1600000x128, .f32⟩
  | 28 => ⟨S1600000x128, .f32⟩
  | 29 => ⟨S_, .f32⟩
  | 30 => ⟨S100000x128, .f32⟩
  | 31 => ⟨S1600000x1, .i32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S100000x10, .f32⟩
  | 40 => ⟨S1600000x1, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x10, .f32⟩
  | 50 => ⟨S1600000x10, .f32⟩
  | 51 => ⟨S1600000x10, .f32⟩
  | 52 => ⟨S_, .f32⟩
  | 53 => ⟨S100000x10, .f32⟩
  | 54 => ⟨S1600000x1, .i32⟩
  | 55 => ⟨S100000x10, .f32⟩
  | 56 => ⟨S1x10, .f32⟩
  | 57 => ⟨S100000x10, .f32⟩
  | 58 => ⟨S100000x10, .f32⟩
  | 59 => ⟨S_, .f32⟩
  | 60 => ⟨S100000x10, .f32⟩
  | 61 => ⟨S100000x10, .f32⟩
  | 62 => ⟨S1x1600000, .i32⟩
  | 63 => ⟨S1600000, .i32⟩
  | 64 => ⟨S1x1600000, .i32⟩
  | 65 => ⟨S1600000, .i32⟩
  | 66 => ⟨S1x1600000, .f32⟩
  | 67 => ⟨S1600000, .f32⟩
  | 68 => ⟨S100000x128, .f32⟩
  | 69 => ⟨S1600000x1, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S1600000x128, .f32⟩
  | 80 => ⟨S1600000x128, .f32⟩
  | 81 => ⟨S_, .f32⟩
  | 82 => ⟨S100000x128, .f32⟩
  | 83 => ⟨S1600000x1, .i32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S100000x10, .f32⟩
  | 92 => ⟨S1600000x1, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x10, .f32⟩
  | 102 => ⟨S1600000x10, .f32⟩
  | 103 => ⟨S1600000x10, .f32⟩
  | 104 => ⟨S_, .f32⟩
  | 105 => ⟨S100000x10, .f32⟩
  | 106 => ⟨S1600000x1, .i32⟩
  | 107 => ⟨S100000x10, .f32⟩
  | 108 => ⟨S1x10, .f32⟩
  | 109 => ⟨S100000x10, .f32⟩
  | 110 => ⟨S100000x10, .f32⟩
  | 111 => ⟨S_, .f32⟩
  | 112 => ⟨S100000x10, .f32⟩
  | 113 => ⟨S100000x10, .f32⟩
  | 114 => ⟨S100000x10, .f32⟩
  | 115 => ⟨S_, .f32⟩
  | 116 => ⟨S100000x10, .f32⟩
  | 117 => ⟨S100000x10, .f32⟩
  | 118 => ⟨S_, .i32⟩
  | 119 => ⟨S5000, .i32⟩
  | 120 => ⟨S5000, .i1⟩
  | 121 => ⟨S_, .i32⟩
  | 122 => ⟨S5000, .i32⟩
  | 123 => ⟨S5000, .i32⟩
  | 124 => ⟨S5000, .i32⟩
  | 125 => ⟨S5000x1, .i32⟩
  | 126 => ⟨S5000x10, .f32⟩
  | 127 => ⟨S_, .f32⟩
  | _ => ⟨S100000x256, .f32⟩

abbrev hbmTy0_1 (i : Nat) : BufTy := match i % 128 with
  | 0 => ⟨S5000, .f32⟩
  | 1 => ⟨S_, .f32⟩
  | 2 => ⟨S5000, .f32⟩
  | 3 => ⟨S5000, .f32⟩
  | 4 => ⟨S5000x1, .f32⟩
  | 5 => ⟨S5000x10, .f32⟩
  | 6 => ⟨S5000x10, .f32⟩
  | 7 => ⟨S5000x10, .f32⟩
  | 8 => ⟨S_, .f32⟩
  | 9 => ⟨S5000, .f32⟩
  | 10 => ⟨S5000x1, .f32⟩
  | 11 => ⟨S5000x1, .f32⟩
  | 12 => ⟨S5000x10, .f32⟩
  | 13 => ⟨S5000x10, .f32⟩
  | 14 => ⟨S_, .i32⟩
  | 15 => ⟨S5000, .i32⟩
  | 16 => ⟨S5000, .i1⟩
  | 17 => ⟨S_, .i32⟩
  | 18 => ⟨S5000, .i32⟩
  | 19 => ⟨S5000, .i32⟩
  | 20 => ⟨S5000, .i32⟩
  | 21 => ⟨S5000x1, .i32⟩
  | 22 => ⟨S5000, .i32⟩
  | 23 => ⟨S5000x1, .i32⟩
  | 24 => ⟨S_, .i32⟩
  | 25 => ⟨S5000x1, .i32⟩
  | 26 => ⟨S5000x1, .i1⟩
  | 27 => ⟨S_, .i32⟩
  | 28 => ⟨S5000x1, .i32⟩
  | 29 => ⟨S5000x1, .i32⟩
  | 30 => ⟨S5000x1, .i32⟩
  | 31 => ⟨S5000x1x1, .i32⟩
  | 32 => ⟨S1, .i32⟩
  | 33 => ⟨S_, .i32⟩
  | 34 => ⟨S5000x1x1, .i32⟩
  | 35 => ⟨S5000x1x1, .i1⟩
  | 36 => ⟨S1x1x1, .i32⟩
  | 37 => ⟨S5000x1x1, .i32⟩
  | 38 => ⟨S5000x1x1, .i1⟩
  | 39 => ⟨S5000x1x1, .i1⟩
  | 40 => ⟨S_, .i1⟩
  | 41 => ⟨S5000x1, .i1⟩
  | 42 => ⟨S5000x1, .f32⟩
  | 43 => ⟨S_, .f32⟩
  | 44 => ⟨S5000x1, .f32⟩
  | 45 => ⟨S5000x1, .f32⟩
  | 46 => ⟨S5000, .f32⟩
  | 47 => ⟨S5000, .f32⟩
  | 48 => ⟨S_, .f32⟩
  | 49 => ⟨S_, .f32⟩
  | 50 => ⟨S_, .f32⟩
  | 51 => ⟨S_, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_1 : Ref sig .tc := ⟨.hbm, 41, rfl⟩
abbrev main_v26 : Ref sig .tc := ⟨.hbm, 42, rfl⟩
abbrev main_v27 : Ref sig .tc := ⟨.hbm, 43, rfl⟩
abbrev main_c_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call1_cst : Ref sig .tc := ⟨.hbm, 59, rfl⟩
abbrev main_call1_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_4 : Ref sig .tc := ⟨.hbm, 70, rfl⟩
abbrev main_v50 : Ref sig .tc := ⟨.hbm, 71, rfl⟩
abbrev main_v51 : Ref sig .tc := ⟨.hbm, 72, rfl⟩
abbrev main_c_5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call2_cst : Ref sig .tc := ⟨.hbm, 88, rfl⟩
abbrev main_call2_v0 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_7 : Ref sig .tc := ⟨.hbm, 93, rfl⟩
abbrev main_v68 : Ref sig .tc := ⟨.hbm, 94, rfl⟩
abbrev main_v69 : Ref sig .tc := ⟨.hbm, 95, rfl⟩
abbrev main_c_8 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_9 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_call3_cst : Ref sig .tc := ⟨.hbm, 111, rfl⟩
abbrev main_call3_v0 : Ref sig .tc := ⟨.hbm, 112, rfl⟩
abbrev main_v83 : Ref sig .tc := ⟨.hbm, 113, rfl⟩
abbrev main_v84 : Ref sig .tc := ⟨.hbm, 114, rfl⟩
abbrev main_cst_10 : Ref sig .tc := ⟨.hbm, 115, rfl⟩
abbrev main_v85 : Ref sig .tc := ⟨.hbm, 116, rfl⟩
abbrev main_v86 : Ref sig .tc := ⟨.hbm, 117, rfl⟩
abbrev main_c_11 : Ref sig .tc := ⟨.hbm, 118, rfl⟩
abbrev main_v87 : Ref sig .tc := ⟨.hbm, 119, rfl⟩
abbrev main_v88 : Ref sig .tc := ⟨.hbm, 120, rfl⟩
abbrev main_c_12 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_call4_cst : Ref sig .tc := ⟨.hbm, 127, rfl⟩
abbrev main_call4_v0 : Ref sig .tc := ⟨.hbm, 128, rfl⟩
abbrev main_call4_cst_0 : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_call4_v5 : Ref sig .tc := ⟨.hbm, 134, rfl⟩
abbrev main_call4_v6 : Ref sig .tc := ⟨.hbm, 135, rfl⟩
abbrev main_call4_cst_1 : Ref sig .tc := ⟨.hbm, 136, rfl⟩
abbrev main_call4_v7 : Ref sig .tc := ⟨.hbm, 137, rfl⟩
abbrev main_call4_v8 : Ref sig .tc := ⟨.hbm, 138, rfl⟩
abbrev main_call4_v9 : Ref sig .tc := ⟨.hbm, 139, rfl⟩
abbrev main_call4_v10 : Ref sig .tc := ⟨.hbm, 140, rfl⟩
abbrev main_v94 : Ref sig .tc := ⟨.hbm, 141, rfl⟩
abbrev main_c_13 : Ref sig .tc := ⟨.hbm, 142, rfl⟩
abbrev main_v95 : Ref sig .tc := ⟨.hbm, 143, rfl⟩
abbrev main_v96 : Ref sig .tc := ⟨.hbm, 144, rfl⟩
abbrev main_c_14 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_call5_c : Ref sig .tc := ⟨.hbm, 152, rfl⟩
abbrev main_call5_v0 : Ref sig .tc := ⟨.hbm, 153, rfl⟩
abbrev main_call5_v1 : Ref sig .tc := ⟨.hbm, 154, rfl⟩
abbrev main_call5_c_0 : Ref sig .tc := ⟨.hbm, 155, rfl⟩
abbrev main_call5_v2 : Ref sig .tc := ⟨.hbm, 156, rfl⟩
abbrev main_call5_v3 : Ref sig .tc := ⟨.hbm, 157, rfl⟩
abbrev main_call5_v4 : Ref sig .tc := ⟨.hbm, 158, rfl⟩
abbrev main_call5_v5 : Ref sig .tc := ⟨.hbm, 159, rfl⟩
abbrev main_call5_c_1 : Ref sig .tc := ⟨.hbm, 160, rfl⟩
abbrev main_call5_c_2 : Ref sig .tc := ⟨.hbm, 161, rfl⟩
abbrev main_call5_v6 : Ref sig .tc := ⟨.hbm, 162, rfl⟩
abbrev main_call5_v7 : Ref sig .tc := ⟨.hbm, 163, rfl⟩
abbrev main_call5_v8 : Ref sig .tc := ⟨.hbm, 164, rfl⟩
abbrev main_call5_v9 : Ref sig .tc := ⟨.hbm, 165, rfl⟩
abbrev main_call5_v10 : Ref sig .tc := ⟨.hbm, 166, rfl⟩
abbrev main_call5_v11 : Ref sig .tc := ⟨.hbm, 167, rfl⟩
abbrev main_call5_c_3 : Ref sig .tc := ⟨.hbm, 168, rfl⟩
abbrev main_call5_v12 : Ref sig .tc := ⟨.hbm, 169, rfl⟩
abbrev main_call5_v13 : Ref sig .tc := ⟨.hbm, 170, rfl⟩
abbrev main_call5_cst : Ref sig .tc := ⟨.hbm, 171, rfl⟩
abbrev main_call5_v14 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_cst_15 : Ref sig .tc := ⟨.hbm, 176, rfl⟩
abbrev main_v106 : Ref sig .tc := ⟨.hbm, 177, rfl⟩
abbrev main_cst_16 : Ref sig .tc := ⟨.hbm, 178, rfl⟩
abbrev main_v107 : Ref sig .tc := ⟨.hbm, 179, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x10_0_1 : S1600000x1.BroadcastsInDim S1600000x10 (![0, 1] : Fin 2 → Fin S1600000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  slices_S2x1600000_S1x1600000_1_0 : S2x1600000.Slices ![1, 0] S1x1600000
  bcast_S_S5000 : S_.BroadcastsInDim S5000 (![] : Fin 0 → Fin S5000.rank)
  bcast_S5000_S5000x1_0 : S5000.BroadcastsInDim S5000x1 (![0] : Fin 1 → Fin S5000x1.rank)
  reducesTo_S5000x10_S5000_d1 : S5000x10.ReducesTo [1] S5000
  h_S_ : 0 < S_.numel
  bcast_S5000x1_S5000x10_0_1 : S5000x1.BroadcastsInDim S5000x10 (![0, 1] : Fin 2 → Fin S5000x10.rank)
  bcast_S_S5000x1 : S_.BroadcastsInDim S5000x1 (![] : Fin 0 → Fin S5000x1.rank)
  shapeCasts_S5000x1_S5000x1x1 : S5000x1.ShapeCasts S5000x1x1
  bcast_S_S5000x1x1 : S_.BroadcastsInDim S5000x1x1 (![] : Fin 0 → Fin S5000x1x1.rank)
  bcast_S1_S1x1x1_2 : S1.BroadcastsInDim S1x1x1 (![2] : Fin 1 → Fin S1x1x1.rank)
  bcast_S1x1x1_S5000x1x1_0_1_2 : S1x1x1.BroadcastsInDim S5000x1x1 (![0, 1, 2] : Fin 3 → Fin S5000x1x1.rank)
  reducesTo_S5000x1x1_S5000x1_d2 : S5000x1x1.ReducesTo [2] S5000x1
  shapeCasts_S5000x1_S5000 : S5000x1.ShapeCasts S5000
  reducesTo_S5000_S_d0 : S5000.ReducesTo [0] S_
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x10_S100000x10_1_0_0_1_n_n_wf : DotDims.WF S100000x128 S128x10 S100000x10 [1] [0] [0] [1] [] []
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1
  gather_S100000x10_S5000x1_S5000x10_1_0_n_n_0_1_110_wf : GatherDims.WF S100000x10 S5000x1 S5000x10 [1] [0] [] [0] [] 1 ![1, 10]
  gather_S100000_S5000x1_S5000_n_0_n_n_0_1_1_wf : GatherDims.WF S100000 S5000x1 S5000 [] [0] [] [0] [] 1 ![1]
  gather_S5000x10_S5000x1x1_S5000x1_n_1_0_0_1_2_11_wf : GatherDims.WF S5000x10 S5000x1x1 S5000x1 [] [1] [0] [1] [0] 2 ![1, 1]

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf
def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf
def gather_S100000x10_S5000x1_S5000x10_1_0_n_n_0_1_110 : GatherDims S100000x10 S5000x1 S5000x10 where
  offsetDims := [1]
  collapsedSliceDims := [0]
  operandBatchingDims := []
  startIndicesBatchingDims := []
  startIndexMap := [0]
  indexVectorDim := 1
  sliceSizes := ![1, 10]
  wf := gather_S100000x10_S5000x1_S5000x10_1_0_n_n_0_1_110_wf
def gather_S100000_S5000x1_S5000_n_0_n_n_0_1_1 : GatherDims S100000 S5000x1 S5000 where
  offsetDims := []
  collapsedSliceDims := [0]
  operandBatchingDims := []
  startIndicesBatchingDims := []
  startIndexMap := [0]
  indexVectorDim := 1
  sliceSizes := ![1]
  wf := gather_S100000_S5000x1_S5000_n_0_n_n_0_1_1_wf
def gather_S5000x10_S5000x1x1_S5000x1_n_1_0_0_1_2_11 : GatherDims S5000x10 S5000x1x1 S5000x1 where
  offsetDims := []
  collapsedSliceDims := [1]
  operandBatchingDims := [0]
  startIndicesBatchingDims := [0]
  startIndexMap := [1]
  indexVectorDim := 2
  sliceSizes := ![1, 1]
  wf := gather_S5000x10_S5000x1x1_S5000x1_n_1_0_0_1_2_11_wf

class Facts : Prop extends Facts₀ where

variable [Facts]
-- ==== Proof.KRun.lean ====
/-
  The idealized kernel's run, read to its end.  @main is four grid regions among stretches of host operations; the
  contents of the core's buffers at each boundary form a fold from the launch memory (a host stretch applies its
  operations in order; a region leaves its arrays at what its write-backs fold to and every other buffer alone).
  Every weakly fair execution terminates with each buffer at the LAST boundary's contents: in particular the
  result buffer holds the last boundary's value there, and each argument array is as launched.
-/
import proofs.«172191_j33054068310209_1_alg».proof.Proof.Gen.KernelIdeal.Frame

set_option maxRecDepth 16384

noncomputable section

namespace Cert.Gcn.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends with the result buffer at the last boundary's contents and the arguments as launched. -/
theorem run_last : θ_run defs (onTc (τ := τ) (main (F := F))) ⟨m, fun _ => 0, ρ⟩ (fun r => ∀ c : Dev nD,
      r.2.mem ((c.tc : Thread nD τ).loc main_v90) = W12 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v90 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.Gcn.KRun

end
-- ==== Proof.Spec.lean ====
/-
  The mathematics of the two-layer graph convolution, as whole-array functions on the extended reals.

  A node-feature matrix has one row per node.  A layer is: aggregate rows along the edges (done outside these
  functions), add a bias row to every row, keep the positive part, and multiply by a weight matrix.  The network
  averages the positive parts of two such aggregations.  These are the functions both programs are read against:
  the matrix product as a sum over the contracted position, the bias row repeated down the rows, the positive part as
  the maximum with the zero word, and the half as the word of one half.
-/
import Idealize.ShloMosaic.PureOps.Ideal
import Idealize.ShloMosaic.Lib.ValueIdx

noncomputable section

namespace Cert.Gcn

open Idealize.ShloMosaic Idealize.ShloMosaic.ValueIdx

/-- An n × w matrix of extended reals. -/
abbrev Mat (n w : ℕ) := (⟨2, ![n, w]⟩ : Shape).Idx → EReal

/-- The matrix product: entry (p, q) is the sum over k of a(p, k) · b(k, q). -/
def mm {n K w : ℕ} (a : Mat n K) (b : Mat K w) : Mat n w :=
  fun i => ∑ k : Fin K, a (ix2 (i 0) k) * b (ix2 k (i 1))

/-- A one-row matrix added to every row, then the positive part: max(s(p, q) + b(0, q), 0), the zero being the
    zero word's value. -/
def biasRelu {n w : ℕ} (s : Mat n w) (b : Mat 1 w) : Mat n w :=
  fun i => max (s i + b (ix2 (0 : Fin 1) (i 1))) (Ideal.ofBits .f32 0x00000000#32)

/-- One dense layer after aggregation: (positive part of (s + bias)) · W. -/
def dense {n K w : ℕ} (s : Mat n K) (b : Mat 1 K) (W : Mat K w) : Mat n w := mm (biasRelu s b) W

/-- The mean of the two views' activations: (relu(s0 + b) + relu(s1 + b)) · ½, the half being the word 0x3F000000's
    value. -/
def mean2 {n w : ℕ} (s0 s1 : Mat n w) (b : Mat 1 w) : Mat n w :=
  fun i => (biasRelu s0 b i + biasRelu s1 b i) * Ideal.ofBits .f32 0x3F000000#32

theorem mm_apply {n K w : ℕ} (a : Mat n K) (b : Mat K w) (p : Fin n) (q : Fin w) :
    mm a b (ix2 p q) = ∑ k : Fin K, a (ix2 p k) * b (ix2 k q) := rfl

theorem biasRelu_apply {n w : ℕ} (s : Mat n w) (b : Mat 1 w) (p : Fin n) (q : Fin w) :
    biasRelu s b (ix2 p q) = max (s (ix2 p q) + b (ix2 (0 : Fin 1) q)) (Ideal.ofBits .f32 0x00000000#32) := rfl

theorem dense_apply {n K w : ℕ} (s : Mat n K) (b : Mat 1 K) (W : Mat K w) (p : Fin n) (q : Fin w) :
    dense s b W (ix2 p q)
      = ∑ k : Fin K, max (s (ix2 p k) + b (ix2 (0 : Fin 1) k)) (Ideal.ofBits .f32 0x00000000#32) * W (ix2 k q) := rfl

theorem mean2_apply {n w : ℕ} (s0 s1 : Mat n w) (b : Mat 1 w) (p : Fin n) (q : Fin w) :
    mean2 s0 s1 b (ix2 p q)
      = (max (s0 (ix2 p q) + b (ix2 (0 : Fin 1) q)) (Ideal.ofBits .f32 0x00000000#32)
          + max (s1 (ix2 p q) + b (ix2 (0 : Fin 1) q)) (Ideal.ofBits .f32 0x00000000#32))
        * Ideal.ofBits .f32 0x3F000000#32 := rfl

end Cert.Gcn

end
-- ==== Proof.KHost.lean ====
/-
  The idealized kernel's host stretches, one at a time.  For each stretch of host operations between two grid
  regions, and each array a later step reads, the array's contents after the stretch as a function of the arrays
  the stretch itself reads (the operations composed in order); an array the stretch does not write is unchanged.
-/
import proofs.«172191_j33054068310209_1_alg».proof.Proof.Gen.KernelIdeal.Frame

import Idealize.ShloMosaic.Lib.StableHlo.Run
import Idealize.ShloMosaic.PureOps.Ideal

set_option maxRecDepth 16384

noncomputable section

namespace Cert.Gcn.KHost

open Idealize.ShloMosaic Idealize.ShloMosaic.TcCoe Idealize.SL.Sem Idealize.ShloMosaic.StableHlo
open Cert.KernelIdeal Cert.KernelIdeal.Gen

variable {F : FTy → Type} [FloatOps F]

/-- What main_v2 holds after this stretch, as a function of the arrays the stretch reads. -/
def K_h1_main_v2 (x_main_arg4 : (⟨S10, .f32⟩ : BufTy).Contents (Elt F)) : (⟨S1x10, .f32⟩ : BufTy).Contents (Elt F) :=
  (shapeCast S1x10 x_main_arg4 shapeCasts_S10_S1x10)

/-- What main_v1 holds after this stretch, as a function of the arrays the stretch reads. -/
def K_h1_main_v1 (x_main_arg2 : (⟨S128, .f32⟩ : BufTy).Contents (Elt F)) : (⟨S1x128, .f32⟩ : BufTy).Contents (Elt F) :=
  (shapeCast S1x128 x_main_arg2 shapeCasts_S128_S1x128)

/-- What main_v8 holds after this stretch, as a function of the arrays the stretch reads. -/
def K_h1_main_v8 (x_main_arg5 : (⟨S2x1600000, .f32⟩ : BufTy).Contents (Elt F)) : (⟨S1600000, .f32⟩ : BufTy).Contents (Elt F) :=
  (shapeCast S1600000 (((extractStridedSlice S1x1600000 ![0, 0] · slices_S2x1600000_S1x1600000_0_0) : (⟨S2x1600000, .f32⟩ : BufTy).Contents (Elt F) → (⟨S1x1600000, .f32⟩ : BufTy).Contents (Elt F)) x_main_arg5) shapeCasts_S1x1600000_S1600000)

/-- What main_v6 holds after this stretch, as a function of the arrays the stretch reads. -/
def K_h1_main_v6 (x_main_arg7 : (⟨S2x1600000, .i32⟩ : BufTy).Contents (Elt F)) : (⟨S1600000, .i32⟩ : BufTy).Contents (Elt F) :=
  (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) x_main_arg7) shapeCasts_S1x1600000_S1600000)

/-- What main_v4 holds after this stretch, as a function of the arrays the stretch reads. -/
def K_h1_main_v4 (x_main_arg6 : (⟨S2x1600000, .i32⟩ : BufTy).Contents (Elt F)) : (⟨S1600000, .i32⟩ : BufTy).Contents (Elt F) :=
  (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) x_main_arg6) shapeCasts_S1x1600000_S1600000)

/-- What main_v21 holds after this stretch, as a function of the arrays the stretch reads. -/
def K_h1_main_v21 (x_main_arg6 : (⟨S2x1600000, .i32⟩ : BufTy).Contents (Elt F)) (x_main_arg5 : (⟨S2x1600000, .f32⟩ : BufTy).Contents (Elt F)) (x_main_v0 : (⟨S100000x128, .f32⟩ : BufTy).Contents (Elt F)) (x_main_arg7 : (⟨S2x1600000, .i32⟩ : BufTy).Contents (Elt F)) : (⟨S100000x128, .f32⟩ : BufTy).Contents (Elt F) :=
  (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) ((constant S_ .f32 0x00000000#32) : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) x_main_arg6) shapeCasts_S1x1600000_S1600000)) ((mulf : (⟨S1600000x128, .f32⟩ : BufTy).Contents (Elt F) → (⟨S1600000x128, .f32⟩ : BufTy).Contents (Elt F) → (⟨S1600000x128, .f32⟩ : BufTy).Contents (Elt F)) ((broadcastInDim S1600000x128 ![0, 1] bcast_S1600000x1_S1600000x128_0_1 : (⟨S1600000x1, .f32⟩ : BufTy).Contents (Elt F) → (⟨S1600000x128, .f32⟩ : BufTy).Contents (Elt F)) ((broadcastInDim S1600000x1 ![0] bcast_S1600000_S1600000x1_0 : (⟨S1600000, .f32⟩ : BufTy).Contents (Elt F) → (⟨S1600000x1, .f32⟩ : BufTy).Contents (Elt F)) (shapeCast S1600000 (((extractStridedSlice S1x1600000 ![0, 0] · slices_S2x1600000_S1x1600000_0_0) : (⟨S2x1600000, .f32⟩ : BufTy).Contents (Elt F) → (⟨S1x1600000, .f32⟩ : BufTy).Contents (Elt F)) x_main_arg5) shapeCasts_S1x1600000_S1600000))) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) x_main_v0 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) x_main_arg7) shapeCasts_S1x1600000_S1600000) ((broadcastInDim S1600000 ![] bcast_S_S1600000 : (⟨S_, .i32⟩ : BufTy).Contents (Elt F) → (⟨S1600000, .i32⟩ : BufTy).Contents (Elt F)) ((constantI S_ 32 0#32) : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) x_main_arg7) shapeCasts_S1x1600000_S1600000) ((broadcastInDim S1600000 ![] bcast_S_S1600000 : (⟨S_, .i32⟩ : BufTy).Contents (Elt F) → (⟨S1600000, .i32⟩ : BufTy).Contents (Elt F)) ((constantI S_ 32 100000#32) : (⟨S_, .i32⟩ : BufTy).Contents (Elt F)))) (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) x_main_arg7) shapeCasts_S1x1600000_S1600000))))))

/-- What main_v35 holds after this stretch, as a function of the arrays the stretch reads. -/
def K_h2_main_v35 (x_main_v4 : (⟨S1600000, .i32⟩ : BufTy).Contents (Elt F)) (x_main_v8 : (⟨S1600000, .f32⟩ : BufTy).Contents (Elt F)) (x_main_v22 : (⟨S100000x10, .f32⟩ : BufTy).Contents (Elt F)) (x_main_v6 : (⟨S1600000, .i32⟩ : BufTy).Contents (Elt F)) : (⟨S100000x10, .f32⟩ : BufTy).Contents (Elt F) :=
  (((fun x i u => Host.scatterAdd scatter_S100000x10_S1600000x1_S1600000x10_1_0_0_1 x i u) : (⟨S100000x10, .f32⟩ : BufTy).Contents (Elt F) → (⟨S1600000x1, .i32⟩ : BufTy).Contents (Elt F) → (⟨S1600000x10, .f32⟩ : BufTy).Contents (Elt F) → (⟨S100000x10, .f32⟩ : BufTy).Contents (Elt F)) ((broadcastInDim S100000x10 ![] bcast_S_S100000x10 : (⟨S_, .f32⟩ : BufTy).Contents (Elt F) → (⟨S100000x10, .f32⟩ : BufTy).Contents (Elt F)) ((constant S_ .f32 0x00000000#32) : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) x_main_v4) ((mulf : (⟨S1600000x10, .f32⟩ : BufTy).Contents (Elt F) → (⟨S1600000x10, .f32⟩ : BufTy).Contents (Elt F) → (⟨S1600000x10, .f32⟩ : BufTy).Contents (Elt F)) ((broadcastInDim S1600000x10 ![0, 1] bcast_S1600000x1_S1600000x10_0_1 : (⟨S1600000x1, .f32⟩ : BufTy).Contents (Elt F) → (⟨S1600000x10, .f32⟩ : BufTy).Contents (Elt F)) ((broadcastInDim S1600000x1 ![0] bcast_S1600000_S1600000x1_0 : (⟨S1600000, .f32⟩ : BufTy).Contents (Elt F) → (⟨S1600000x1, .f32⟩ : BufTy).Contents (Elt F)) x_main_v8)) (((fun x i => Host.gather gather_S100000x10_S1600000x1_S1600000x10_1_0_n_n_0_1_110 x i) : (⟨S100000x10, .f32⟩ : BufTy).Contents (Elt F) → (⟨S1600000x1, .i32⟩ : BufTy).Contents (Elt F) → (⟨S1600000x10, .f32⟩ : BufTy).Contents (Elt F)) x_main_v22 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_main_v6 ((broadcastInDim S1600000 ![] bcast_S_S1600000 : (⟨S_, .i32⟩ : BufTy).Contents (Elt F) → (⟨S1600000, .i32⟩ : BufTy).Contents (Elt F)) ((constantI S_ 32 0#32) : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) x_main_v6 ((broadcastInDim S1600000 ![] bcast_S_S1600000 : (⟨S_, .i32⟩ : BufTy).Contents (Elt F) → (⟨S1600000, .i32⟩ : BufTy).Contents (Elt F)) ((constantI S_ 32 100000#32) : (⟨S_, .i32⟩ : BufTy).Contents (Elt F)))) x_main_v6)))))

/-- What main_v41 holds after this stretch, as a function of the arrays the stretch reads. -/
def K_h2_main_v41 (x_main_arg5 : (⟨S2x1600000, .f32⟩ : BufTy).Contents (Elt F)) : (⟨S1600000, .f32⟩ : BufTy).Contents (Elt F) :=
  (shapeCast S1600000 (((extractStridedSlice S1x1600000 ![1, 0] · slices_S2x1600000_S1x1600000_1_0) : (⟨S2x1600000, .f32⟩ : BufTy).Contents (Elt F) → (⟨S1x1600000, .f32⟩ : BufTy).Contents (Elt F)) x_main_arg5) shapeCasts_S1x1600000_S1600000)

/-- What main_v39 holds after this stretch, as a function of the arrays the stretch reads. -/
def K_h2_main_v39 (x_main_arg7 : (⟨S2x1600000, .i32⟩ : BufTy).Contents (Elt F)) : (⟨S1600000, .i32⟩ : BufTy).Contents (Elt F) :=
  (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) x_main_arg7) shapeCasts_S1x1600000_S1600000)

/-- What main_v37 holds after this stretch, as a function of the arrays the stretch reads. -/
def K_h2_main_v37 (x_main_arg6 : (⟨S2x1600000, .i32⟩ : BufTy).Contents (Elt F)) : (⟨S1600000, .i32⟩ : BufTy).Contents (Elt F) :=
  (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) x_main_arg6) shapeCasts_S1x1600000_S1600000)

/-- What main_v54 holds after this stretch, as a function of the arrays the stretch reads. -/
def K_h2_main_v54 (x_main_arg6 : (⟨S2x1600000, .i32⟩ : BufTy).Contents (Elt F)) (x_main_arg5 : (⟨S2x1600000, .f32⟩ : BufTy).Contents (Elt F)) (x_main_v0 : (⟨S100000x128, .f32⟩ : BufTy).Contents (Elt F)) (x_main_arg7 : (⟨S2x1600000, .i32⟩ : BufTy).Contents (Elt F)) : (⟨S100000x128, .f32⟩ : BufTy).Contents (Elt F) :=
  (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) ((constant S_ .f32 0x00000000#32) : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) x_main_arg6) shapeCasts_S1x1600000_S1600000)) ((mulf : (⟨S1600000x128, .f32⟩ : BufTy).Contents (Elt F) → (⟨S1600000x128, .f32⟩ : BufTy).Contents (Elt F) → (⟨S1600000x128, .f32⟩ : BufTy).Contents (Elt F)) ((broadcastInDim S1600000x128 ![0, 1] bcast_S1600000x1_S1600000x128_0_1 : (⟨S1600000x1, .f32⟩ : BufTy).Contents (Elt F) → (⟨S1600000x128, .f32⟩ : BufTy).Contents (Elt F)) ((broadcastInDim S1600000x1 ![0] bcast_S1600000_S1600000x1_0 : (⟨S1600000, .f32⟩ : BufTy).Contents (Elt F) → (⟨S1600000x1, .f32⟩ : BufTy).Contents (Elt F)) (shapeCast S1600000 (((extractStridedSlice S1x1600000 ![1, 0] · slices_S2x1600000_S1x1600000_1_0) : (⟨S2x1600000, .f32⟩ : BufTy).Contents (Elt F) → (⟨S1x1600000, .f32⟩ : BufTy).Contents (Elt F)) x_main_arg5) shapeCasts_S1x1600000_S1600000))) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) x_main_v0 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) x_main_arg7) shapeCasts_S1x1600000_S1600000) ((broadcastInDim S1600000 ![] bcast_S_S1600000 : (⟨S_, .i32⟩ : BufTy).Contents (Elt F) → (⟨S1600000, .i32⟩ : BufTy).Contents (Elt F)) ((constantI S_ 32 0#32) : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) x_main_arg7) shapeCasts_S1x1600000_S1600000) ((broadcastInDim S1600000 ![] bcast_S_S1600000 : (⟨S_, .i32⟩ : BufTy).Contents (Elt F) → (⟨S1600000, .i32⟩ : BufTy).Contents (Elt F)) ((constantI S_ 32 100000#32) : (⟨S_, .i32⟩ : BufTy).Contents (Elt F)))) (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) x_main_arg7) shapeCasts_S1x1600000_S1600000))))))

/-- What main_v68 holds after this stretch, as a function of the arrays the stretch reads. -/
def K_h3_main_v68 (x_main_v37 : (⟨S1600000, .i32⟩ : BufTy).Contents (Elt F)) (x_main_v41 : (⟨S1600000, .f32⟩ : BufTy).Contents (Elt F)) (x_main_v55 : (⟨S100000x10, .f32⟩ : BufTy).Contents (Elt F)) (x_main_v39 : (⟨S1600000, .i32⟩ : BufTy).Contents (Elt F)) : (⟨S100000x10, .f32⟩ : BufTy).Contents (Elt F) :=
  (((fun x i u => Host.scatterAdd scatter_S100000x10_S1600000x1_S1600000x10_1_0_0_1 x i u) : (⟨S100000x10, .f32⟩ : BufTy).Contents (Elt F) → (⟨S1600000x1, .i32⟩ : BufTy).Contents (Elt F) → (⟨S1600000x10, .f32⟩ : BufTy).Contents (Elt F) → (⟨S100000x10, .f32⟩ : BufTy).Contents (Elt F)) ((broadcastInDim S100000x10 ![] bcast_S_S100000x10 : (⟨S_, .f32⟩ : BufTy).Contents (Elt F) → (⟨S100000x10, .f32⟩ : BufTy).Contents (Elt F)) ((constant S_ .f32 0x00000000#32) : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) x_main_v37) ((mulf : (⟨S1600000x10, .f32⟩ : BufTy).Contents (Elt F) → (⟨S1600000x10, .f32⟩ : BufTy).Contents (Elt F) → (⟨S1600000x10, .f32⟩ : BufTy).Contents (Elt F)) ((broadcastInDim S1600000x10 ![0, 1] bcast_S1600000x1_S1600000x10_0_1 : (⟨S1600000x1, .f32⟩ : BufTy).Contents (Elt F) → (⟨S1600000x10, .f32⟩ : BufTy).Contents (Elt F)) ((broadcastInDim S1600000x1 ![0] bcast_S1600000_S1600000x1_0 : (⟨S1600000, .f32⟩ : BufTy).Contents (Elt F) → (⟨S1600000x1, .f32⟩ : BufTy).Contents (Elt F)) x_main_v41)) (((fun x i => Host.gather gather_S100000x10_S1600000x1_S1600000x10_1_0_n_n_0_1_110 x i) : (⟨S100000x10, .f32⟩ : BufTy).Contents (Elt F) → (⟨S1600000x1, .i32⟩ : BufTy).Contents (Elt F) → (⟨S1600000x10, .f32⟩ : BufTy).Contents (Elt F)) x_main_v55 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_main_v39 ((broadcastInDim S1600000 ![] bcast_S_S1600000 : (⟨S_, .i32⟩ : BufTy).Contents (Elt F) → (⟨S1600000, .i32⟩ : BufTy).Contents (Elt F)) ((constantI S_ 32 0#32) : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) x_main_v39 ((broadcastInDim S1600000 ![] bcast_S_S1600000 : (⟨S_, .i32⟩ : BufTy).Contents (Elt F) → (⟨S1600000, .i32⟩ : BufTy).Contents (Elt F)) ((constantI S_ 32 100000#32) : (⟨S_, .i32⟩ : BufTy).Contents (Elt F)))) x_main_v39)))))

/-- What main_v76 holds after this stretch, as a function of the arrays the stretch reads. -/
def K_t1_main_v76 (x_main_v69 : (⟨S100000x10, .f32⟩ : BufTy).Contents (Elt F)) (x_main_arg9 : (⟨S5000, .i32⟩ : BufTy).Contents (Elt F)) : (⟨S5000x10, .f32⟩ : BufTy).Contents (Elt F) :=
  (((fun x i => Host.gather gather_S100000x10_S5000x1_S5000x10_1_0_n_n_0_1_110 x i) : (⟨S100000x10, .f32⟩ : BufTy).Contents (Elt F) → (⟨S5000x1, .i32⟩ : BufTy).Contents (Elt F) → (⟨S5000x10, .f32⟩ : BufTy).Contents (Elt F)) x_main_v69 ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) x_main_arg9 ((broadcastInDim S5000 ![] bcast_S_S5000 : (⟨S_, .i32⟩ : BufTy).Contents (Elt F) → (⟨S5000, .i32⟩ : BufTy).Contents (Elt F)) ((constantI S_ 32 0#32) : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) x_main_arg9 ((broadcastInDim S5000 ![] bcast_S_S5000 : (⟨S_, .i32⟩ : BufTy).Contents (Elt F) → (⟨S5000, .i32⟩ : BufTy).Contents (Elt F)) ((constantI S_ 32 100000#32) : (⟨S_, .i32⟩ : BufTy).Contents (Elt F)))) x_main_arg9)))

/-- What main_v77 holds after this stretch, as a function of the arrays the stretch reads. -/
def K_t2_main_v77 (x_main_v76 : (⟨S5000x10, .f32⟩ : BufTy).Contents (Elt F)) : (⟨S5000x10, .f32⟩ : BufTy).Contents (Elt F) :=
  ((subf : (⟨S5000x10, .f32⟩ : BufTy).Contents (Elt F) → (⟨S5000x10, .f32⟩ : BufTy).Contents (Elt F) → (⟨S5000x10, .f32⟩ : BufTy).Contents (Elt F)) ((subf : (⟨S5000x10, .f32⟩ : BufTy).Contents (Elt F) → (⟨S5000x10, .f32⟩ : BufTy).Contents (Elt F) → (⟨S5000x10, .f32⟩ : BufTy).Contents (Elt F)) x_main_v76 (((broadcastInDim S5000x10 ![0, 1] bcast_S5000x1_S5000x10_0_1) : (⟨S5000x1, .f32⟩ : BufTy).Contents (Elt F) → (⟨S5000x10, .f32⟩ : BufTy).Contents (Elt F)) (((broadcastInDim S5000x1 ![0] bcast_S5000_S5000x1_0) : (⟨S5000, .f32⟩ : BufTy).Contents (Elt F) → (⟨S5000x1, .f32⟩ : BufTy).Contents (Elt F)) ((maximumf : (⟨S5000, .f32⟩ : BufTy).Contents (Elt F) → (⟨S5000, .f32⟩ : BufTy).Contents (Elt F) → (⟨S5000, .f32⟩ : BufTy).Contents (Elt F)) (((broadcastInDim S5000 ![] bcast_S_S5000) : (⟨S_, .f32⟩ : BufTy).Contents (Elt F) → (⟨S5000, .f32⟩ : BufTy).Contents (Elt F)) ((constant S_ .f32 0xFF800000#32) : (⟨S_, .f32⟩ : BufTy).Contents (Elt F))) (((fun x v => Host.reduce FloatOps.maximumf x v reducesTo_S5000x10_S5000_d1 h_S_) : (⟨S5000x10, .f32⟩ : BufTy).Contents (Elt F) → (⟨S_, .f32⟩ : BufTy).Contents (Elt F) → (⟨S5000, .f32⟩ : BufTy).Contents (Elt F)) x_main_v76 ((constant S_ .f32 0xFF800000#32) : (⟨S_, .f32⟩ : BufTy).Contents (Elt F))))))) (((broadcastInDim S5000x10 ![0, 1] bcast_S5000x1_S5000x10_0_1) : (⟨S5000x1, .f32⟩ : BufTy).Contents (Elt F) → (⟨S5000x10, .f32⟩ : BufTy).Contents (Elt F)) ((Host.log : (⟨S5000x1, .f32⟩ : BufTy).Contents (Elt F) → (⟨S5000x1, .f32⟩ : BufTy).Contents (Elt F)) (((broadcastInDim S5000x1 ![0] bcast_S5000_S5000x1_0) : (⟨S5000, .f32⟩ : BufTy).Contents (Elt F) → (⟨S5000x1, .f32⟩ : BufTy).Contents (Elt F)) (((fun x v => Host.reduceAdd x v reducesTo_S5000x10_S5000_d1 h_S_) : (⟨S5000x10, .f32⟩ : BufTy).Contents (Elt F) → (⟨S_, .f32⟩ : BufTy).Contents (Elt F) → (⟨S5000, .f32⟩ : BufTy).Contents (Elt F)) ((Host.exp : (⟨S5000x10, .f32⟩ : BufTy).Contents (Elt F) → (⟨S5000x10, .f32⟩ : BufTy).Contents (Elt F)) ((subf : (⟨S5000x10, .f32⟩ : BufTy).Contents (Elt F) → (⟨S5000x10, .f32⟩ : BufTy).Contents (Elt F) → (⟨S5000x10, .f32⟩ : BufTy).Contents (Elt F)) x_main_v76 (((broadcastInDim S5000x10 ![0, 1] bcast_S5000x1_S5000x10_0_1) : (⟨S5000x1, .f32⟩ : BufTy).Contents (Elt F) → (⟨S5000x10, .f32⟩ : BufTy).Contents (Elt F)) (((broadcastInDim S5000x1 ![0] bcast_S5000_S5000x1_0) : (⟨S5000, .f32⟩ : BufTy).Contents (Elt F) → (⟨S5000x1, .f32⟩ : BufTy).Contents (Elt F)) ((maximumf : (⟨S5000, .f32⟩ : BufTy).Contents (Elt F) → (⟨S5000, .f32⟩ : BufTy).Contents (Elt F) → (⟨S5000, .f32⟩ : BufTy).Contents (Elt F)) (((broadcastInDim S5000 ![] bcast_S_S5000) : (⟨S_, .f32⟩ : BufTy).Contents (Elt F) → (⟨S5000, .f32⟩ : BufTy).Contents (Elt F)) ((constant S_ .f32 0xFF800000#32) : (⟨S_, .f32⟩ : BufTy).Contents (Elt F))) (((fun x v => Host.reduce FloatOps.maximumf x v reducesTo_S5000x10_S5000_d1 h_S_) : (⟨S5000x10, .f32⟩ : BufTy).Contents (Elt F) → (⟨S_, .f32⟩ : BufTy).Contents (Elt F) → (⟨S5000, .f32⟩ : BufTy).Contents (Elt F)) x_main_v76 ((constant S_ .f32 0xFF800000#32) : (⟨S_, .f32⟩ : BufTy).Contents (Elt F)))))))) ((constant S_ .f32 0x00000000#32) : (⟨S_, .f32⟩ : BufTy).Contents (Elt F)))))))

/-- What main_v85 holds after this stretch, as a function of the arrays the stretch reads. -/
def K_t3_main_v85 (x_main_arg8 : (⟨S100000, .i32⟩ : BufTy).Contents (Elt F)) (x_main_arg9 : (⟨S5000, .i32⟩ : BufTy).Contents (Elt F)) : (⟨S5000x1, .i32⟩ : BufTy).Contents (Elt F) :=
  ((broadcastInDim S5000x1 ![0] bcast_S5000_S5000x1_0 : (⟨S5000, .i32⟩ : BufTy).Contents (Elt F) → (⟨S5000x1, .i32⟩ : BufTy).Contents (Elt F)) (((fun x i => Host.gather gather_S100000_S5000x1_S5000_n_0_n_n_0_1_1 x i) : (⟨S100000, .i32⟩ : BufTy).Contents (Elt F) → (⟨S5000x1, .i32⟩ : BufTy).Contents (Elt F) → (⟨S5000, .i32⟩ : BufTy).Contents (Elt F)) x_main_arg8 ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) x_main_arg9 ((broadcastInDim S5000 ![] bcast_S_S5000 : (⟨S_, .i32⟩ : BufTy).Contents (Elt F) → (⟨S5000, .i32⟩ : BufTy).Contents (Elt F)) ((constantI S_ 32 0#32) : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) x_main_arg9 ((broadcastInDim S5000 ![] bcast_S_S5000 : (⟨S_, .i32⟩ : BufTy).Contents (Elt F) → (⟨S5000, .i32⟩ : BufTy).Contents (Elt F)) ((constantI S_ 32 100000#32) : (⟨S_, .i32⟩ : BufTy).Contents (Elt F)))) x_main_arg9))))

/-- What main_v86 holds after this stretch, as a function of the arrays the stretch reads. -/
def K_t4_main_v86 (x_main_v85 : (⟨S5000x1, .i32⟩ : BufTy).Contents (Elt F)) (x_main_v77 : (⟨S5000x10, .f32⟩ : BufTy).Contents (Elt F)) : (⟨S5000x1, .f32⟩ : BufTy).Contents (Elt F) :=
  ((select : (⟨S5000x1, .i1⟩ : BufTy).Contents (Elt F) → (⟨S5000x1, .f32⟩ : BufTy).Contents (Elt F) → (⟨S5000x1, .f32⟩ : BufTy).Contents (Elt F) → (⟨S5000x1, .f32⟩ : BufTy).Contents (Elt F)) (((fun x v => Host.reduce IntOp.andi x v reducesTo_S5000x1x1_S5000x1_d2 h_S_) : (⟨S5000x1x1, .i1⟩ : BufTy).Contents (Elt F) → (⟨S_, .i1⟩ : BufTy).Contents (Elt F) → (⟨S5000x1, .i1⟩ : BufTy).Contents (Elt F)) ((andi : (⟨S5000x1x1, .i1⟩ : BufTy).Contents (Elt F) → (⟨S5000x1x1, .i1⟩ : BufTy).Contents (Elt F) → (⟨S5000x1x1, .i1⟩ : BufTy).Contents (Elt F)) (((cmpi .sge) : (⟨S5000x1x1, .i32⟩ : BufTy).Contents (Elt F) → (⟨S5000x1x1, .i32⟩ : BufTy).Contents (Elt F) → (⟨S5000x1x1, .i1⟩ : BufTy).Contents (Elt F)) (shapeCast S5000x1x1 ((select : (⟨S5000x1, .i1⟩ : BufTy).Contents (Elt F) → (⟨S5000x1, .i32⟩ : BufTy).Contents (Elt F) → (⟨S5000x1, .i32⟩ : BufTy).Contents (Elt F) → (⟨S5000x1, .i32⟩ : BufTy).Contents (Elt F)) (((cmpi .slt) : (⟨S5000x1, .i32⟩ : BufTy).Contents (Elt F) → (⟨S5000x1, .i32⟩ : BufTy).Contents (Elt F) → (⟨S5000x1, .i1⟩ : BufTy).Contents (Elt F)) x_main_v85 (((broadcastInDim S5000x1 ![] bcast_S_S5000x1) : (⟨S_, .i32⟩ : BufTy).Contents (Elt F) → (⟨S5000x1, .i32⟩ : BufTy).Contents (Elt F)) ((constantI S_ 32 0#32) : (⟨S_, .i32⟩ : BufTy).Contents (Elt F)))) ((addi : (⟨S5000x1, .i32⟩ : BufTy).Contents (Elt F) → (⟨S5000x1, .i32⟩ : BufTy).Contents (Elt F) → (⟨S5000x1, .i32⟩ : BufTy).Contents (Elt F)) x_main_v85 (((broadcastInDim S5000x1 ![] bcast_S_S5000x1) : (⟨S_, .i32⟩ : BufTy).Contents (Elt F) → (⟨S5000x1, .i32⟩ : BufTy).Contents (Elt F)) ((constantI S_ 32 10#32) : (⟨S_, .i32⟩ : BufTy).Contents (Elt F)))) x_main_v85) shapeCasts_S5000x1_S5000x1x1) (((broadcastInDim S5000x1x1 ![] bcast_S_S5000x1x1) : (⟨S_, .i32⟩ : BufTy).Contents (Elt F) → (⟨S5000x1x1, .i32⟩ : BufTy).Contents (Elt F)) ((constantI S_ 32 0#32) : (⟨S_, .i32⟩ : BufTy).Contents (Elt F)))) (((cmpi .sle) : (⟨S5000x1x1, .i32⟩ : BufTy).Contents (Elt F) → (⟨S5000x1x1, .i32⟩ : BufTy).Contents (Elt F) → (⟨S5000x1x1, .i1⟩ : BufTy).Contents (Elt F)) (shapeCast S5000x1x1 ((select : (⟨S5000x1, .i1⟩ : BufTy).Contents (Elt F) → (⟨S5000x1, .i32⟩ : BufTy).Contents (Elt F) → (⟨S5000x1, .i32⟩ : BufTy).Contents (Elt F) → (⟨S5000x1, .i32⟩ : BufTy).Contents (Elt F)) (((cmpi .slt) : (⟨S5000x1, .i32⟩ : BufTy).Contents (Elt F) → (⟨S5000x1, .i32⟩ : BufTy).Contents (Elt F) → (⟨S5000x1, .i1⟩ : BufTy).Contents (Elt F)) x_main_v85 (((broadcastInDim S5000x1 ![] bcast_S_S5000x1) : (⟨S_, .i32⟩ : BufTy).Contents (Elt F) → (⟨S5000x1, .i32⟩ : BufTy).Contents (Elt F)) ((constantI S_ 32 0#32) : (⟨S_, .i32⟩ : BufTy).Contents (Elt F)))) ((addi : (⟨S5000x1, .i32⟩ : BufTy).Contents (Elt F) → (⟨S5000x1, .i32⟩ : BufTy).Contents (Elt F) → (⟨S5000x1, .i32⟩ : BufTy).Contents (Elt F)) x_main_v85 (((broadcastInDim S5000x1 ![] bcast_S_S5000x1) : (⟨S_, .i32⟩ : BufTy).Contents (Elt F) → (⟨S5000x1, .i32⟩ : BufTy).Contents (Elt F)) ((constantI S_ 32 10#32) : (⟨S_, .i32⟩ : BufTy).Contents (Elt F)))) x_main_v85) shapeCasts_S5000x1_S5000x1x1) (((broadcastInDim S5000x1x1 ![0, 1, 2] bcast_S1x1x1_S5000x1x1_0_1_2) : (⟨S1x1x1, .i32⟩ : BufTy).Contents (Elt F) → (⟨S5000x1x1, .i32⟩ : BufTy).Contents (Elt F)) (((broadcastInDim S1x1x1 ![2] bcast_S1_S1x1x1_2) : (⟨S1, .i32⟩ : BufTy).Contents (Elt F) → (⟨S1x1x1, .i32⟩ : BufTy).Contents (Elt F)) ((constantI S1 32 9#32) : (⟨S1, .i32⟩ : BufTy).Contents (Elt F)))))) ((constantI S_ 1 1#1) : (⟨S_, .i1⟩ : BufTy).Contents (Elt F))) (((fun x i => Host.gather gather_S5000x10_S5000x1x1_S5000x1_n_1_0_0_1_2_11 x i) : (⟨S5000x10, .f32⟩ : BufTy).Contents (Elt F) → (⟨S5000x1x1, .i32⟩ : BufTy).Contents (Elt F) → (⟨S5000x1, .f32⟩ : BufTy).Contents (Elt F)) x_main_v77 (shapeCast S5000x1x1 ((select : (⟨S5000x1, .i1⟩ : BufTy).Contents (Elt F) → (⟨S5000x1, .i32⟩ : BufTy).Contents (Elt F) → (⟨S5000x1, .i32⟩ : BufTy).Contents (Elt F) → (⟨S5000x1, .i32⟩ : BufTy).Contents (Elt F)) (((cmpi .slt) : (⟨S5000x1, .i32⟩ : BufTy).Contents (Elt F) → (⟨S5000x1, .i32⟩ : BufTy).Contents (Elt F) → (⟨S5000x1, .i1⟩ : BufTy).Contents (Elt F)) x_main_v85 (((broadcastInDim S5000x1 ![] bcast_S_S5000x1) : (⟨S_, .i32⟩ : BufTy).Contents (Elt F) → (⟨S5000x1, .i32⟩ : BufTy).Contents (Elt F)) ((constantI S_ 32 0#32) : (⟨S_, .i32⟩ : BufTy).Contents (Elt F)))) ((addi : (⟨S5000x1, .i32⟩ : BufTy).Contents (Elt F) → (⟨S5000x1, .i32⟩ : BufTy).Contents (Elt F) → (⟨S5000x1, .i32⟩ : BufTy).Contents (Elt F)) x_main_v85 (((broadcastInDim S5000x1 ![] bcast_S_S5000x1) : (⟨S_, .i32⟩ : BufTy).Contents (Elt F) → (⟨S5000x1, .i32⟩ : BufTy).Contents (Elt F)) ((constantI S_ 32 10#32) : (⟨S_, .i32⟩ : BufTy).Contents (Elt F)))) x_main_v85) shapeCasts_S5000x1_S5000x1x1)) (((broadcastInDim S5000x1 ![] bcast_S_S5000x1) : (⟨S_, .f32⟩ : BufTy).Contents (Elt F) → (⟨S5000x1, .f32⟩ : BufTy).Contents (Elt F)) ((constant S_ .f32 0x7FC00000#32) : (⟨S_, .f32⟩ : BufTy).Contents (Elt F))))

/-- What main_v90 holds after this stretch, as a function of the arrays the stretch reads. -/
def K_t5_main_v90 (x_main_v86 : (⟨S5000x1, .f32⟩ : BufTy).Contents (Elt F)) : (⟨S_, .f32⟩ : BufTy).Contents (Elt F) :=
  ((Host.divf : (⟨S_, .f32⟩ : BufTy).Contents (Elt F) → (⟨S_, .f32⟩ : BufTy).Contents (Elt F) → (⟨S_, .f32⟩ : BufTy).Contents (Elt F)) (((fun x v => Host.reduceAdd x v reducesTo_S5000_S_d0 h_S_) : (⟨S5000, .f32⟩ : BufTy).Contents (Elt F) → (⟨S_, .f32⟩ : BufTy).Contents (Elt F) → (⟨S_, .f32⟩ : BufTy).Contents (Elt F)) ((Host.negf : (⟨S5000, .f32⟩ : BufTy).Contents (Elt F) → (⟨S5000, .f32⟩ : BufTy).Contents (Elt F)) (shapeCast S5000 x_main_v86 shapeCasts_S5000x1_S5000)) ((constant S_ .f32 0x00000000#32) : (⟨S_, .f32⟩ : BufTy).Contents (Elt F))) ((constant S_ .f32 0x459C4000#32) : (⟨S_, .f32⟩ : BufTy).Contents (Elt F)))

theorem K_h1_main_arg9_keep (N : Valuation τ sig (Elt F)) :
    StableHlo.after hostOps1 N (Proc.devRef .tc main_arg9) = N (Proc.devRef .tc main_arg9) := by
  after_results_simp

theorem K_h1_main_arg8_keep (N : Valuation τ sig (Elt F)) :
    StableHlo.after hostOps1 N (Proc.devRef .tc main_arg8) = N (Proc.devRef .tc main_arg8) := by
  after_results_simp

theorem K_h1_main_v2_eval (N : Valuation τ sig (Elt F)) :
    StableHlo.after hostOps1 N (Proc.devRef .tc main_v2) = K_h1_main_v2 (N (Proc.devRef .tc main_arg4)) := by
  after_results_simp <;> (try simp only [TRef.toBuf, TRef.ofBuf, cast_cast, cast_eq]) <;> rfl

theorem K_h1_main_v1_eval (N : Valuation τ sig (Elt F)) :
    StableHlo.after hostOps1 N (Proc.devRef .tc main_v1) = K_h1_main_v1 (N (Proc.devRef .tc main_arg2)) := by
  after_results_simp <;> (try simp only [TRef.toBuf, TRef.ofBuf, cast_cast, cast_eq]) <;> rfl

theorem K_h1_main_arg3_keep (N : Valuation τ sig (Elt F)) :
    StableHlo.after hostOps1 N (Proc.devRef .tc main_arg3) = N (Proc.devRef .tc main_arg3) := by
  after_results_simp

theorem K_h1_main_v8_eval (N : Valuation τ sig (Elt F)) :
    StableHlo.after hostOps1 N (Proc.devRef .tc main_v8) = K_h1_main_v8 (N (Proc.devRef .tc main_arg5)) := by
  after_results_simp <;> (try simp only [TRef.toBuf, TRef.ofBuf, cast_cast, cast_eq]) <;> rfl

theorem K_h1_main_v6_eval (N : Valuation τ sig (Elt F)) :
    StableHlo.after hostOps1 N (Proc.devRef .tc main_v6) = K_h1_main_v6 (N (Proc.devRef .tc main_arg7)) := by
  after_results_simp <;> (try simp only [TRef.toBuf, TRef.ofBuf, cast_cast, cast_eq]) <;> rfl

theorem K_h1_main_v4_eval (N : Valuation τ sig (Elt F)) :
    StableHlo.after hostOps1 N (Proc.devRef .tc main_v4) = K_h1_main_v4 (N (Proc.devRef .tc main_arg6)) := by
  after_results_simp <;> (try simp only [TRef.toBuf, TRef.ofBuf, cast_cast, cast_eq]) <;> rfl

theorem K_h1_main_arg6_keep (N : Valuation τ sig (Elt F)) :
    StableHlo.after hostOps1 N (Proc.devRef .tc main_arg6) = N (Proc.devRef .tc main_arg6) := by
  after_results_simp

theorem K_h1_main_arg7_keep (N : Valuation τ sig (Elt F)) :
    StableHlo.after hostOps1 N (Proc.devRef .tc main_arg7) = N (Proc.devRef .tc main_arg7) := by
  after_results_simp

theorem K_h1_main_arg5_keep (N : Valuation τ sig (Elt F)) :
    StableHlo.after hostOps1 N (Proc.devRef .tc main_arg5) = N (Proc.devRef .tc main_arg5) := by
  after_results_simp

theorem K_h1_main_v0_keep (N : Valuation τ sig (Elt F)) :
    StableHlo.after hostOps1 N (Proc.devRef .tc main_v0) = N (Proc.devRef .tc main_v0) := by
  after_results_simp

theorem K_h1_main_v21_eval (N : Valuation τ sig (Elt F)) :
    StableHlo.after hostOps1 N (Proc.devRef .tc main_v21) = K_h1_main_v21 (N (Proc.devRef .tc main_arg6)) (N (Proc.devRef .tc main_arg5)) (N (Proc.devRef .tc main_v0)) (N (Proc.devRef .tc main_arg7)) := by
  after_results_simp <;> (try simp only [TRef.toBuf, TRef.ofBuf, cast_cast, cast_eq]) <;> rfl

theorem K_h2_main_arg9_keep (N : Valuation τ sig (Elt F)) :
    StableHlo.after hostOps2 N (Proc.devRef .tc main_arg9) = N (Proc.devRef .tc main_arg9) := by
  after_results_simp

theorem K_h2_main_arg8_keep (N : Valuation τ sig (Elt F)) :
    StableHlo.after hostOps2 N (Proc.devRef .tc main_arg8) = N (Proc.devRef .tc main_arg8) := by
  after_results_simp

theorem K_h2_main_v35_eval (N : Valuation τ sig (Elt F)) :
    StableHlo.after hostOps2 N (Proc.devRef .tc main_v35) = K_h2_main_v35 (N (Proc.devRef .tc main_v4)) (N (Proc.devRef .tc main_v8)) (N (Proc.devRef .tc main_v22)) (N (Proc.devRef .tc main_v6)) := by
  after_results_simp <;> (try simp only [TRef.toBuf, TRef.ofBuf, cast_cast, cast_eq]) <;> rfl

theorem K_h2_main_v2_keep (N : Valuation τ sig (Elt F)) :
    StableHlo.after hostOps2 N (Proc.devRef .tc main_v2) = N (Proc.devRef .tc main_v2) := by
  after_results_simp

theorem K_h2_main_v41_eval (N : Valuation τ sig (Elt F)) :
    StableHlo.after hostOps2 N (Proc.devRef .tc main_v41) = K_h2_main_v41 (N (Proc.devRef .tc main_arg5)) := by
  after_results_simp <;> (try simp only [TRef.toBuf, TRef.ofBuf, cast_cast, cast_eq]) <;> rfl

theorem K_h2_main_v39_eval (N : Valuation τ sig (Elt F)) :
    StableHlo.after hostOps2 N (Proc.devRef .tc main_v39) = K_h2_main_v39 (N (Proc.devRef .tc main_arg7)) := by
  after_results_simp <;> (try simp only [TRef.toBuf, TRef.ofBuf, cast_cast, cast_eq]) <;> rfl

theorem K_h2_main_v37_eval (N : Valuation τ sig (Elt F)) :
    StableHlo.after hostOps2 N (Proc.devRef .tc main_v37) = K_h2_main_v37 (N (Proc.devRef .tc main_arg6)) := by
  after_results_simp <;> (try simp only [TRef.toBuf, TRef.ofBuf, cast_cast, cast_eq]) <;> rfl

theorem K_h2_main_v54_eval (N : Valuation τ sig (Elt F)) :
    StableHlo.after hostOps2 N (Proc.devRef .tc main_v54) = K_h2_main_v54 (N (Proc.devRef .tc main_arg6)) (N (Proc.devRef .tc main_arg5)) (N (Proc.devRef .tc main_v0)) (N (Proc.devRef .tc main_arg7)) := by
  after_results_simp <;> (try simp only [TRef.toBuf, TRef.ofBuf, cast_cast, cast_eq]) <;> rfl

theorem K_h2_main_v1_keep (N : Valuation τ sig (Elt F)) :
    StableHlo.after hostOps2 N (Proc.devRef .tc main_v1) = N (Proc.devRef .tc main_v1) := by
  after_results_simp

theorem K_h2_main_arg3_keep (N : Valuation τ sig (Elt F)) :
    StableHlo.after hostOps2 N (Proc.devRef .tc main_arg3) = N (Proc.devRef .tc main_arg3) := by
  after_results_simp

theorem K_h3_main_arg9_keep (N : Valuation τ sig (Elt F)) :
    StableHlo.after hostOps3 N (Proc.devRef .tc main_arg9) = N (Proc.devRef .tc main_arg9) := by
  after_results_simp

theorem K_h3_main_arg8_keep (N : Valuation τ sig (Elt F)) :
    StableHlo.after hostOps3 N (Proc.devRef .tc main_arg8) = N (Proc.devRef .tc main_arg8) := by
  after_results_simp

theorem K_h3_main_v35_keep (N : Valuation τ sig (Elt F)) :
    StableHlo.after hostOps3 N (Proc.devRef .tc main_v35) = N (Proc.devRef .tc main_v35) := by
  after_results_simp

theorem K_h3_main_v68_eval (N : Valuation τ sig (Elt F)) :
    StableHlo.after hostOps3 N (Proc.devRef .tc main_v68) = K_h3_main_v68 (N (Proc.devRef .tc main_v37)) (N (Proc.devRef .tc main_v41)) (N (Proc.devRef .tc main_v55)) (N (Proc.devRef .tc main_v39)) := by
  after_results_simp <;> (try simp only [TRef.toBuf, TRef.ofBuf, cast_cast, cast_eq]) <;> rfl

theorem K_h3_main_v2_keep (N : Valuation τ sig (Elt F)) :
    StableHlo.after hostOps3 N (Proc.devRef .tc main_v2) = N (Proc.devRef .tc main_v2) := by
  after_results_simp

theorem K_t1_main_arg9_keep (N : Valuation τ sig (Elt F)) :
    StableHlo.after hostOps4 N (Proc.devRef .tc main_arg9) = N (Proc.devRef .tc main_arg9) := by
  after_results_simp

theorem K_t1_main_arg8_keep (N : Valuation τ sig (Elt F)) :
    StableHlo.after hostOps4 N (Proc.devRef .tc main_arg8) = N (Proc.devRef .tc main_arg8) := by
  after_results_simp

theorem K_t1_main_v76_eval (N : Valuation τ sig (Elt F)) :
    StableHlo.after hostOps4 N (Proc.devRef .tc main_v76) = K_t1_main_v76 (N (Proc.devRef .tc main_v69)) (N (Proc.devRef .tc main_arg9)) := by
  after_results_simp <;> (try simp only [TRef.toBuf, TRef.ofBuf, cast_cast, cast_eq]) <;> rfl

theorem K_t2_main_v77_eval (N : Valuation τ sig (Elt F)) :
    StableHlo.after hostOps4_1 N (Proc.devRef .tc main_v77) = K_t2_main_v77 (N (Proc.devRef .tc main_v76)) := by
  after_results_simp <;> (try simp only [TRef.toBuf, TRef.ofBuf, cast_cast, cast_eq]) <;> rfl

theorem K_t2_main_arg9_keep (N : Valuation τ sig (Elt F)) :
    StableHlo.after hostOps4_1 N (Proc.devRef .tc main_arg9) = N (Proc.devRef .tc main_arg9) := by
  after_results_simp

theorem K_t2_main_arg8_keep (N : Valuation τ sig (Elt F)) :
    StableHlo.after hostOps4_1 N (Proc.devRef .tc main_arg8) = N (Proc.devRef .tc main_arg8) := by
  after_results_simp

theorem K_t3_main_v85_eval (N : Valuation τ sig (Elt F)) :
    StableHlo.after hostOps4_2 N (Proc.devRef .tc main_v85) = K_t3_main_v85 (N (Proc.devRef .tc main_arg8)) (N (Proc.devRef .tc main_arg9)) := by
  after_results_simp <;> (try simp only [TRef.toBuf, TRef.ofBuf, cast_cast, cast_eq]) <;> rfl

theorem K_t3_main_v77_keep (N : Valuation τ sig (Elt F)) :
    StableHlo.after hostOps4_2 N (Proc.devRef .tc main_v77) = N (Proc.devRef .tc main_v77) := by
  after_results_simp

theorem K_t4_main_v86_eval (N : Valuation τ sig (Elt F)) :
    StableHlo.after hostOps4_3 N (Proc.devRef .tc main_v86) = K_t4_main_v86 (N (Proc.devRef .tc main_v85)) (N (Proc.devRef .tc main_v77)) := by
  after_results_simp <;> (try simp only [TRef.toBuf, TRef.ofBuf, cast_cast, cast_eq]) <;> rfl

theorem K_t5_main_v90_eval (N : Valuation τ sig (Elt F)) :
    StableHlo.after hostOps4_4 N (Proc.devRef .tc main_v90) = K_t5_main_v90 (N (Proc.devRef .tc main_v86)) := by
  after_results_simp <;> (try simp only [TRef.toBuf, TRef.ofBuf, cast_cast, cast_eq]) <;> rfl

end Cert.Gcn.KHost

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«172191_j33054068310209_1_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.Reg0.lean ====
/-
  Region 0: the first layer's product.  The grid has 20 points; point t multiplies rows 5000·t … 5000·t + 4999 of
  the node features (a 5000 × 256 block) by the whole 256 × 128 weight and writes back the 5000 × 128 block of
  the same rows.  Entry (p, q) of that block is the sum over k of block(p, k) · W(k, q), which is entry
  (5000·t + p, q) of the whole product: the blocks are restrictions of ONE array, and they tile it, so after the
  region the output array IS the product of the two arrays the region found.
-/
import proofs.«172191_j33054068310209_1_alg».proof.Proof.Gen.KernelIdeal.Frame
import proofs.«172191_j33054068310209_1_alg».proof.Proof.Spec
import proofs.«172191_j33054068310209_1_alg».proof.Proof.LibMatmulSum
import proofs.«172191_j33054068310209_1_alg».proof.Proof.LibPlainLists
import Idealize.ShloMosaic.Lib.Pipeline.Value

set_option maxRecDepth 16384

noncomputable section

namespace Cert.Gcn.Reg0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's product is a plain one: left contracted on its columns, right on its rows. -/
theorem plain : Cert.LibMatmulSum.Plain dot_S5000x256_S256x128_S5000x128_1_0_0_1_n_n :=
  Cert.LibMatmulSum.Plain.of_lists _ rfl rfl rfl rfl rfl rfl

/-- The block the body stores, at (p, q): the sum over k of x(p, k) · w(k, q) (the change of format is the identity). -/
theorem pay_at (x0 : Vec Ideal S5000x256 .f32) (x1 : Vec Ideal S256x128 .f32) (p : Fin 5000) (q : Fin 128) :
    k0_pay1 x0 x1 (ix2 p q) = ∑ k : Fin 256, x0 (ix2 p k) * x1 (ix2 k q) := by
  unfold k0_pay1
  exact (Cert.LibMatmulSum.matmul_zero_at plain none _ _ p q).trans rfl

/-- A sum over k of a block entry of the left array times a block entry of the right array is an entry of the
    whole product, when the left block's (p, k) sits at (i₀, k) and the right block's (k, q) at (k, i₁). -/
theorem sum_blocks (A0 : S100000x256.Idx → EReal) (A1 : S256x128.Idx → EReal)
    (e0 : S5000x256.Idx → S100000x256.Idx) (e1 : S256x128.Idx → S256x128.Idx) (i : S100000x128.Idx)
    (p : Fin 5000) (q : Fin 128) (h0 : ∀ k : Fin 256, e0 (ix2 p k) = ix2 (i 0) k) (h1 : ∀ k : Fin 256, e1 (ix2 k q) = ix2 k (i 1)) :
    ∑ k : Fin 256, A0 (e0 (ix2 p k)) * A1 (e1 (ix2 k q)) = Cert.Gcn.mm A0 A1 i := by
  unfold Cert.Gcn.mm
  exact Finset.sum_congr rfl fun k _ => congrArg₂ (· * ·) (congrArg A0 (h0 k)) (congrArg A1 (h1 k))

/-- Where the windows' blocks sit: the features' and the output's row block move together, the weight is held whole. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) ≤ 19 ∧ win0_2.index t (1 : Fin 2) = 0 :=
  (by decide +kernel : ∀ t : Fin grid0.N, _)

/-- Every row block is some point's. -/
theorem idx_onto : ∀ q0 : Fin 20, ∃ t : Fin cfg0.N, win0_2.index t (0 : Fin 2) = q0.val :=
  (by decide +kernel : ∀ q0 : Fin 20, ∃ t : Fin grid0.N, win0_2.index t (0 : Fin 2) = q0.val)

/-- What point t writes back is block t of the whole product. -/
theorem flushed_eq (c : Dev nD) (t : Fin cfg0.N) :
    (dat0 (F := Ideal) V c).flushed 2 t
      = ((cfg0.win 2).blk t).view.read (Elt Ideal) (Cert.Gcn.mm (V c main_arg0) (V c main_arg1)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
     = Cert.Gcn.mm (V c main_arg0) (V c main_arg1) (((cfg0.win 2).blk t).view.emb (ix2 p q))
  refine (pay_at _ _ p q).trans ?_
  refine sum_blocks (V c main_arg0) (V c main_arg1) (((cfg0.win 0).blk t).view.emb) (((cfg0.win 1).blk t).view.emb)
    (((cfg0.win 2).blk t).view.emb (ix2 p q)) p q (fun k => ?_) (fun k => ?_)
  · funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  · funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega

/-- An index is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The blocks tile the array: row r lies in the block of the point whose row block is r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have ht' : win0_2.index t (0 : Fin 2) = (i 0).val / 5000 := ht
  obtain ⟨-, -, -, -, -, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the output array is the product of the two arrays the region found. -/
theorem final (c : Dev nD) :
    (dat0 (F := Ideal) V c).arrAt 2 cfg0.N = Cert.Gcn.mm (V c main_arg0) (V c main_arg1) :=
  (dat0 V c).arrAt_eq_of_cover 2 _ (fun t _ => flushed_eq V c t) (cover)

end Cert.Gcn.Reg0

end
-- ==== Proof.Reg1.lean ====
/-
  Region 1 of the kernel: one dense layer after aggregation, out = relu(s + bias row) * W, computed in blocks of 5000
  rows over a grid of 20 points.  The payload read at entry (p, q) of a block is the sum over k < 128 of
  max(s(p, k) + b(0, k), 0) * W(k, q): the matrix-unit product into the zero accumulator is the sum over the contracted
  position, the narrowing of the operands is the identity on extended reals, and the one-row bias block repeated down the
  rows reads its row.  At every point the aggregate's block is the row block its output block is (rows 5000 * j ..
  5000 * j + 4999 for the point's row-block index j, one of 0..19); the bias row and the weight are held whole.  Every
  row block 0..19 is some point's, so the blocks cover the 100000 rows and the output array after the region is the
  dense layer of the three input arrays as the region finds them.
-/
import proofs.«172191_j33054068310209_1_alg».proof.Proof.Gen.KernelIdeal.Frame
import proofs.«172191_j33054068310209_1_alg».proof.Proof.Spec
import proofs.«172191_j33054068310209_1_alg».proof.Proof.LibMatmulSum
import proofs.«172191_j33054068310209_1_alg».proof.Proof.LibPlainLists

noncomputable section

namespace Cert.Gcn.Reg1

open Idealize.ShloMosaic Idealize.ShloMosaic.ValueIdx Idealize.ShloMosaic.TcCoe
open Idealize.SL Idealize.SL.Sem
open Idealize.ShloMosaic.Pipeline (Dat Cfg Window)
open Cert.KernelIdeal Cert.KernelIdeal.Gen

/-- A one-row block repeated down 5000 rows reads, at (p, k), the row's entry k. -/
theorem bcastRow_at (x : Vec Ideal S1x128 .f32) (p : Fin 5000) (k : Fin 128) :
    broadcastTo S5000x128 x broadcasts_S1x128_S5000x128 (ix2 p k) = x (ix2 (0 : Fin 1) k) := by
  refine broadcastTo_apply x _ (ix2 p k) (ix2 (0 : Fin 1) k) fun a => ?_
  match a with
  | ⟨0, _⟩ => rfl
  | ⟨1, _⟩ => rfl

theorem pay_apply (x0 : Vec Ideal S5000x128 .f32) (x1 : Vec Ideal S1x128 .f32) (x2 : Vec Ideal S128x10 .f32)
    (p : Fin 5000) (q : Fin 10) :
    k1_pay1 (F := Ideal) x0 x1 x2 (ix2 p q)
      = ∑ k : Fin 128, max (x0 (ix2 p k) + x1 (ix2 (0 : Fin 1) k)) (Ideal.ofBits .f32 0x00000000#32) * x2 (ix2 k q) := by
  unfold k1_pay1
  refine (Cert.LibMatmulSum.matmul_zero_at
    (Cert.LibMatmulSum.Plain.of_lists dot_S5000x128_S128x10_S5000x10_1_0_0_1_n_n rfl rfl rfl rfl rfl rfl) none _ _ p q).trans ?_
  refine Finset.sum_congr rfl fun k _ => ?_
  show max (shapeCast S5000x128 x0 shapeCasts_S5000x128_S5000x128 (ix2 p k)
        + broadcastTo S5000x128 (shapeCast S1x128 x1 shapeCasts_S1x128_S1x128) broadcasts_S1x128_S5000x128 (ix2 p k))
      (Ideal.ofBits .f32 0x00000000#32) * x2 (ix2 k q) = _
  rw [shapeCast_self, shapeCast_self, bcastRow_at]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the aggregate's window moves with the output's down the rows and
    sits at column block 0; the bias row and the weight are held whole; the output's row block is one of 0..19 and
    its column block is 0. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 19 ∧ win1_3.index t (1 : Fin 2) = 0 :=
  (by decide +kernel : ∀ t : Fin grid1.N, _)

/-- Every row block 0..19 is some point's. -/
theorem idx_onto : ∀ (q0 : Fin 20), ∃ t : Fin cfg1.N, win1_3.index t = ![q0.val, 0] :=
  (by decide +kernel : ∀ (q0 : Fin 20), ∃ t : Fin grid1.N, win1_3.index t = ![q0.val, 0])

/-- What the output array ends holding: the dense layer of the aggregate, the bias row and the weight as the
    region finds them. -/
abbrev G (c : Dev nD) : Cert.Gcn.Mat 100000 10 := Cert.Gcn.dense (V c main_v21) (V c main_v1) (V c main_arg3)

/-- The three input arrays as the region finds them, as matrices of extended reals. -/
abbrev A0 (c : Dev nD) : Cert.Gcn.Mat 100000 128 := V c main_v21
abbrev A1 (c : Dev nD) : Cert.Gcn.Mat 1 128 := V c main_v1
abbrev A2 (c : Dev nD) : Cert.Gcn.Mat 128 10 := V c main_arg3

/-- What point t writes back is block t of the dense layer: entry (p, q) of the block is the sum over k of
    relu(s(r, k) + b(0, k)) * W(k, q) at the row r = 5000 * (t's row block) + p. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x10) hz]
  funext y
  obtain ⟨p, q, rfl⟩ : ∃ (p : Fin 5000) (q : Fin 10), y = ix2 p q := ⟨y 0, y 1, eq_ix2 y⟩
  obtain ⟨e00, e01, e10, e11, e20, e21, e3le, e31⟩ := idx_facts t
  have hp : p.val < 5000 := p.isLt
  have hr : win1_3.index t (0 : Fin 2) * 5000 + p.val < 100000 := by omega
  have h3 : ((cfg1.win 3).blk t).view.emb (ix2 p q) = ix2 (⟨win1_3.index t (0 : Fin 2) * 5000 + p.val, hr⟩ : Fin 100000) q := by
    funext a; apply Fin.ext
    match a with
    | ⟨0, _⟩ => show win1_3.index t (0 : Fin 2) * 5000 + 1 * p.val = win1_3.index t (0 : Fin 2) * 5000 + p.val; omega
    | ⟨1, _⟩ => show win1_3.index t (1 : Fin 2) * 10 + 1 * q.val = q.val; omega
  have h0 : ∀ k : Fin 128, ((cfg1.win 0).blk t).view.emb (ix2 p k) = ix2 (⟨win1_3.index t (0 : Fin 2) * 5000 + p.val, hr⟩ : Fin 100000) k := by
    intro k; funext a; apply Fin.ext
    match a with
    | ⟨0, _⟩ => show win1_0.index t (0 : Fin 2) * 5000 + 1 * p.val = win1_3.index t (0 : Fin 2) * 5000 + p.val; omega
    | ⟨1, _⟩ => show win1_0.index t (1 : Fin 2) * 128 + 1 * k.val = k.val; omega
  have h1 : ∀ k : Fin 128, ((cfg1.win 1).blk t).view.emb (ix2 (0 : Fin 1) k) = ix2 (0 : Fin 1) k := by
    intro k; funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ∀ k : Fin 128, ((cfg1.win 2).blk t).view.emb (ix2 k q) = ix2 k q := by
    intro k; funext a; apply Fin.ext
    match a with
    | ⟨0, _⟩ => show win1_2.index t (0 : Fin 2) * 128 + 1 * k.val = k.val; omega
    | ⟨1, _⟩ => show win1_2.index t (1 : Fin 2) * 10 + 1 * q.val = q.val; omega
  show k1_pay1 (F := Ideal) (iblk1 V c 0 t) (iblk1 V c 1 t) (iblk1 V c 2 t) (ix2 p q)
      = G V c (((cfg1.win 3).blk t).view.emb (ix2 p q))
  rw [h3]
  refine (pay_apply _ _ _ p q).trans (Eq.trans ?_ (Cert.Gcn.dense_apply _ _ _ _ q).symm)
  refine Finset.sum_congr rfl fun k _ => ?_
  show max (A0 V c (((cfg1.win 0).blk t).view.emb (ix2 p k)) + A1 V c (((cfg1.win 1).blk t).view.emb (ix2 (0 : Fin 1) k)))
        (Ideal.ofBits .f32 0x00000000#32) * A2 V c (((cfg1.win 2).blk t).view.emb (ix2 k q)) = _
  rw [h0 k, h1 k, h2 k]

/-- An index of the output array is in point t's block iff each coordinate is in the block's range on its axis. -/
theorem mem_blk (t : Fin cfg1.N) (i : S100000x10.Idx) :
    i ∈ ((cfg1.win 3).blk t).view.set ↔ ∀ a : Fin 2, win1_3.index t a * S5000x10.size a ≤ (i a).val ∧ (i a).val < win1_3.index t a * S5000x10.size a + S5000x10.size a := by
  show i ∈ ((View.whole main_v22).slice (win1_3.rect t)).set ↔ _
  rw [View.set_slice_whole, Rect.mem_set_unit]
  exact Iff.rfl

/-- The blocks cover the array: row r lies in the block of the point whose row block is r / 5000. -/
theorem cover (i : S100000x10.Idx) :
    ∃ t : Fin cfg1.N, (cfg1.win 3).flush t = true ∧ i ∈ ((cfg1.win 3).blk t).view.set := by
  have hi0 : (i 0).val < 100000 := (i 0).isLt
  have hi1 : (i 1).val < 10 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 10 ≤ (i 1).val ∧ (i 1).val < win1_3.index t (1 : Fin 2) * 10 + 10; omega

/-- The output array after the region: the dense layer of the aggregate, the bias row and the weight as the region
    finds them. -/
theorem final (c : Dev nD) :
    (dat1 (F := Ideal) V c).arrAt 3 cfg1.N = Cert.Gcn.dense (V c main_v21) (V c main_v1) (V c main_arg3) :=
  (dat1 V c).arrAt_eq_of_cover 3 (G V c) (fun t _ => flushed_eq V c t) cover

end Cert.Gcn.Reg1

end
-- ==== Proof.Reg2.lean ====
/-
  Region 2 of the kernel: one dense layer after aggregation, out = relu(s + bias row) * W, computed in blocks of 5000
  rows over a grid of 20 points.  The payload read at entry (p, q) of a block is the sum over k < 128 of
  max(s(p, k) + b(0, k), 0) * W(k, q): the matrix-unit product into the zero accumulator is the sum over the contracted
  position, the narrowing of the operands is the identity on extended reals, and the one-row bias block repeated down the
  rows reads its row.  At every point the aggregate's block is the row block its output block is (rows 5000 * j ..
  5000 * j + 4999 for the point's row-block index j, one of 0..19); the bias row and the weight are held whole.  Every
  row block 0..19 is some point's, so the blocks cover the 100000 rows and the output array after the region is the
  dense layer of the three input arrays as the region finds them.
-/
import proofs.«172191_j33054068310209_1_alg».proof.Proof.Gen.KernelIdeal.Frame
import proofs.«172191_j33054068310209_1_alg».proof.Proof.Spec
import proofs.«172191_j33054068310209_1_alg».proof.Proof.LibMatmulSum
import proofs.«172191_j33054068310209_1_alg».proof.Proof.LibPlainLists

noncomputable section

namespace Cert.Gcn.Reg2

open Idealize.ShloMosaic Idealize.ShloMosaic.ValueIdx Idealize.ShloMosaic.TcCoe
open Idealize.SL Idealize.SL.Sem
open Idealize.ShloMosaic.Pipeline (Dat Cfg Window)
open Cert.KernelIdeal Cert.KernelIdeal.Gen

/-- A one-row block repeated down 5000 rows reads, at (p, k), the row's entry k. -/
theorem bcastRow_at (x : Vec Ideal S1x128 .f32) (p : Fin 5000) (k : Fin 128) :
    broadcastTo S5000x128 x broadcasts_S1x128_S5000x128 (ix2 p k) = x (ix2 (0 : Fin 1) k) := by
  refine broadcastTo_apply x _ (ix2 p k) (ix2 (0 : Fin 1) k) fun a => ?_
  match a with
  | ⟨0, _⟩ => rfl
  | ⟨1, _⟩ => rfl

theorem pay_apply (x0 : Vec Ideal S5000x128 .f32) (x1 : Vec Ideal S1x128 .f32) (x2 : Vec Ideal S128x10 .f32)
    (p : Fin 5000) (q : Fin 10) :
    k2_pay1 (F := Ideal) x0 x1 x2 (ix2 p q)
      = ∑ k : Fin 128, max (x0 (ix2 p k) + x1 (ix2 (0 : Fin 1) k)) (Ideal.ofBits .f32 0x00000000#32) * x2 (ix2 k q) := by
  unfold k2_pay1
  refine (Cert.LibMatmulSum.matmul_zero_at
    (Cert.LibMatmulSum.Plain.of_lists dot_S5000x128_S128x10_S5000x10_1_0_0_1_n_n rfl rfl rfl rfl rfl rfl) none _ _ p q).trans ?_
  refine Finset.sum_congr rfl fun k _ => ?_
  show max (shapeCast S5000x128 x0 shapeCasts_S5000x128_S5000x128 (ix2 p k)
        + broadcastTo S5000x128 (shapeCast S1x128 x1 shapeCasts_S1x128_S1x128) broadcasts_S1x128_S5000x128 (ix2 p k))
      (Ideal.ofBits .f32 0x00000000#32) * x2 (ix2 k q) = _
  rw [shapeCast_self, shapeCast_self, bcastRow_at]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the aggregate's window moves with the output's down the rows and
    sits at column block 0; the bias row and the weight are held whole; the output's row block is one of 0..19 and
    its column block is 0. -/
theorem idx_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 19 ∧ win2_3.index t (1 : Fin 2) = 0 :=
  (by decide +kernel : ∀ t : Fin grid2.N, _)

/-- Every row block 0..19 is some point's. -/
theorem idx_onto : ∀ (q0 : Fin 20), ∃ t : Fin cfg2.N, win2_3.index t = ![q0.val, 0] :=
  (by decide +kernel : ∀ (q0 : Fin 20), ∃ t : Fin grid2.N, win2_3.index t = ![q0.val, 0])

/-- What the output array ends holding: the dense layer of the aggregate, the bias row and the weight as the
    region finds them. -/
abbrev G (c : Dev nD) : Cert.Gcn.Mat 100000 10 := Cert.Gcn.dense (V c main_v54) (V c main_v1) (V c main_arg3)

/-- The three input arrays as the region finds them, as matrices of extended reals. -/
abbrev A0 (c : Dev nD) : Cert.Gcn.Mat 100000 128 := V c main_v54
abbrev A1 (c : Dev nD) : Cert.Gcn.Mat 1 128 := V c main_v1
abbrev A2 (c : Dev nD) : Cert.Gcn.Mat 128 10 := V c main_arg3

/-- What point t writes back is block t of the dense layer: entry (p, q) of the block is the sum over k of
    relu(s(r, k) + b(0, k)) * W(k, q) at the row r = 5000 * (t's row block) + p. -/
theorem flushed_eq (c : Dev nD) (t : Fin cfg2.N) :
    (dat2 (F := Ideal) V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz, View.ld_unit_zero (S := S128x10) hz]
  funext y
  obtain ⟨p, q, rfl⟩ : ∃ (p : Fin 5000) (q : Fin 10), y = ix2 p q := ⟨y 0, y 1, eq_ix2 y⟩
  obtain ⟨e00, e01, e10, e11, e20, e21, e3le, e31⟩ := idx_facts t
  have hp : p.val < 5000 := p.isLt
  have hr : win2_3.index t (0 : Fin 2) * 5000 + p.val < 100000 := by omega
  have h3 : ((cfg2.win 3).blk t).view.emb (ix2 p q) = ix2 (⟨win2_3.index t (0 : Fin 2) * 5000 + p.val, hr⟩ : Fin 100000) q := by
    funext a; apply Fin.ext
    match a with
    | ⟨0, _⟩ => show win2_3.index t (0 : Fin 2) * 5000 + 1 * p.val = win2_3.index t (0 : Fin 2) * 5000 + p.val; omega
    | ⟨1, _⟩ => show win2_3.index t (1 : Fin 2) * 10 + 1 * q.val = q.val; omega
  have h0 : ∀ k : Fin 128, ((cfg2.win 0).blk t).view.emb (ix2 p k) = ix2 (⟨win2_3.index t (0 : Fin 2) * 5000 + p.val, hr⟩ : Fin 100000) k := by
    intro k; funext a; apply Fin.ext
    match a with
    | ⟨0, _⟩ => show win2_0.index t (0 : Fin 2) * 5000 + 1 * p.val = win2_3.index t (0 : Fin 2) * 5000 + p.val; omega
    | ⟨1, _⟩ => show win2_0.index t (1 : Fin 2) * 128 + 1 * k.val = k.val; omega
  have h1 : ∀ k : Fin 128, ((cfg2.win 1).blk t).view.emb (ix2 (0 : Fin 1) k) = ix2 (0 : Fin 1) k := by
    intro k; funext a; apply Fin.ext
    match a with
    | ⟨0, _⟩ => show win2_1.index t (0 : Fin 2) * 1 + 1 * 0 = 0; omega
    | ⟨1, _⟩ => show win2_1.index t (1 : Fin 2) * 128 + 1 * k.val = k.val; omega
  have h2 : ∀ k : Fin 128, ((cfg2.win 2).blk t).view.emb (ix2 k q) = ix2 k q := by
    intro k; funext a; apply Fin.ext
    match a with
    | ⟨0, _⟩ => show win2_2.index t (0 : Fin 2) * 128 + 1 * k.val = k.val; omega
    | ⟨1, _⟩ => show win2_2.index t (1 : Fin 2) * 10 + 1 * q.val = q.val; omega
  show k2_pay1 (F := Ideal) (iblk2 V c 0 t) (iblk2 V c 1 t) (iblk2 V c 2 t) (ix2 p q)
      = G V c (((cfg2.win 3).blk t).view.emb (ix2 p q))
  rw [h3]
  refine (pay_apply _ _ _ p q).trans (Eq.trans ?_ (Cert.Gcn.dense_apply _ _ _ _ q).symm)
  refine Finset.sum_congr rfl fun k _ => ?_
  show max (A0 V c (((cfg2.win 0).blk t).view.emb (ix2 p k)) + A1 V c (((cfg2.win 1).blk t).view.emb (ix2 (0 : Fin 1) k)))
        (Ideal.ofBits .f32 0x00000000#32) * A2 V c (((cfg2.win 2).blk t).view.emb (ix2 k q)) = _
  rw [h0 k, h1 k, h2 k]

/-- An index of the output array is in point t's block iff each coordinate is in the block's range on its axis. -/
theorem mem_blk (t : Fin cfg2.N) (i : S100000x10.Idx) :
    i ∈ ((cfg2.win 3).blk t).view.set ↔ ∀ a : Fin 2, win2_3.index t a * S5000x10.size a ≤ (i a).val ∧ (i a).val < win2_3.index t a * S5000x10.size a + S5000x10.size a := by
  show i ∈ ((View.whole main_v55).slice (win2_3.rect t)).set ↔ _
  rw [View.set_slice_whole, Rect.mem_set_unit]
  exact Iff.rfl

/-- The blocks cover the array: row r lies in the block of the point whose row block is r / 5000. -/
theorem cover (i : S100000x10.Idx) :
    ∃ t : Fin cfg2.N, (cfg2.win 3).flush t = true ∧ i ∈ ((cfg2.win 3).blk t).view.set := by
  have hi0 : (i 0).val < 100000 := (i 0).isLt
  have hi1 : (i 1).val < 10 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 10 ≤ (i 1).val ∧ (i 1).val < win2_3.index t (1 : Fin 2) * 10 + 10; omega

/-- The output array after the region: the dense layer of the aggregate, the bias row and the weight as the region
    finds them. -/
theorem final (c : Dev nD) :
    (dat2 (F := Ideal) V c).arrAt 3 cfg2.N = Cert.Gcn.dense (V c main_v54) (V c main_v1) (V c main_arg3) :=
  (dat2 V c).arrAt_eq_of_cover 3 (G V c) (fun t _ => flushed_eq V c t) cover

end Cert.Gcn.Reg2

end
-- ==== Proof.Reg3.lean ====
/-
  The last region of the network: the mean of the two views.  Each grid point holds a block of 5000 rows of each
  view's aggregation and the whole bias row, and leaves in its output block, entry by entry,

      (max (s0(p,q) + b(0,q)) 0 + max (s1(p,q) + b(0,q)) 0) * ½ .

  The row blocks of the two inputs and of the output move together (block t of each at point t), the bias row is
  held whole, every point writes its output block back, and the twenty blocks tile the 100000 rows.  So when the
  region ends the output array is the specification's mean of the two views, entry by entry.
-/
import proofs.«172191_j33054068310209_1_alg».proof.Proof.Gen.KernelIdeal.Frame
import proofs.«172191_j33054068310209_1_alg».proof.Proof.Spec
import Idealize.ShloMosaic.Lib.Pipeline.Value
import Idealize.ShloMosaic.Lib.ValueIdx

set_option maxRecDepth 16384

noncomputable section

namespace Cert.Gcn.Reg3

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The zero offset of a whole-buffer access, as a constant function. -/
theorem hz : (![0, 0] : Fin 2 → Nat) = fun _ => 0 := funext fun a => by fin_cases a <;> rfl

/-! ## The payload at an entry -/

/-- The bias row, cast to its own shape and repeated down the block's 5000 rows, reads at (p, q) the row's entry q. -/
theorem biasBlock_apply (b : Vec Ideal S1x10 .f32) (p : Fin 5000) (q : Fin 10) :
    broadcastTo S5000x10 (shapeCast S1x10 b shapeCasts_S1x10_S1x10) broadcasts_S1x10_S5000x10 (ix2 p q)
      = b (ix2 (0 : Fin 1) q) := by
  rw [shapeCast_self]
  refine broadcastTo_apply b broadcasts_S1x10_S5000x10 (ix2 p q) (ix2 (0 : Fin 1) q) fun a => ?_
  match a with
  | ⟨0, _⟩ => rfl
  | ⟨1, _⟩ => rfl

/-- What the body stores, at entry (p, q) of the block: the two views' positive parts of (block + bias row), added,
    times one half.  Pointwise throughout. -/
theorem pay_apply (b : Vec Ideal S1x10 .f32) (s0 s1 : Vec Ideal S5000x10 .f32) (p : Fin 5000) (q : Fin 10) :
    k3_pay1 b s0 s1 (ix2 p q)
      = (max (s0 (ix2 p q) + b (ix2 (0 : Fin 1) q)) (Ideal.ofBits .f32 0x00000000#32)
          + max (s1 (ix2 p q) + b (ix2 (0 : Fin 1) q)) (Ideal.ofBits .f32 0x00000000#32))
        * Ideal.ofBits .f32 0x3F000000#32 := by
  unfold k3_pay1
  show (max (shapeCast S5000x10 s0 shapeCasts_S5000x10_S5000x10 (ix2 p q)
              + broadcastTo S5000x10 (shapeCast S1x10 b shapeCasts_S1x10_S1x10) broadcasts_S1x10_S5000x10 (ix2 p q))
            (Ideal.ofBits .f32 0x00000000#32)
          + max (shapeCast S5000x10 s1 shapeCasts_S5000x10_S5000x10 (ix2 p q)
              + broadcastTo S5000x10 (shapeCast S1x10 b shapeCasts_S1x10_S1x10) broadcasts_S1x10_S5000x10 (ix2 p q))
            (Ideal.ofBits .f32 0x00000000#32))
        * Ideal.ofBits .f32 0x3F000000#32 = _
  rw [biasBlock_apply, shapeCast_self, shapeCast_self]

/-! ## The index maps, decided over the grid -/

/-- At every point the two views' windows sit on the output's row block, in column block 0; the bias row's window
    sits at block (0, 0); the output's row block is at most 19 and its column block is 0. -/
theorem idx_facts : ∀ t : Fin cfg3.N, win3_0.index t (0 : Fin 2) = win3_3.index t (0 : Fin 2)
    ∧ win3_0.index t (1 : Fin 2) = 0
    ∧ win3_1.index t (0 : Fin 2) = win3_3.index t (0 : Fin 2)
    ∧ win3_1.index t (1 : Fin 2) = 0
    ∧ win3_2.index t (0 : Fin 2) = 0
    ∧ win3_2.index t (1 : Fin 2) = 0
    ∧ win3_3.index t (0 : Fin 2) ≤ 19
    ∧ win3_3.index t (1 : Fin 2) = 0 :=
  (by decide +kernel : ∀ t : Fin grid3.N, _)

/-- Every row block 0 … 19 of the output is some point's. -/
theorem idx_onto : ∀ (q0 : Fin 20), ∃ t : Fin cfg3.N, win3_3.index t = ![q0.val, 0] :=
  (by decide +kernel : ∀ (q0 : Fin 20), ∃ t : Fin grid3.N, win3_3.index t = ![q0.val, 0])

/-! ## What a point writes back -/

/-- The entry the body computes from the arrays read at the places (i0, i1, j) is the specification's mean at i,
    once the two views are read at i and the bias row at i's column. -/
theorem point_eq (A0 A1 : Mat 100000 10) (B : Mat 1 10) (i0 i1 i : S100000x10.Idx) (j : S1x10.Idx)
    (h0 : i0 = i) (h1 : i1 = i) (h2 : j = ix2 (0 : Fin 1) (i 1)) :
    (max (A0 i0 + B j) (Ideal.ofBits .f32 0x00000000#32) + max (A1 i1 + B j) (Ideal.ofBits .f32 0x00000000#32))
        * Ideal.ofBits .f32 0x3F000000#32
      = Cert.Gcn.mean2 A0 A1 B i := by
  subst h0 h1 h2; rfl

/-- What point t writes back is block t of the mean of the two views, the arrays read as the region finds them. -/
theorem flushed_eq (c : Dev nD) (t : Fin cfg3.N) :
    (dat3 (F := Ideal) V c).flushed 3 t
      = ((cfg3.win 3).blk t).view.read (Elt Ideal) (Cert.Gcn.mean2 (V c main_v35) (V c main_v68) (V c main_v2)) := by
  show (cfg3.win 3).cut (grid3.coords t) ((dat3 (F := Ideal) V c).after 3 t) = _
  rw [after3_3]
  unfold out3_3
  rw [View.canon_unit_zero hz]
  simp only [View.ld_unit_zero (S := S5000x10) hz, View.ld_unit_zero (S := S1x10) hz]
  obtain ⟨e0, e1, e2, e3, e4, e5, e6, e7⟩ := idx_facts t
  funext y
  obtain ⟨p, q, rfl⟩ : ∃ (p : Fin 5000) (q : Fin 10), y = ix2 p q := ⟨y 0, y 1, eq_ix2 y⟩
  show k3_pay1 (iblk3 V c 2 t) (iblk3 V c 0 t) (iblk3 V c 1 t) (ix2 p q)
      = Cert.Gcn.mean2 (V c main_v35) (V c main_v68) (V c main_v2) (((cfg3.win 3).blk t).view.emb (ix2 p q))
  rw [pay_apply]
  have h0 : ((cfg3.win 0).blk t).view.emb (ix2 p q) = ((cfg3.win 3).blk t).view.emb (ix2 p q) := by
    funext a; apply Fin.ext
    match a with
    | ⟨0, _⟩ => show win3_0.index t (0 : Fin 2) * 5000 + 1 * p.val = win3_3.index t (0 : Fin 2) * 5000 + 1 * p.val; omega
    | ⟨1, _⟩ => show win3_0.index t (1 : Fin 2) * 10 + 1 * q.val = win3_3.index t (1 : Fin 2) * 10 + 1 * q.val; omega
  have h1 : ((cfg3.win 1).blk t).view.emb (ix2 p q) = ((cfg3.win 3).blk t).view.emb (ix2 p q) := by
    funext a; apply Fin.ext
    match a with
    | ⟨0, _⟩ => show win3_1.index t (0 : Fin 2) * 5000 + 1 * p.val = win3_3.index t (0 : Fin 2) * 5000 + 1 * p.val; omega
    | ⟨1, _⟩ => show win3_1.index t (1 : Fin 2) * 10 + 1 * q.val = win3_3.index t (1 : Fin 2) * 10 + 1 * q.val; omega
  have h2 : ((cfg3.win 2).blk t).view.emb (ix2 (0 : Fin 1) q)
      = ix2 (0 : Fin 1) ((((cfg3.win 3).blk t).view.emb (ix2 p q)) 1) := by
    funext a; apply Fin.ext
    match a with
    | ⟨0, _⟩ => show win3_2.index t (0 : Fin 2) * 1 + 1 * (0 : Fin 1).val = 0; simp only [Fin.val_zero]; omega
    | ⟨1, _⟩ => show win3_2.index t (1 : Fin 2) * 10 + 1 * q.val = win3_3.index t (1 : Fin 2) * 10 + 1 * q.val; omega
  exact point_eq (V c main_v35) (V c main_v68) (V c main_v2) _ _ _ _ h0 h1 h2

/-! ## The blocks tile the array -/

/-- An index of the output array is in point t's block iff each coordinate is in the block's range on its axis. -/
theorem mem_blk (t : Fin cfg3.N) (i : S100000x10.Idx) :
    i ∈ ((cfg3.win 3).blk t).view.set ↔ ∀ a : Fin 2, win3_3.index t a * S5000x10.size a ≤ (i a).val ∧ (i a).val < win3_3.index t a * S5000x10.size a + S5000x10.size a := by
  show i ∈ ((View.whole main_v69).slice (win3_3.rect t)).set ↔ _
  rw [View.set_slice_whole, Rect.mem_set_unit]
  exact Iff.rfl

/-- Row r of the output lies in the block of the point whose row block is r / 5000; every point writes back. -/
theorem cover (i : S100000x10.Idx) :
    ∃ t : Fin cfg3.N, (cfg3.win 3).flush t = true ∧ i ∈ ((cfg3.win 3).blk t).view.set := by
  have hi0 : (i 0).val < 100000 := (i 0).isLt
  have hi1 : (i 1).val < 10 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 10 ≤ (i 1).val ∧ (i 1).val < win3_3.index t (1 : Fin 2) * 10 + 10; omega

/-! ## The array when the region ends -/

/-- The output array after the region is the mean of the two views' activations, as the specification states it,
    of the arrays the region was entered with. -/
theorem final (c : Dev nD) :
    (dat3 (F := Ideal) V c).arrAt 3 cfg3.N = Cert.Gcn.mean2 (V c main_v35) (V c main_v68) (V c main_v2) :=
  (dat3 (F := Ideal) V c).arrAt_eq_of_cover 3 _ (fun t _ => flushed_eq V c t) cover

end Cert.Gcn.Reg3

end
-- ==== Proof.KValue.lean ====
/-
  What the idealized kernel returns, as ONE function of its ten argument arrays.  The contents of each array a later
  step reads are followed from the launch through the twelve boundaries of @main: a grid region leaves its output
  array at the region's whole-array function of the arrays it found (the first product; a dense layer per adjacency
  view; the mean of the two views), a host stretch at its operations' composition, and every other array alone.
-/
import proofs.«172191_j33054068310209_1_alg».proof.Proof.Gen.KernelIdeal.Frame
import proofs.«172191_j33054068310209_1_alg».proof.Proof.Spec
import proofs.«172191_j33054068310209_1_alg».proof.Proof.KHost
import proofs.«172191_j33054068310209_1_alg».proof.Proof.Reg0
import proofs.«172191_j33054068310209_1_alg».proof.Proof.Reg1
import proofs.«172191_j33054068310209_1_alg».proof.Proof.Reg2
import proofs.«172191_j33054068310209_1_alg».proof.Proof.Reg3
import Idealize.ShloMosaic.Lib.StableHlo.Run

set_option maxRecDepth 16384

noncomputable section

namespace Cert.Gcn.KValue

open Idealize.ShloMosaic Idealize.ShloMosaic.TcCoe Idealize.SL.Sem Idealize.ShloMosaic.StableHlo
open Cert.KernelIdeal Cert.KernelIdeal.Gen Cert.Gcn.KHost

/-- The kernel's result as a function of the argument arrays: the loss of the mean of the two views' second
    layers, each layer an aggregation along the edges followed by bias, positive part and a product. -/
def kval (x_main_arg0 : (⟨S100000x256, .f32⟩ : BufTy).Contents (Elt Ideal)) (x_main_arg1 : (⟨S256x128, .f32⟩ : BufTy).Contents (Elt Ideal)) (x_main_arg2 : (⟨S128, .f32⟩ : BufTy).Contents (Elt Ideal)) (x_main_arg3 : (⟨S128x10, .f32⟩ : BufTy).Contents (Elt Ideal)) (x_main_arg4 : (⟨S10, .f32⟩ : BufTy).Contents (Elt Ideal)) (x_main_arg5 : (⟨S2x1600000, .f32⟩ : BufTy).Contents (Elt Ideal)) (x_main_arg6 : (⟨S2x1600000, .i32⟩ : BufTy).Contents (Elt Ideal)) (x_main_arg7 : (⟨S2x1600000, .i32⟩ : BufTy).Contents (Elt Ideal)) (x_main_arg8 : (⟨S100000, .i32⟩ : BufTy).Contents (Elt Ideal)) (x_main_arg9 : (⟨S5000, .i32⟩ : BufTy).Contents (Elt Ideal)) : (⟨S_, .f32⟩ : BufTy).Contents (Elt Ideal) :=
  (K_t5_main_v90 (K_t4_main_v86 (K_t3_main_v85 x_main_arg8 x_main_arg9) (K_t2_main_v77 (K_t1_main_v76 (Cert.Gcn.mean2 (K_h2_main_v35 (K_h1_main_v4 x_main_arg6) (K_h1_main_v8 x_main_arg5) (Cert.Gcn.dense (K_h1_main_v21 x_main_arg6 x_main_arg5 (Cert.Gcn.mm x_main_arg0 x_main_arg1) x_main_arg7) (K_h1_main_v1 x_main_arg2) x_main_arg3) (K_h1_main_v6 x_main_arg7)) (K_h3_main_v68 (K_h2_main_v37 x_main_arg6) (K_h2_main_v41 x_main_arg5) (Cert.Gcn.dense (K_h2_main_v54 x_main_arg6 x_main_arg5 (Cert.Gcn.mm x_main_arg0 x_main_arg1) x_main_arg7) (K_h1_main_v1 x_main_arg2) x_main_arg3) (K_h2_main_v39 x_main_arg7)) (K_h1_main_v2 x_main_arg4)) x_main_arg9))))

variable (m : (ℓ : Loc nD τ sig) → Buf (Elt Ideal) ℓ) (ρ : Dev nD → PrngReg)

set_option maxHeartbeats 4000000 in
/-- At the last boundary the result buffer holds that function of the launch contents of the arguments. -/
theorem value (c : Dev nD) : W12 m ρ c (Proc.devRef .tc main_v90) = kval (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h_i_main_arg9 : (W0 m ρ c) (Proc.devRef .tc main_arg9) = (m ((c : Thread nD τ).loc main_arg9)) := rfl
  have h_i_main_arg8 : (W0 m ρ c) (Proc.devRef .tc main_arg8) = (m ((c : Thread nD τ).loc main_arg8)) := rfl
  have h_i_main_arg3 : (W0 m ρ c) (Proc.devRef .tc main_arg3) = (m ((c : Thread nD τ).loc main_arg3)) := rfl
  have h_i_main_arg6 : (W0 m ρ c) (Proc.devRef .tc main_arg6) = (m ((c : Thread nD τ).loc main_arg6)) := rfl
  have h_i_main_arg7 : (W0 m ρ c) (Proc.devRef .tc main_arg7) = (m ((c : Thread nD τ).loc main_arg7)) := rfl
  have h_i_main_arg5 : (W0 m ρ c) (Proc.devRef .tc main_arg5) = (m ((c : Thread nD τ).loc main_arg5)) := rfl
  have h_i_main_arg2 : (W0 m ρ c) (Proc.devRef .tc main_arg2) = (m ((c : Thread nD τ).loc main_arg2)) := rfl
  have h_i_main_arg4 : (W0 m ρ c) (Proc.devRef .tc main_arg4) = (m ((c : Thread nD τ).loc main_arg4)) := rfl
  have h_i_main_arg0 : (W0 m ρ c) (Proc.devRef .tc main_arg0) = (m ((c : Thread nD τ).loc main_arg0)) := rfl
  have h_i_main_arg1 : (W0 m ρ c) (Proc.devRef .tc main_arg1) = (m ((c : Thread nD τ).loc main_arg1)) := rfl
  have h_reg0_main_arg9 : (W1 m ρ c) (Proc.devRef .tc main_arg9) = (m ((c : Thread nD τ).loc main_arg9)) :=
    (W1_of_ne m ρ c main_arg9 (by decide)).trans h_i_main_arg9
  have h_reg0_main_arg8 : (W1 m ρ c) (Proc.devRef .tc main_arg8) = (m ((c : Thread nD τ).loc main_arg8)) :=
    (W1_of_ne m ρ c main_arg8 (by decide)).trans h_i_main_arg8
  have h_reg0_main_arg3 : (W1 m ρ c) (Proc.devRef .tc main_arg3) = (m ((c : Thread nD τ).loc main_arg3)) :=
    (W1_of_ne m ρ c main_arg3 (by decide)).trans h_i_main_arg3
  have h_reg0_main_arg6 : (W1 m ρ c) (Proc.devRef .tc main_arg6) = (m ((c : Thread nD τ).loc main_arg6)) :=
    (W1_of_ne m ρ c main_arg6 (by decide)).trans h_i_main_arg6
  have h_reg0_main_arg7 : (W1 m ρ c) (Proc.devRef .tc main_arg7) = (m ((c : Thread nD τ).loc main_arg7)) :=
    (W1_of_ne m ρ c main_arg7 (by decide)).trans h_i_main_arg7
  have h_reg0_main_arg5 : (W1 m ρ c) (Proc.devRef .tc main_arg5) = (m ((c : Thread nD τ).loc main_arg5)) :=
    (W1_of_ne m ρ c main_arg5 (by decide)).trans h_i_main_arg5
  have h_reg0_main_v0 : (W1 m ρ c) (Proc.devRef .tc main_v0) = (Cert.Gcn.mm (m ((c : Thread nD τ).loc main_arg0)) (m ((c : Thread nD τ).loc main_arg1))) :=
    (W1_arr m ρ c 2).trans ((Cert.Gcn.Reg0.final (V0 m ρ) c).trans (by rw [show V0 m ρ c main_arg0 = (m ((c : Thread nD τ).loc main_arg0)) from h_i_main_arg0, show V0 m ρ c main_arg1 = (m ((c : Thread nD τ).loc main_arg1)) from h_i_main_arg1]))
  have h_reg0_main_arg2 : (W1 m ρ c) (Proc.devRef .tc main_arg2) = (m ((c : Thread nD τ).loc main_arg2)) :=
    (W1_of_ne m ρ c main_arg2 (by decide)).trans h_i_main_arg2
  have h_reg0_main_arg4 : (W1 m ρ c) (Proc.devRef .tc main_arg4) = (m ((c : Thread nD τ).loc main_arg4)) :=
    (W1_of_ne m ρ c main_arg4 (by decide)).trans h_i_main_arg4
  have h_h1_main_arg9 : (W2 m ρ c) (Proc.devRef .tc main_arg9) = (m ((c : Thread nD τ).loc main_arg9)) :=
    (K_h1_main_arg9_keep (W1 m ρ c)).trans h_reg0_main_arg9
  have h_h1_main_arg8 : (W2 m ρ c) (Proc.devRef .tc main_arg8) = (m ((c : Thread nD τ).loc main_arg8)) :=
    (K_h1_main_arg8_keep (W1 m ρ c)).trans h_reg0_main_arg8
  have h_h1_main_v2 : (W2 m ρ c) (Proc.devRef .tc main_v2) = (K_h1_main_v2 (m ((c : Thread nD τ).loc main_arg4))) :=
    (K_h1_main_v2_eval (W1 m ρ c)).trans (by rw [h_reg0_main_arg4])
  have h_h1_main_v1 : (W2 m ρ c) (Proc.devRef .tc main_v1) = (K_h1_main_v1 (m ((c : Thread nD τ).loc main_arg2))) :=
    (K_h1_main_v1_eval (W1 m ρ c)).trans (by rw [h_reg0_main_arg2])
  have h_h1_main_arg3 : (W2 m ρ c) (Proc.devRef .tc main_arg3) = (m ((c : Thread nD τ).loc main_arg3)) :=
    (K_h1_main_arg3_keep (W1 m ρ c)).trans h_reg0_main_arg3
  have h_h1_main_v8 : (W2 m ρ c) (Proc.devRef .tc main_v8) = (K_h1_main_v8 (m ((c : Thread nD τ).loc main_arg5))) :=
    (K_h1_main_v8_eval (W1 m ρ c)).trans (by rw [h_reg0_main_arg5])
  have h_h1_main_v6 : (W2 m ρ c) (Proc.devRef .tc main_v6) = (K_h1_main_v6 (m ((c : Thread nD τ).loc main_arg7))) :=
    (K_h1_main_v6_eval (W1 m ρ c)).trans (by rw [h_reg0_main_arg7])
  have h_h1_main_v4 : (W2 m ρ c) (Proc.devRef .tc main_v4) = (K_h1_main_v4 (m ((c : Thread nD τ).loc main_arg6))) :=
    (K_h1_main_v4_eval (W1 m ρ c)).trans (by rw [h_reg0_main_arg6])
  have h_h1_main_arg6 : (W2 m ρ c) (Proc.devRef .tc main_arg6) = (m ((c : Thread nD τ).loc main_arg6)) :=
    (K_h1_main_arg6_keep (W1 m ρ c)).trans h_reg0_main_arg6
  have h_h1_main_arg7 : (W2 m ρ c) (Proc.devRef .tc main_arg7) = (m ((c : Thread nD τ).loc main_arg7)) :=
    (K_h1_main_arg7_keep (W1 m ρ c)).trans h_reg0_main_arg7
  have h_h1_main_arg5 : (W2 m ρ c) (Proc.devRef .tc main_arg5) = (m ((c : Thread nD τ).loc main_arg5)) :=
    (K_h1_main_arg5_keep (W1 m ρ c)).trans h_reg0_main_arg5
  have h_h1_main_v0 : (W2 m ρ c) (Proc.devRef .tc main_v0) = (Cert.Gcn.mm (m ((c : Thread nD τ).loc main_arg0)) (m ((c : Thread nD τ).loc main_arg1))) :=
    (K_h1_main_v0_keep (W1 m ρ c)).trans h_reg0_main_v0
  have h_h1_main_v21 : (W2 m ρ c) (Proc.devRef .tc main_v21) = (K_h1_main_v21 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) :=
    (K_h1_main_v21_eval (W1 m ρ c)).trans (by rw [h_reg0_main_arg6, h_reg0_main_arg5, h_reg0_main_v0, h_reg0_main_arg7])
  have h_reg1_main_arg9 : (W3 m ρ c) (Proc.devRef .tc main_arg9) = (m ((c : Thread nD τ).loc main_arg9)) :=
    (W3_of_ne m ρ c main_arg9 (by decide)).trans h_h1_main_arg9
  have h_reg1_main_arg8 : (W3 m ρ c) (Proc.devRef .tc main_arg8) = (m ((c : Thread nD τ).loc main_arg8)) :=
    (W3_of_ne m ρ c main_arg8 (by decide)).trans h_h1_main_arg8
  have h_reg1_main_v2 : (W3 m ρ c) (Proc.devRef .tc main_v2) = (K_h1_main_v2 (m ((c : Thread nD τ).loc main_arg4))) :=
    (W3_of_ne m ρ c main_v2 (by decide)).trans h_h1_main_v2
  have h_reg1_main_v1 : (W3 m ρ c) (Proc.devRef .tc main_v1) = (K_h1_main_v1 (m ((c : Thread nD τ).loc main_arg2))) :=
    (W3_arr m ρ c 1).trans ((((dat1 (V2 m ρ) c).arrAt_in 1 rfl _).trans (A_eq1 (V2 m ρ) c 1)).trans h_h1_main_v1)
  have h_reg1_main_arg3 : (W3 m ρ c) (Proc.devRef .tc main_arg3) = (m ((c : Thread nD τ).loc main_arg3)) :=
    (W3_arr m ρ c 2).trans ((((dat1 (V2 m ρ) c).arrAt_in 2 rfl _).trans (A_eq1 (V2 m ρ) c 2)).trans h_h1_main_arg3)
  have h_reg1_main_v8 : (W3 m ρ c) (Proc.devRef .tc main_v8) = (K_h1_main_v8 (m ((c : Thread nD τ).loc main_arg5))) :=
    (W3_of_ne m ρ c main_v8 (by decide)).trans h_h1_main_v8
  have h_reg1_main_v6 : (W3 m ρ c) (Proc.devRef .tc main_v6) = (K_h1_main_v6 (m ((c : Thread nD τ).loc main_arg7))) :=
    (W3_of_ne m ρ c main_v6 (by decide)).trans h_h1_main_v6
  have h_reg1_main_v22 : (W3 m ρ c) (Proc.devRef .tc main_v22) = (Cert.Gcn.dense (K_h1_main_v21 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) (K_h1_main_v1 (m ((c : Thread nD τ).loc main_arg2))) (m ((c : Thread nD τ).loc main_arg3))) :=
    (W3_arr m ρ c 3).trans ((Cert.Gcn.Reg1.final (V2 m ρ) c).trans (by rw [show V2 m ρ c main_v21 = (K_h1_main_v21 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) from h_h1_main_v21, show V2 m ρ c main_v1 = (K_h1_main_v1 (m ((c : Thread nD τ).loc main_arg2))) from h_h1_main_v1, show V2 m ρ c main_arg3 = (m ((c : Thread nD τ).loc main_arg3)) from h_h1_main_arg3]))
  have h_reg1_main_v4 : (W3 m ρ c) (Proc.devRef .tc main_v4) = (K_h1_main_v4 (m ((c : Thread nD τ).loc main_arg6))) :=
    (W3_of_ne m ρ c main_v4 (by decide)).trans h_h1_main_v4
  have h_reg1_main_arg6 : (W3 m ρ c) (Proc.devRef .tc main_arg6) = (m ((c : Thread nD τ).loc main_arg6)) :=
    (W3_of_ne m ρ c main_arg6 (by decide)).trans h_h1_main_arg6
  have h_reg1_main_arg7 : (W3 m ρ c) (Proc.devRef .tc main_arg7) = (m ((c : Thread nD τ).loc main_arg7)) :=
    (W3_of_ne m ρ c main_arg7 (by decide)).trans h_h1_main_arg7
  have h_reg1_main_arg5 : (W3 m ρ c) (Proc.devRef .tc main_arg5) = (m ((c : Thread nD τ).loc main_arg5)) :=
    (W3_of_ne m ρ c main_arg5 (by decide)).trans h_h1_main_arg5
  have h_reg1_main_v0 : (W3 m ρ c) (Proc.devRef .tc main_v0) = (Cert.Gcn.mm (m ((c : Thread nD τ).loc main_arg0)) (m ((c : Thread nD τ).loc main_arg1))) :=
    (W3_of_ne m ρ c main_v0 (by decide)).trans h_h1_main_v0
  have h_h2_main_arg9 : (W4 m ρ c) (Proc.devRef .tc main_arg9) = (m ((c : Thread nD τ).loc main_arg9)) :=
    (K_h2_main_arg9_keep (W3 m ρ c)).trans h_reg1_main_arg9
  have h_h2_main_arg8 : (W4 m ρ c) (Proc.devRef .tc main_arg8) = (m ((c : Thread nD τ).loc main_arg8)) :=
    (K_h2_main_arg8_keep (W3 m ρ c)).trans h_reg1_main_arg8
  have h_h2_main_v35 : (W4 m ρ c) (Proc.devRef .tc main_v35) = (K_h2_main_v35 (K_h1_main_v4 (m ((c : Thread nD τ).loc main_arg6))) (K_h1_main_v8 (m ((c : Thread nD τ).loc main_arg5))) (Cert.Gcn.dense (K_h1_main_v21 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) (K_h1_main_v1 (m ((c : Thread nD τ).loc main_arg2))) (m ((c : Thread nD τ).loc main_arg3))) (K_h1_main_v6 (m ((c : Thread nD τ).loc main_arg7)))) :=
    (K_h2_main_v35_eval (W3 m ρ c)).trans (by rw [h_reg1_main_v4, h_reg1_main_v8, h_reg1_main_v22, h_reg1_main_v6])
  have h_h2_main_v2 : (W4 m ρ c) (Proc.devRef .tc main_v2) = (K_h1_main_v2 (m ((c : Thread nD τ).loc main_arg4))) :=
    (K_h2_main_v2_keep (W3 m ρ c)).trans h_reg1_main_v2
  have h_h2_main_v41 : (W4 m ρ c) (Proc.devRef .tc main_v41) = (K_h2_main_v41 (m ((c : Thread nD τ).loc main_arg5))) :=
    (K_h2_main_v41_eval (W3 m ρ c)).trans (by rw [h_reg1_main_arg5])
  have h_h2_main_v39 : (W4 m ρ c) (Proc.devRef .tc main_v39) = (K_h2_main_v39 (m ((c : Thread nD τ).loc main_arg7))) :=
    (K_h2_main_v39_eval (W3 m ρ c)).trans (by rw [h_reg1_main_arg7])
  have h_h2_main_v37 : (W4 m ρ c) (Proc.devRef .tc main_v37) = (K_h2_main_v37 (m ((c : Thread nD τ).loc main_arg6))) :=
    (K_h2_main_v37_eval (W3 m ρ c)).trans (by rw [h_reg1_main_arg6])
  have h_h2_main_v54 : (W4 m ρ c) (Proc.devRef .tc main_v54) = (K_h2_main_v54 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) :=
    (K_h2_main_v54_eval (W3 m ρ c)).trans (by rw [h_reg1_main_arg6, h_reg1_main_arg5, h_reg1_main_v0, h_reg1_main_arg7])
  have h_h2_main_v1 : (W4 m ρ c) (Proc.devRef .tc main_v1) = (K_h1_main_v1 (m ((c : Thread nD τ).loc main_arg2))) :=
    (K_h2_main_v1_keep (W3 m ρ c)).trans h_reg1_main_v1
  have h_h2_main_arg3 : (W4 m ρ c) (Proc.devRef .tc main_arg3) = (m ((c : Thread nD τ).loc main_arg3)) :=
    (K_h2_main_arg3_keep (W3 m ρ c)).trans h_reg1_main_arg3
  have h_reg2_main_arg9 : (W5 m ρ c) (Proc.devRef .tc main_arg9) = (m ((c : Thread nD τ).loc main_arg9)) :=
    (W5_of_ne m ρ c main_arg9 (by decide)).trans h_h2_main_arg9
  have h_reg2_main_arg8 : (W5 m ρ c) (Proc.devRef .tc main_arg8) = (m ((c : Thread nD τ).loc main_arg8)) :=
    (W5_of_ne m ρ c main_arg8 (by decide)).trans h_h2_main_arg8
  have h_reg2_main_v35 : (W5 m ρ c) (Proc.devRef .tc main_v35) = (K_h2_main_v35 (K_h1_main_v4 (m ((c : Thread nD τ).loc main_arg6))) (K_h1_main_v8 (m ((c : Thread nD τ).loc main_arg5))) (Cert.Gcn.dense (K_h1_main_v21 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) (K_h1_main_v1 (m ((c : Thread nD τ).loc main_arg2))) (m ((c : Thread nD τ).loc main_arg3))) (K_h1_main_v6 (m ((c : Thread nD τ).loc main_arg7)))) :=
    (W5_of_ne m ρ c main_v35 (by decide)).trans h_h2_main_v35
  have h_reg2_main_v2 : (W5 m ρ c) (Proc.devRef .tc main_v2) = (K_h1_main_v2 (m ((c : Thread nD τ).loc main_arg4))) :=
    (W5_of_ne m ρ c main_v2 (by decide)).trans h_h2_main_v2
  have h_reg2_main_v41 : (W5 m ρ c) (Proc.devRef .tc main_v41) = (K_h2_main_v41 (m ((c : Thread nD τ).loc main_arg5))) :=
    (W5_of_ne m ρ c main_v41 (by decide)).trans h_h2_main_v41
  have h_reg2_main_v39 : (W5 m ρ c) (Proc.devRef .tc main_v39) = (K_h2_main_v39 (m ((c : Thread nD τ).loc main_arg7))) :=
    (W5_of_ne m ρ c main_v39 (by decide)).trans h_h2_main_v39
  have h_reg2_main_v55 : (W5 m ρ c) (Proc.devRef .tc main_v55) = (Cert.Gcn.dense (K_h2_main_v54 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) (K_h1_main_v1 (m ((c : Thread nD τ).loc main_arg2))) (m ((c : Thread nD τ).loc main_arg3))) :=
    (W5_arr m ρ c 3).trans ((Cert.Gcn.Reg2.final (V4 m ρ) c).trans (by rw [show V4 m ρ c main_v54 = (K_h2_main_v54 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) from h_h2_main_v54, show V4 m ρ c main_v1 = (K_h1_main_v1 (m ((c : Thread nD τ).loc main_arg2))) from h_h2_main_v1, show V4 m ρ c main_arg3 = (m ((c : Thread nD τ).loc main_arg3)) from h_h2_main_arg3]))
  have h_reg2_main_v37 : (W5 m ρ c) (Proc.devRef .tc main_v37) = (K_h2_main_v37 (m ((c : Thread nD τ).loc main_arg6))) :=
    (W5_of_ne m ρ c main_v37 (by decide)).trans h_h2_main_v37
  have h_h3_main_arg9 : (W6 m ρ c) (Proc.devRef .tc main_arg9) = (m ((c : Thread nD τ).loc main_arg9)) :=
    (K_h3_main_arg9_keep (W5 m ρ c)).trans h_reg2_main_arg9
  have h_h3_main_arg8 : (W6 m ρ c) (Proc.devRef .tc main_arg8) = (m ((c : Thread nD τ).loc main_arg8)) :=
    (K_h3_main_arg8_keep (W5 m ρ c)).trans h_reg2_main_arg8
  have h_h3_main_v35 : (W6 m ρ c) (Proc.devRef .tc main_v35) = (K_h2_main_v35 (K_h1_main_v4 (m ((c : Thread nD τ).loc main_arg6))) (K_h1_main_v8 (m ((c : Thread nD τ).loc main_arg5))) (Cert.Gcn.dense (K_h1_main_v21 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) (K_h1_main_v1 (m ((c : Thread nD τ).loc main_arg2))) (m ((c : Thread nD τ).loc main_arg3))) (K_h1_main_v6 (m ((c : Thread nD τ).loc main_arg7)))) :=
    (K_h3_main_v35_keep (W5 m ρ c)).trans h_reg2_main_v35
  have h_h3_main_v68 : (W6 m ρ c) (Proc.devRef .tc main_v68) = (K_h3_main_v68 (K_h2_main_v37 (m ((c : Thread nD τ).loc main_arg6))) (K_h2_main_v41 (m ((c : Thread nD τ).loc main_arg5))) (Cert.Gcn.dense (K_h2_main_v54 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) (K_h1_main_v1 (m ((c : Thread nD τ).loc main_arg2))) (m ((c : Thread nD τ).loc main_arg3))) (K_h2_main_v39 (m ((c : Thread nD τ).loc main_arg7)))) :=
    (K_h3_main_v68_eval (W5 m ρ c)).trans (by rw [h_reg2_main_v37, h_reg2_main_v41, h_reg2_main_v55, h_reg2_main_v39])
  have h_h3_main_v2 : (W6 m ρ c) (Proc.devRef .tc main_v2) = (K_h1_main_v2 (m ((c : Thread nD τ).loc main_arg4))) :=
    (K_h3_main_v2_keep (W5 m ρ c)).trans h_reg2_main_v2
  have h_reg3_main_arg9 : (W7 m ρ c) (Proc.devRef .tc main_arg9) = (m ((c : Thread nD τ).loc main_arg9)) :=
    (W7_of_ne m ρ c main_arg9 (by decide)).trans h_h3_main_arg9
  have h_reg3_main_arg8 : (W7 m ρ c) (Proc.devRef .tc main_arg8) = (m ((c : Thread nD τ).loc main_arg8)) :=
    (W7_of_ne m ρ c main_arg8 (by decide)).trans h_h3_main_arg8
  have h_reg3_main_v69 : (W7 m ρ c) (Proc.devRef .tc main_v69) = (Cert.Gcn.mean2 (K_h2_main_v35 (K_h1_main_v4 (m ((c : Thread nD τ).loc main_arg6))) (K_h1_main_v8 (m ((c : Thread nD τ).loc main_arg5))) (Cert.Gcn.dense (K_h1_main_v21 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) (K_h1_main_v1 (m ((c : Thread nD τ).loc main_arg2))) (m ((c : Thread nD τ).loc main_arg3))) (K_h1_main_v6 (m ((c : Thread nD τ).loc main_arg7)))) (K_h3_main_v68 (K_h2_main_v37 (m ((c : Thread nD τ).loc main_arg6))) (K_h2_main_v41 (m ((c : Thread nD τ).loc main_arg5))) (Cert.Gcn.dense (K_h2_main_v54 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) (K_h1_main_v1 (m ((c : Thread nD τ).loc main_arg2))) (m ((c : Thread nD τ).loc main_arg3))) (K_h2_main_v39 (m ((c : Thread nD τ).loc main_arg7)))) (K_h1_main_v2 (m ((c : Thread nD τ).loc main_arg4)))) :=
    (W7_arr m ρ c 3).trans ((Cert.Gcn.Reg3.final (V6 m ρ) c).trans (by rw [show V6 m ρ c main_v35 = (K_h2_main_v35 (K_h1_main_v4 (m ((c : Thread nD τ).loc main_arg6))) (K_h1_main_v8 (m ((c : Thread nD τ).loc main_arg5))) (Cert.Gcn.dense (K_h1_main_v21 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) (K_h1_main_v1 (m ((c : Thread nD τ).loc main_arg2))) (m ((c : Thread nD τ).loc main_arg3))) (K_h1_main_v6 (m ((c : Thread nD τ).loc main_arg7)))) from h_h3_main_v35, show V6 m ρ c main_v68 = (K_h3_main_v68 (K_h2_main_v37 (m ((c : Thread nD τ).loc main_arg6))) (K_h2_main_v41 (m ((c : Thread nD τ).loc main_arg5))) (Cert.Gcn.dense (K_h2_main_v54 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) (K_h1_main_v1 (m ((c : Thread nD τ).loc main_arg2))) (m ((c : Thread nD τ).loc main_arg3))) (K_h2_main_v39 (m ((c : Thread nD τ).loc main_arg7)))) from h_h3_main_v68, show V6 m ρ c main_v2 = (K_h1_main_v2 (m ((c : Thread nD τ).loc main_arg4))) from h_h3_main_v2]))
  have h_t1_main_arg9 : (W8 m ρ c) (Proc.devRef .tc main_arg9) = (m ((c : Thread nD τ).loc main_arg9)) :=
    (K_t1_main_arg9_keep (W7 m ρ c)).trans h_reg3_main_arg9
  have h_t1_main_arg8 : (W8 m ρ c) (Proc.devRef .tc main_arg8) = (m ((c : Thread nD τ).loc main_arg8)) :=
    (K_t1_main_arg8_keep (W7 m ρ c)).trans h_reg3_main_arg8
  have h_t1_main_v76 : (W8 m ρ c) (Proc.devRef .tc main_v76) = (K_t1_main_v76 (Cert.Gcn.mean2 (K_h2_main_v35 (K_h1_main_v4 (m ((c : Thread nD τ).loc main_arg6))) (K_h1_main_v8 (m ((c : Thread nD τ).loc main_arg5))) (Cert.Gcn.dense (K_h1_main_v21 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) (K_h1_main_v1 (m ((c : Thread nD τ).loc main_arg2))) (m ((c : Thread nD τ).loc main_arg3))) (K_h1_main_v6 (m ((c : Thread nD τ).loc main_arg7)))) (K_h3_main_v68 (K_h2_main_v37 (m ((c : Thread nD τ).loc main_arg6))) (K_h2_main_v41 (m ((c : Thread nD τ).loc main_arg5))) (Cert.Gcn.dense (K_h2_main_v54 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) (K_h1_main_v1 (m ((c : Thread nD τ).loc main_arg2))) (m ((c : Thread nD τ).loc main_arg3))) (K_h2_main_v39 (m ((c : Thread nD τ).loc main_arg7)))) (K_h1_main_v2 (m ((c : Thread nD τ).loc main_arg4)))) (m ((c : Thread nD τ).loc main_arg9))) :=
    (K_t1_main_v76_eval (W7 m ρ c)).trans (by rw [h_reg3_main_v69, h_reg3_main_arg9])
  have h_t2_main_v77 : (W9 m ρ c) (Proc.devRef .tc main_v77) = (K_t2_main_v77 (K_t1_main_v76 (Cert.Gcn.mean2 (K_h2_main_v35 (K_h1_main_v4 (m ((c : Thread nD τ).loc main_arg6))) (K_h1_main_v8 (m ((c : Thread nD τ).loc main_arg5))) (Cert.Gcn.dense (K_h1_main_v21 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) (K_h1_main_v1 (m ((c : Thread nD τ).loc main_arg2))) (m ((c : Thread nD τ).loc main_arg3))) (K_h1_main_v6 (m ((c : Thread nD τ).loc main_arg7)))) (K_h3_main_v68 (K_h2_main_v37 (m ((c : Thread nD τ).loc main_arg6))) (K_h2_main_v41 (m ((c : Thread nD τ).loc main_arg5))) (Cert.Gcn.dense (K_h2_main_v54 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) (K_h1_main_v1 (m ((c : Thread nD τ).loc main_arg2))) (m ((c : Thread nD τ).loc main_arg3))) (K_h2_main_v39 (m ((c : Thread nD τ).loc main_arg7)))) (K_h1_main_v2 (m ((c : Thread nD τ).loc main_arg4)))) (m ((c : Thread nD τ).loc main_arg9)))) :=
    (K_t2_main_v77_eval (W8 m ρ c)).trans (by rw [h_t1_main_v76])
  have h_t2_main_arg9 : (W9 m ρ c) (Proc.devRef .tc main_arg9) = (m ((c : Thread nD τ).loc main_arg9)) :=
    (K_t2_main_arg9_keep (W8 m ρ c)).trans h_t1_main_arg9
  have h_t2_main_arg8 : (W9 m ρ c) (Proc.devRef .tc main_arg8) = (m ((c : Thread nD τ).loc main_arg8)) :=
    (K_t2_main_arg8_keep (W8 m ρ c)).trans h_t1_main_arg8
  have h_t3_main_v85 : (W10 m ρ c) (Proc.devRef .tc main_v85) = (K_t3_main_v85 (m ((c : Thread nD τ).loc main_arg8)) (m ((c : Thread nD τ).loc main_arg9))) :=
    (K_t3_main_v85_eval (W9 m ρ c)).trans (by rw [h_t2_main_arg8, h_t2_main_arg9])
  have h_t3_main_v77 : (W10 m ρ c) (Proc.devRef .tc main_v77) = (K_t2_main_v77 (K_t1_main_v76 (Cert.Gcn.mean2 (K_h2_main_v35 (K_h1_main_v4 (m ((c : Thread nD τ).loc main_arg6))) (K_h1_main_v8 (m ((c : Thread nD τ).loc main_arg5))) (Cert.Gcn.dense (K_h1_main_v21 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) (K_h1_main_v1 (m ((c : Thread nD τ).loc main_arg2))) (m ((c : Thread nD τ).loc main_arg3))) (K_h1_main_v6 (m ((c : Thread nD τ).loc main_arg7)))) (K_h3_main_v68 (K_h2_main_v37 (m ((c : Thread nD τ).loc main_arg6))) (K_h2_main_v41 (m ((c : Thread nD τ).loc main_arg5))) (Cert.Gcn.dense (K_h2_main_v54 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) (K_h1_main_v1 (m ((c : Thread nD τ).loc main_arg2))) (m ((c : Thread nD τ).loc main_arg3))) (K_h2_main_v39 (m ((c : Thread nD τ).loc main_arg7)))) (K_h1_main_v2 (m ((c : Thread nD τ).loc main_arg4)))) (m ((c : Thread nD τ).loc main_arg9)))) :=
    (K_t3_main_v77_keep (W9 m ρ c)).trans h_t2_main_v77
  have h_t4_main_v86 : (W11 m ρ c) (Proc.devRef .tc main_v86) = (K_t4_main_v86 (K_t3_main_v85 (m ((c : Thread nD τ).loc main_arg8)) (m ((c : Thread nD τ).loc main_arg9))) (K_t2_main_v77 (K_t1_main_v76 (Cert.Gcn.mean2 (K_h2_main_v35 (K_h1_main_v4 (m ((c : Thread nD τ).loc main_arg6))) (K_h1_main_v8 (m ((c : Thread nD τ).loc main_arg5))) (Cert.Gcn.dense (K_h1_main_v21 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) (K_h1_main_v1 (m ((c : Thread nD τ).loc main_arg2))) (m ((c : Thread nD τ).loc main_arg3))) (K_h1_main_v6 (m ((c : Thread nD τ).loc main_arg7)))) (K_h3_main_v68 (K_h2_main_v37 (m ((c : Thread nD τ).loc main_arg6))) (K_h2_main_v41 (m ((c : Thread nD τ).loc main_arg5))) (Cert.Gcn.dense (K_h2_main_v54 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) (K_h1_main_v1 (m ((c : Thread nD τ).loc main_arg2))) (m ((c : Thread nD τ).loc main_arg3))) (K_h2_main_v39 (m ((c : Thread nD τ).loc main_arg7)))) (K_h1_main_v2 (m ((c : Thread nD τ).loc main_arg4)))) (m ((c : Thread nD τ).loc main_arg9))))) :=
    (K_t4_main_v86_eval (W10 m ρ c)).trans (by rw [h_t3_main_v85, h_t3_main_v77])
  have h_t5_main_v90 : (W12 m ρ c) (Proc.devRef .tc main_v90) = (K_t5_main_v90 (K_t4_main_v86 (K_t3_main_v85 (m ((c : Thread nD τ).loc main_arg8)) (m ((c : Thread nD τ).loc main_arg9))) (K_t2_main_v77 (K_t1_main_v76 (Cert.Gcn.mean2 (K_h2_main_v35 (K_h1_main_v4 (m ((c : Thread nD τ).loc main_arg6))) (K_h1_main_v8 (m ((c : Thread nD τ).loc main_arg5))) (Cert.Gcn.dense (K_h1_main_v21 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) (K_h1_main_v1 (m ((c : Thread nD τ).loc main_arg2))) (m ((c : Thread nD τ).loc main_arg3))) (K_h1_main_v6 (m ((c : Thread nD τ).loc main_arg7)))) (K_h3_main_v68 (K_h2_main_v37 (m ((c : Thread nD τ).loc main_arg6))) (K_h2_main_v41 (m ((c : Thread nD τ).loc main_arg5))) (Cert.Gcn.dense (K_h2_main_v54 (m ((c : Thread nD τ).loc main_arg6)) (m ((c : Thread nD τ).loc main_arg5)) (Cert.Gcn.mm (m ((c : Thread nD τ).loc main_arg0)) (m ((c : Thread nD τ).loc main_arg1))) (m ((c : Thread nD τ).loc main_arg7))) (K_h1_main_v1 (m ((c : Thread nD τ).loc main_arg2))) (m ((c : Thread nD τ).loc main_arg3))) (K_h2_main_v39 (m ((c : Thread nD τ).loc main_arg7)))) (K_h1_main_v2 (m ((c : Thread nD τ).loc main_arg4)))) (m ((c : Thread nD τ).loc main_arg9)))))) :=
    (K_t5_main_v90_eval (W11 m ρ c)).trans (by rw [h_t4_main_v86])
  exact h_t5_main_v90

end Cert.Gcn.KValue

end
-- ==== Proof.RefRun.lean ====
/-
  The reference program's run.  Its @main is 170 host operations in a straight line (the bodies of the functions
  it calls stand in their calls' places).  Run from any memory with zero counters, every weakly fair execution
  terminates with each buffer at what the operations, applied in order to the launch contents, leave there.
  The line is also given cut into thirteen consecutive pieces (one aggregation, one dense layer, … , the loss), so
  that what a buffer ends holding can be computed piece by piece.
-/
import proofs.«172191_j33054068310209_1_alg».proof.ReferenceIdeal
import proofs.«172191_j33054068310209_1_alg».proof.Proof.Gen.ReferenceIdeal
import Idealize.ShloMosaic.Lib.StableHlo.Run

noncomputable section

namespace Cert.Gcn.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 170 operations, in order. -/
abbrev ops : List (HloOp τ sig (Elt F)) :=
  [ unary main_arg6 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg7 main_v2 ((extractStridedSlice S1x1600000 ![0, 0] · slices_S2x1600000_S1x1600000_0_0) : (⟨S2x1600000, .i32⟩ : BufTy).Contents (Elt F) → (⟨S1x1600000, .i32⟩ : BufTy).Contents (Elt F)),
    reshape main_v2 main_v3 rfl shapeCasts_S1x1600000_S1600000,
    unary main_arg5 main_v4 ((extractStridedSlice S1x1600000 ![0, 0] · slices_S2x1600000_S1x1600000_0_0) : (⟨S2x1600000, .f32⟩ : BufTy).Contents (Elt F) → (⟨S1x1600000, .f32⟩ : BufTy).Contents (Elt F)),
    reshape main_v4 main_v5 rfl shapeCasts_S1x1600000_S1600000,
    binary main_arg0 main_arg1 main_v6 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_v5 main_v7 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v8 (broadcastInDim S1600000 ![] bcast_S_S1600000 : (⟨S_, .i32⟩ : BufTy).Contents (Elt F) → (⟨S1600000, .i32⟩ : BufTy).Contents (Elt F)),
    binary main_v3 main_v8 main_v9 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v10 (broadcastInDim S1600000 ![] bcast_S_S1600000 : (⟨S_, .i32⟩ : BufTy).Contents (Elt F) → (⟨S1600000, .i32⟩ : BufTy).Contents (Elt F)),
    binary main_v3 main_v10 main_v11 (addi : (⟨S1600000, .i32⟩ : BufTy).Contents (Elt F) → (⟨S1600000, .i32⟩ : BufTy).Contents (Elt F) → (⟨S1600000, .i32⟩ : BufTy).Contents (Elt F)),
    ternary main_v9 main_v11 main_v3 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v12 main_v13 (broadcastInDim S1600000x1 ![0] bcast_S1600000_S1600000x1_0 : (⟨S1600000, .i32⟩ : BufTy).Contents (Elt F) → (⟨S1600000x1, .i32⟩ : BufTy).Contents (Elt F)),
    binary main_v6 main_v13 main_v14 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v7 main_v15 (broadcastInDim S1600000x128 ![0, 1] bcast_S1600000x1_S1600000x128_0_1 : (⟨S1600000x1, .f32⟩ : BufTy).Contents (Elt F) → (⟨S1600000x128, .f32⟩ : BufTy).Contents (Elt F)),
    binary main_v15 main_v14 main_v16 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v17 (broadcastInDim S100000x128 ![] bcast_S_S100000x128 : (⟨S_, .f32⟩ : BufTy).Contents (Elt F) → (⟨S100000x128, .f32⟩ : BufTy).Contents (Elt F)),
    unary main_v1 main_v18 (broadcastInDim S1600000x1 ![0] bcast_S1600000_S1600000x1_0 : (⟨S1600000, .i32⟩ : BufTy).Contents (Elt F) → (⟨S1600000x1, .i32⟩ : BufTy).Contents (Elt F)),
    ternary main_v17 main_v18 main_v16 main_v19 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg2 main_v20 (broadcastInDim S1x128 ![1] bcast_S128_S1x128_1 : (⟨S128, .f32⟩ : BufTy).Contents (Elt F) → (⟨S1x128, .f32⟩ : BufTy).Contents (Elt F)),
    unary main_v20 main_v21 (broadcastInDim S100000x128 ![0, 1] bcast_S1x128_S100000x128_0_1 : (⟨S1x128, .f32⟩ : BufTy).Contents (Elt F) → (⟨S100000x128, .f32⟩ : BufTy).Contents (Elt F)),
    binary main_v19 main_v21 main_v22 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v22) (TRef.of (T := ⟨S100000x128, .f32⟩) main_call0_v0) (TRef.of (T := ⟨S100000x128, .f32⟩) main_v23) maximumf,
    binary main_v23 main_arg3 main_v24 ((fun l r => Host.dotGeneral dot_S100000x128_S128x10_S100000x10_1_0_0_1_n_n none l r) : (⟨S100000x128, .f32⟩ : BufTy).Contents (Elt F) → (⟨S128x10, .f32⟩ : BufTy).Contents (Elt F) → (⟨S100000x10, .f32⟩ : BufTy).Contents (Elt F)),
    unary main_v5 main_v25 (broadcastInDim S1600000x1 ![0] bcast_S1600000_S1600000x1_0 : (⟨S1600000, .f32⟩ : BufTy).Contents (Elt F) → (⟨S1600000x1, .f32⟩ : BufTy).Contents (Elt F)),
    nullary main_c_1 (constantI S_ 32 0#32),
    unary main_c_1 main_v26 (broadcastInDim S1600000 ![] bcast_S_S1600000 : (⟨S_, .i32⟩ : BufTy).Contents (Elt F) → (⟨S1600000, .i32⟩ : BufTy).Contents (Elt F)),
    binary main_v3 main_v26 main_v27 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v28 (broadcastInDim S1600000 ![] bcast_S_S1600000 : (⟨S_, .i32⟩ : BufTy).Contents (Elt F) → (⟨S1600000, .i32⟩ : BufTy).Contents (Elt F)),
    binary main_v3 main_v28 main_v29 (addi : (⟨S1600000, .i32⟩ : BufTy).Contents (Elt F) → (⟨S1600000, .i32⟩ : BufTy).Contents (Elt F) → (⟨S1600000, .i32⟩ : BufTy).Contents (Elt F)),
    ternary main_v27 main_v29 main_v3 main_v30 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v30 main_v31 (broadcastInDim S1600000x1 ![0] bcast_S1600000_S1600000x1_0 : (⟨S1600000, .i32⟩ : BufTy).Contents (Elt F) → (⟨S1600000x1, .i32⟩ : BufTy).Contents (Elt F)),
    binary main_v24 main_v31 main_v32 ((fun x i => Host.gather gather_S100000x10_S1600000x1_S1600000x10_1_0_n_n_0_1_110 x i) : (⟨S100000x10, .f32⟩ : BufTy).Contents (Elt F) → (⟨S1600000x1, .i32⟩ : BufTy).Contents (Elt F) → (⟨S1600000x10, .f32⟩ : BufTy).Contents (Elt F)),
    unary main_v25 main_v33 (broadcastInDim S1600000x10 ![0, 1] bcast_S1600000x1_S1600000x10_0_1 : (⟨S1600000x1, .f32⟩ : BufTy).Contents (Elt F) → (⟨S1600000x10, .f32⟩ : BufTy).Contents (Elt F)),
    binary main_v33 main_v32 main_v34 (mulf : (⟨S1600000x10, .f32⟩ : BufTy).Contents (Elt F) → (⟨S1600000x10, .f32⟩ : BufTy).Contents (Elt F) → (⟨S1600000x10, .f32⟩ : BufTy).Contents (Elt F)),
    nullary main_cst_3 (constant S_ .f32 0x00000000#32),
    unary main_cst_3 main_v35 (broadcastInDim S100000x10 ![] bcast_S_S100000x10 : (⟨S_, .f32⟩ : BufTy).Contents (Elt F) → (⟨S100000x10, .f32⟩ : BufTy).Contents (Elt F)),
    unary main_v1 main_v36 (broadcastInDim S1600000x1 ![0] bcast_S1600000_S1600000x1_0 : (⟨S1600000, .i32⟩ : BufTy).Contents (Elt F) → (⟨S1600000x1, .i32⟩ : BufTy).Contents (Elt F)),
    ternary main_v35 main_v36 main_v34 main_v37 ((fun x i u => Host.scatterAdd scatter_S100000x10_S1600000x1_S1600000x10_1_0_0_1 x i u) : (⟨S100000x10, .f32⟩ : BufTy).Contents (Elt F) → (⟨S1600000x1, .i32⟩ : BufTy).Contents (Elt F) → (⟨S1600000x10, .f32⟩ : BufTy).Contents (Elt F) → (⟨S100000x10, .f32⟩ : BufTy).Contents (Elt F)),
    unary main_arg4 main_v38 (broadcastInDim S1x10 ![1] bcast_S10_S1x10_1 : (⟨S10, .f32⟩ : BufTy).Contents (Elt F) → (⟨S1x10, .f32⟩ : BufTy).Contents (Elt F)),
    unary main_v38 main_v39 (broadcastInDim S100000x10 ![0, 1] bcast_S1x10_S100000x10_0_1 : (⟨S1x10, .f32⟩ : BufTy).Contents (Elt F) → (⟨S100000x10, .f32⟩ : BufTy).Contents (Elt F)),
    binary main_v37 main_v39 main_v40 (addf : (⟨S100000x10, .f32⟩ : BufTy).Contents (Elt F) → (⟨S100000x10, .f32⟩ : BufTy).Contents (Elt F) → (⟨S100000x10, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x10, .f32⟩) main_call1_v0) (broadcastInDim S100000x10 ![] bcast_S_S100000x10),
    TRef.binary (TRef.of (T := ⟨S100000x10, .f32⟩) main_v40) (TRef.of (T := ⟨S100000x10, .f32⟩) main_call1_v0) (TRef.of (T := ⟨S100000x10, .f32⟩) main_v41) maximumf,
    unary main_arg6 main_v42 ((extractStridedSlice S1x1600000 ![1, 0] · slices_S2x1600000_S1x1600000_1_0) : (⟨S2x1600000, .i32⟩ : BufTy).Contents (Elt F) → (⟨S1x1600000, .i32⟩ : BufTy).Contents (Elt F)),
    reshape main_v42 main_v43 rfl shapeCasts_S1x1600000_S1600000,
    unary main_arg7 main_v44 ((extractStridedSlice S1x1600000 ![1, 0] · slices_S2x1600000_S1x1600000_1_0) : (⟨S2x1600000, .i32⟩ : BufTy).Contents (Elt F) → (⟨S1x1600000, .i32⟩ : BufTy).Contents (Elt F)),
    reshape main_v44 main_v45 rfl shapeCasts_S1x1600000_S1600000,
    unary main_arg5 main_v46 ((extractStridedSlice S1x1600000 ![1, 0] · slices_S2x1600000_S1x1600000_1_0) : (⟨S2x1600000, .f32⟩ : BufTy).Contents (Elt F) → (⟨S1x1600000, .f32⟩ : BufTy).Contents (Elt F)),
    reshape main_v46 main_v47 rfl shapeCasts_S1x1600000_S1600000,
    binary main_arg0 main_arg1 main_v48 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_v47 main_v49 (broadcastInDim S1600000x1 ![0] bcast_S1600000_S1600000x1_0 : (⟨S1600000, .f32⟩ : BufTy).Contents (Elt F) → (⟨S1600000x1, .f32⟩ : BufTy).Contents (Elt F)),
    nullary main_c_4 (constantI S_ 32 0#32),
    unary main_c_4 main_v50 (broadcastInDim S1600000 ![] bcast_S_S1600000 : (⟨S_, .i32⟩ : BufTy).Contents (Elt F) → (⟨S1600000, .i32⟩ : BufTy).Contents (Elt F)),
    binary main_v45 main_v50 main_v51 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v52 (broadcastInDim S1600000 ![] bcast_S_S1600000 : (⟨S_, .i32⟩ : BufTy).Contents (Elt F) → (⟨S1600000, .i32⟩ : BufTy).Contents (Elt F)),
    binary main_v45 main_v52 main_v53 (addi : (⟨S1600000, .i32⟩ : BufTy).Contents (Elt F) → (⟨S1600000, .i32⟩ : BufTy).Contents (Elt F) → (⟨S1600000, .i32⟩ : BufTy).Contents (Elt F)),
    ternary main_v51 main_v53 main_v45 main_v54 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v54 main_v55 (broadcastInDim S1600000x1 ![0] bcast_S1600000_S1600000x1_0 : (⟨S1600000, .i32⟩ : BufTy).Contents (Elt F) → (⟨S1600000x1, .i32⟩ : BufTy).Contents (Elt F)),
    binary main_v48 main_v55 main_v56 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v49 main_v57 (broadcastInDim S1600000x128 ![0, 1] bcast_S1600000x1_S1600000x128_0_1 : (⟨S1600000x1, .f32⟩ : BufTy).Contents (Elt F) → (⟨S1600000x128, .f32⟩ : BufTy).Contents (Elt F)),
    binary main_v57 main_v56 main_v58 (mulf : (⟨S1600000x128, .f32⟩ : BufTy).Contents (Elt F) → (⟨S1600000x128, .f32⟩ : BufTy).Contents (Elt F) → (⟨S1600000x128, .f32⟩ : BufTy).Contents (Elt F)),
    nullary main_cst_6 (constant S_ .f32 0x00000000#32),
    unary main_cst_6 main_v59 (broadcastInDim S100000x128 ![] bcast_S_S100000x128 : (⟨S_, .f32⟩ : BufTy).Contents (Elt F) → (⟨S100000x128, .f32⟩ : BufTy).Contents (Elt F)),
    unary main_v43 main_v60 (broadcastInDim S1600000x1 ![0] bcast_S1600000_S1600000x1_0 : (⟨S1600000, .i32⟩ : BufTy).Contents (Elt F) → (⟨S1600000x1, .i32⟩ : BufTy).Contents (Elt F)),
    ternary main_v59 main_v60 main_v58 main_v61 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg2 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v64) (TRef.of (T := ⟨S100000x128, .f32⟩) main_call2_v0) (TRef.of (T := ⟨S100000x128, .f32⟩) main_v65) maximumf,
    binary main_v65 main_arg3 main_v66 ((fun l r => Host.dotGeneral dot_S100000x128_S128x10_S100000x10_1_0_0_1_n_n none l r) : (⟨S100000x128, .f32⟩ : BufTy).Contents (Elt F) → (⟨S128x10, .f32⟩ : BufTy).Contents (Elt F) → (⟨S100000x10, .f32⟩ : BufTy).Contents (Elt F)),
    unary main_v47 main_v67 (broadcastInDim S1600000x1 ![0] bcast_S1600000_S1600000x1_0 : (⟨S1600000, .f32⟩ : BufTy).Contents (Elt F) → (⟨S1600000x1, .f32⟩ : BufTy).Contents (Elt F)),
    nullary main_c_7 (constantI S_ 32 0#32),
    unary main_c_7 main_v68 (broadcastInDim S1600000 ![] bcast_S_S1600000 : (⟨S_, .i32⟩ : BufTy).Contents (Elt F) → (⟨S1600000, .i32⟩ : BufTy).Contents (Elt F)),
    binary main_v45 main_v68 main_v69 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v70 (broadcastInDim S1600000 ![] bcast_S_S1600000 : (⟨S_, .i32⟩ : BufTy).Contents (Elt F) → (⟨S1600000, .i32⟩ : BufTy).Contents (Elt F)),
    binary main_v45 main_v70 main_v71 (addi : (⟨S1600000, .i32⟩ : BufTy).Contents (Elt F) → (⟨S1600000, .i32⟩ : BufTy).Contents (Elt F) → (⟨S1600000, .i32⟩ : BufTy).Contents (Elt F)),
    ternary main_v69 main_v71 main_v45 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v72 main_v73 (broadcastInDim S1600000x1 ![0] bcast_S1600000_S1600000x1_0 : (⟨S1600000, .i32⟩ : BufTy).Contents (Elt F) → (⟨S1600000x1, .i32⟩ : BufTy).Contents (Elt F)),
    binary main_v66 main_v73 main_v74 ((fun x i => Host.gather gather_S100000x10_S1600000x1_S1600000x10_1_0_n_n_0_1_110 x i) : (⟨S100000x10, .f32⟩ : BufTy).Contents (Elt F) → (⟨S1600000x1, .i32⟩ : BufTy).Contents (Elt F) → (⟨S1600000x10, .f32⟩ : BufTy).Contents (Elt F)),
    unary main_v67 main_v75 (broadcastInDim S1600000x10 ![0, 1] bcast_S1600000x1_S1600000x10_0_1 : (⟨S1600000x1, .f32⟩ : BufTy).Contents (Elt F) → (⟨S1600000x10, .f32⟩ : BufTy).Contents (Elt F)),
    binary main_v75 main_v74 main_v76 (mulf : (⟨S1600000x10, .f32⟩ : BufTy).Contents (Elt F) → (⟨S1600000x10, .f32⟩ : BufTy).Contents (Elt F) → (⟨S1600000x10, .f32⟩ : BufTy).Contents (Elt F)),
    nullary main_cst_9 (constant S_ .f32 0x00000000#32),
    unary main_cst_9 main_v77 (broadcastInDim S100000x10 ![] bcast_S_S100000x10 : (⟨S_, .f32⟩ : BufTy).Contents (Elt F) → (⟨S100000x10, .f32⟩ : BufTy).Contents (Elt F)),
    unary main_v43 main_v78 (broadcastInDim S1600000x1 ![0] bcast_S1600000_S1600000x1_0 : (⟨S1600000, .i32⟩ : BufTy).Contents (Elt F) → (⟨S1600000x1, .i32⟩ : BufTy).Contents (Elt F)),
    ternary main_v77 main_v78 main_v76 main_v79 ((fun x i u => Host.scatterAdd scatter_S100000x10_S1600000x1_S1600000x10_1_0_0_1 x i u) : (⟨S100000x10, .f32⟩ : BufTy).Contents (Elt F) → (⟨S1600000x1, .i32⟩ : BufTy).Contents (Elt F) → (⟨S1600000x10, .f32⟩ : BufTy).Contents (Elt F) → (⟨S100000x10, .f32⟩ : BufTy).Contents (Elt F)),
    unary main_arg4 main_v80 (broadcastInDim S1x10 ![1] bcast_S10_S1x10_1 : (⟨S10, .f32⟩ : BufTy).Contents (Elt F) → (⟨S1x10, .f32⟩ : BufTy).Contents (Elt F)),
    unary main_v80 main_v81 (broadcastInDim S100000x10 ![0, 1] bcast_S1x10_S100000x10_0_1 : (⟨S1x10, .f32⟩ : BufTy).Contents (Elt F) → (⟨S100000x10, .f32⟩ : BufTy).Contents (Elt F)),
    binary main_v79 main_v81 main_v82 (addf : (⟨S100000x10, .f32⟩ : BufTy).Contents (Elt F) → (⟨S100000x10, .f32⟩ : BufTy).Contents (Elt F) → (⟨S100000x10, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x10, .f32⟩) main_call3_v0) (broadcastInDim S100000x10 ![] bcast_S_S100000x10),
    TRef.binary (TRef.of (T := ⟨S100000x10, .f32⟩) main_v82) (TRef.of (T := ⟨S100000x10, .f32⟩) main_call3_v0) (TRef.of (T := ⟨S100000x10, .f32⟩) main_v83) maximumf,
    binary main_v41 main_v83 main_v84 (addf : (⟨S100000x10, .f32⟩ : BufTy).Contents (Elt F) → (⟨S100000x10, .f32⟩ : BufTy).Contents (Elt F) → (⟨S100000x10, .f32⟩ : BufTy).Contents (Elt F)),
    nullary main_cst_10 (constant S_ .f32 0x40000000#32),
    unary main_cst_10 main_v85 (broadcastInDim S100000x10 ![] bcast_S_S100000x10 : (⟨S_, .f32⟩ : BufTy).Contents (Elt F) → (⟨S100000x10, .f32⟩ : BufTy).Contents (Elt F)),
    binary main_v84 main_v85 main_v86 (Host.divf : (⟨S100000x10, .f32⟩ : BufTy).Contents (Elt F) → (⟨S100000x10, .f32⟩ : BufTy).Contents (Elt F) → (⟨S100000x10, .f32⟩ : BufTy).Contents (Elt F)),
    nullary main_c_11 (constantI S_ 32 0#32),
    unary main_c_11 main_v87 (broadcastInDim S5000 ![] bcast_S_S5000 : (⟨S_, .i32⟩ : BufTy).Contents (Elt F) → (⟨S5000, .i32⟩ : BufTy).Contents (Elt F)),
    binary main_arg9 main_v87 main_v88 (cmpi .slt : (⟨S5000, .i32⟩ : BufTy).Contents (Elt F) → (⟨S5000, .i32⟩ : BufTy).Contents (Elt F) → (⟨S5000, .i1⟩ : BufTy).Contents (Elt F)),
    nullary main_c_12 (constantI S_ 32 100000#32),
    unary main_c_12 main_v89 (broadcastInDim S5000 ![] bcast_S_S5000 : (⟨S_, .i32⟩ : BufTy).Contents (Elt F) → (⟨S5000, .i32⟩ : BufTy).Contents (Elt F)),
    binary main_arg9 main_v89 main_v90 (addi : (⟨S5000, .i32⟩ : BufTy).Contents (Elt F) → (⟨S5000, .i32⟩ : BufTy).Contents (Elt F) → (⟨S5000, .i32⟩ : BufTy).Contents (Elt F)),
    ternary main_v88 main_v90 main_arg9 main_v91 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    unary main_v91 main_v92 (broadcastInDim S5000x1 ![0] bcast_S5000_S5000x1_0 : (⟨S5000, .i32⟩ : BufTy).Contents (Elt F) → (⟨S5000x1, .i32⟩ : BufTy).Contents (Elt F)),
    binary main_v86 main_v92 main_v93 ((fun x i => Host.gather gather_S100000x10_S5000x1_S5000x10_1_0_n_n_0_1_110 x i) : (⟨S100000x10, .f32⟩ : BufTy).Contents (Elt F) → (⟨S5000x1, .i32⟩ : BufTy).Contents (Elt F) → (⟨S5000x10, .f32⟩ : BufTy).Contents (Elt F)),
    TRef.nullary (TRef.of (T := ⟨S_, .f32⟩) main_call4_cst) (constant S_ .f32 0xFF800000#32),
    TRef.binary (TRef.of (T := ⟨S5000x10, .f32⟩) main_v93) (TRef.of (T := ⟨S_, .f32⟩) main_call4_cst) (TRef.of (T := ⟨S5000, .f32⟩) main_call4_v0) (fun x v => Host.reduce FloatOps.maximumf x v reducesTo_S5000x10_S5000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S5000, .f32⟩) main_call4_v1) (broadcastInDim S5000 ![] bcast_S_S5000),
    TRef.binary (TRef.of (T := ⟨S5000, .f32⟩) main_call4_v1) (TRef.of (T := ⟨S5000, .f32⟩) main_call4_v0) (TRef.of (T := ⟨S5000, .f32⟩) main_call4_v2) maximumf,
    TRef.unary (TRef.of (T := ⟨S5000, .f32⟩) main_call4_v2) (TRef.of (T := ⟨S5000x1, .f32⟩) main_call4_v3) (broadcastInDim S5000x1 ![0] bcast_S5000_S5000x1_0),
    TRef.unary (TRef.of (T := ⟨S5000x1, .f32⟩) main_call4_v3) (TRef.of (T := ⟨S5000x10, .f32⟩) main_call4_v4) (broadcastInDim S5000x10 ![0, 1] bcast_S5000x1_S5000x10_0_1),
    TRef.binary (TRef.of (T := ⟨S5000x10, .f32⟩) main_v93) (TRef.of (T := ⟨S5000x10, .f32⟩) main_call4_v4) (TRef.of (T := ⟨S5000x10, .f32⟩) main_call4_v5) subf,
    TRef.unary (TRef.of (T := ⟨S5000x10, .f32⟩) main_call4_v5) (TRef.of (T := ⟨S5000x10, .f32⟩) main_call4_v6) Host.exp,
    TRef.nullary (TRef.of (T := ⟨S_, .f32⟩) main_call4_cst_1) (constant S_ .f32 0x00000000#32),
    TRef.binary (TRef.of (T := ⟨S5000x10, .f32⟩) main_call4_v6) (TRef.of (T := ⟨S_, .f32⟩) main_call4_cst_1) (TRef.of (T := ⟨S5000, .f32⟩) main_call4_v7) (fun x v => Host.reduceAdd x v reducesTo_S5000x10_S5000_d1 h_S_),
    TRef.unary (TRef.of (T := ⟨S5000, .f32⟩) main_call4_v7) (TRef.of (T := ⟨S5000x1, .f32⟩) main_call4_v8) (broadcastInDim S5000x1 ![0] bcast_S5000_S5000x1_0),
    TRef.unary (TRef.of (T := ⟨S5000x1, .f32⟩) main_call4_v8) (TRef.of (T := ⟨S5000x1, .f32⟩) main_call4_v9) Host.log,
    TRef.unary (TRef.of (T := ⟨S5000x1, .f32⟩) main_call4_v9) (TRef.of (T := ⟨S5000x10, .f32⟩) main_call4_v10) (broadcastInDim S5000x10 ![0, 1] bcast_S5000x1_S5000x10_0_1),
    TRef.binary (TRef.of (T := ⟨S5000x10, .f32⟩) main_call4_v5) (TRef.of (T := ⟨S5000x10, .f32⟩) main_call4_v10) (TRef.of (T := ⟨S5000x10, .f32⟩) main_v94) subf,
    nullary main_c_13 (constantI S_ 32 0#32),
    unary main_c_13 main_v95 (broadcastInDim S5000 ![] bcast_S_S5000 : (⟨S_, .i32⟩ : BufTy).Contents (Elt F) → (⟨S5000, .i32⟩ : BufTy).Contents (Elt F)),
    binary main_arg9 main_v95 main_v96 (cmpi .slt : (⟨S5000, .i32⟩ : BufTy).Contents (Elt F) → (⟨S5000, .i32⟩ : BufTy).Contents (Elt F) → (⟨S5000, .i1⟩ : BufTy).Contents (Elt F)),
    nullary main_c_14 (constantI S_ 32 100000#32),
    unary main_c_14 main_v97 (broadcastInDim S5000 ![] bcast_S_S5000 : (⟨S_, .i32⟩ : BufTy).Contents (Elt F) → (⟨S5000, .i32⟩ : BufTy).Contents (Elt F)),
    binary main_arg9 main_v97 main_v98 (addi : (⟨S5000, .i32⟩ : BufTy).Contents (Elt F) → (⟨S5000, .i32⟩ : BufTy).Contents (Elt F) → (⟨S5000, .i32⟩ : BufTy).Contents (Elt F)),
    ternary main_v96 main_v98 main_arg9 main_v99 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    unary main_v99 main_v100 (broadcastInDim S5000x1 ![0] bcast_S5000_S5000x1_0 : (⟨S5000, .i32⟩ : BufTy).Contents (Elt F) → (⟨S5000x1, .i32⟩ : BufTy).Contents (Elt F)),
    binary main_arg8 main_v100 main_v101 ((fun x i => Host.gather gather_S100000_S5000x1_S5000_n_0_n_n_0_1_1 x i) : (⟨S100000, .i32⟩ : BufTy).Contents (Elt F) → (⟨S5000x1, .i32⟩ : BufTy).Contents (Elt F) → (⟨S5000, .i32⟩ : BufTy).Contents (Elt F)),
    unary main_v101 main_v102 (broadcastInDim S5000x1 ![0] bcast_S5000_S5000x1_0 : (⟨S5000, .i32⟩ : BufTy).Contents (Elt F) → (⟨S5000x1, .i32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S5000x1, .i32⟩) main_call5_v0) (broadcastInDim S5000x1 ![] bcast_S_S5000x1),
    TRef.binary (TRef.of (T := ⟨S5000x1, .i32⟩) main_v102) (TRef.of (T := ⟨S5000x1, .i32⟩) main_call5_v0) (TRef.of (T := ⟨S5000x1, .i1⟩) main_call5_v1) (cmpi .slt),
    TRef.nullary (TRef.of (T := ⟨S_, .i32⟩) main_call5_c_0) (constantI S_ 32 10#32),
    TRef.unary (TRef.of (T := ⟨S_, .i32⟩) main_call5_c_0) (TRef.of (T := ⟨S5000x1, .i32⟩) main_call5_v2) (broadcastInDim S5000x1 ![] bcast_S_S5000x1),
    TRef.binary (TRef.of (T := ⟨S5000x1, .i32⟩) main_v102) (TRef.of (T := ⟨S5000x1, .i32⟩) main_call5_v2) (TRef.of (T := ⟨S5000x1, .i32⟩) main_call5_v3) addi,
    TRef.ternary (TRef.of (T := ⟨S5000x1, .i1⟩) main_call5_v1) (TRef.of (T := ⟨S5000x1, .i32⟩) main_call5_v3) (TRef.of (T := ⟨S5000x1, .i32⟩) main_v102) (TRef.of (T := ⟨S5000x1, .i32⟩) main_call5_v4) select,
    TRef.reshape (TRef.of (T := ⟨S5000x1, .i32⟩) main_call5_v4) (TRef.of (T := ⟨S5000x1x1, .i32⟩) main_call5_v5) rfl shapeCasts_S5000x1_S5000x1x1,
    TRef.nullary (TRef.of (T := ⟨S1, .i32⟩) main_call5_c_1) (constantI S1 32 9#32),
    TRef.nullary (TRef.of (T := ⟨S_, .i32⟩) main_call5_c_2) (constantI S_ 32 0#32),
    TRef.unary (TRef.of (T := ⟨S_, .i32⟩) main_call5_c_2) (TRef.of (T := ⟨S5000x1x1, .i32⟩) main_call5_v6) (broadcastInDim S5000x1x1 ![] bcast_S_S5000x1x1),
    TRef.binary (TRef.of (T := ⟨S5000x1x1, .i32⟩) main_call5_v5) (TRef.of (T := ⟨S5000x1x1, .i32⟩) main_call5_v6) (TRef.of (T := ⟨S5000x1x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S5000x1x1, .i32⟩) main_call5_v9) (broadcastInDim S5000x1x1 ![0, 1, 2] bcast_S1x1x1_S5000x1x1_0_1_2),
    TRef.binary (TRef.of (T := ⟨S5000x1x1, .i32⟩) main_call5_v5) (TRef.of (T := ⟨S5000x1x1, .i32⟩) main_call5_v9) (TRef.of (T := ⟨S5000x1x1, .i1⟩) main_call5_v10) (cmpi .sle),
    TRef.binary (TRef.of (T := ⟨S5000x1x1, .i1⟩) main_call5_v7) (TRef.of (T := ⟨S5000x1x1, .i1⟩) main_call5_v10) (TRef.of (T := ⟨S5000x1x1, .i1⟩) main_call5_v11) andi,
    TRef.nullary (TRef.of (T := ⟨S_, .i1⟩) main_call5_c_3) (constantI S_ 1 1#1),
    TRef.binary (TRef.of (T := ⟨S5000x1x1, .i1⟩) main_call5_v11) (TRef.of (T := ⟨S_, .i1⟩) main_call5_c_3) (TRef.of (T := ⟨S5000x1, .i1⟩) main_call5_v12) (fun x v => Host.reduce IntOp.andi x v reducesTo_S5000x1x1_S5000x1_d2 h_S_),
    TRef.binary (TRef.of (T := ⟨S5000x10, .f32⟩) main_v94) (TRef.of (T := ⟨S5000x1x1, .i32⟩) main_call5_v5) (TRef.of (T := ⟨S5000x1, .f32⟩) main_call5_v13) (fun x i => Host.gather gather_S5000x10_S5000x1x1_S5000x1_n_1_0_0_1_2_11 x i),
    TRef.nullary (TRef.of (T := ⟨S_, .f32⟩) main_call5_cst) (constant S_ .f32 0x7FC00000#32),
    TRef.unary (TRef.of (T := ⟨S_, .f32⟩) main_call5_cst) (TRef.of (T := ⟨S5000x1, .f32⟩) main_call5_v14) (broadcastInDim S5000x1 ![] bcast_S_S5000x1),
    TRef.ternary (TRef.of (T := ⟨S5000x1, .i1⟩) main_call5_v12) (TRef.of (T := ⟨S5000x1, .f32⟩) main_call5_v13) (TRef.of (T := ⟨S5000x1, .f32⟩) main_call5_v14) (TRef.of (T := ⟨S5000x1, .f32⟩) main_v103) select,
    reshape main_v103 main_v104 rfl shapeCasts_S5000x1_S5000,
    unary main_v104 main_v105 (Host.negf : (⟨S5000, .f32⟩ : BufTy).Contents (Elt F) → (⟨S5000, .f32⟩ : BufTy).Contents (Elt F)),
    nullary main_cst_15 (constant S_ .f32 0x00000000#32),
    binary main_v105 main_cst_15 main_v106 ((fun x v => Host.reduceAdd x v reducesTo_S5000_S_d0 h_S_) : (⟨S5000, .f32⟩ : BufTy).Contents (Elt F) → (⟨S_, .f32⟩ : BufTy).Contents (Elt F) → (⟨S_, .f32⟩ : BufTy).Contents (Elt F)),
    nullary main_cst_16 (constant S_ .f32 0x459C4000#32),
    binary main_v106 main_cst_16 main_v107 (Host.divf : (⟨S_, .f32⟩ : BufTy).Contents (Elt F) → (⟨S_, .f32⟩ : BufTy).Contents (Elt F) → (⟨S_, .f32⟩ : BufTy).Contents (Elt F)) ]

set_option maxRecDepth 16384 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., binary_bufs_sub .., nullary_bufs_sub .., binary_bufs_sub ..⟩

/-- Every weakly fair execution terminates with each buffer at the operations' fold of the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-! ## The line in consecutive pieces -/

/-- Operations 1 … 23 of the reference's @main. -/
abbrev R1 : List (HloOp τ sig (Elt F)) :=
  [ unary main_arg6 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg7 main_v2 ((extractStridedSlice S1x1600000 ![0, 0] · slices_S2x1600000_S1x1600000_0_0) : (⟨S2x1600000, .i32⟩ : BufTy).Contents (Elt F) → (⟨S1x1600000, .i32⟩ : BufTy).Contents (Elt F)),
    reshape main_v2 main_v3 rfl shapeCasts_S1x1600000_S1600000,
    unary main_arg5 main_v4 ((extractStridedSlice S1x1600000 ![0, 0] · slices_S2x1600000_S1x1600000_0_0) : (⟨S2x1600000, .f32⟩ : BufTy).Contents (Elt F) → (⟨S1x1600000, .f32⟩ : BufTy).Contents (Elt F)),
    reshape main_v4 main_v5 rfl shapeCasts_S1x1600000_S1600000,
    binary main_arg0 main_arg1 main_v6 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_v5 main_v7 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v8 (broadcastInDim S1600000 ![] bcast_S_S1600000 : (⟨S_, .i32⟩ : BufTy).Contents (Elt F) → (⟨S1600000, .i32⟩ : BufTy).Contents (Elt F)),
    binary main_v3 main_v8 main_v9 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v10 (broadcastInDim S1600000 ![] bcast_S_S1600000 : (⟨S_, .i32⟩ : BufTy).Contents (Elt F) → (⟨S1600000, .i32⟩ : BufTy).Contents (Elt F)),
    binary main_v3 main_v10 main_v11 (addi : (⟨S1600000, .i32⟩ : BufTy).Contents (Elt F) → (⟨S1600000, .i32⟩ : BufTy).Contents (Elt F) → (⟨S1600000, .i32⟩ : BufTy).Contents (Elt F)),
    ternary main_v9 main_v11 main_v3 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v12 main_v13 (broadcastInDim S1600000x1 ![0] bcast_S1600000_S1600000x1_0 : (⟨S1600000, .i32⟩ : BufTy).Contents (Elt F) → (⟨S1600000x1, .i32⟩ : BufTy).Contents (Elt F)),
    binary main_v6 main_v13 main_v14 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v7 main_v15 (broadcastInDim S1600000x128 ![0, 1] bcast_S1600000x1_S1600000x128_0_1 : (⟨S1600000x1, .f32⟩ : BufTy).Contents (Elt F) → (⟨S1600000x128, .f32⟩ : BufTy).Contents (Elt F)),
    binary main_v15 main_v14 main_v16 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v17 (broadcastInDim S100000x128 ![] bcast_S_S100000x128 : (⟨S_, .f32⟩ : BufTy).Contents (Elt F) → (⟨S100000x128, .f32⟩ : BufTy).Contents (Elt F)),
    unary main_v1 main_v18 (broadcastInDim S1600000x1 ![0] bcast_S1600000_S1600000x1_0 : (⟨S1600000, .i32⟩ : BufTy).Contents (Elt F) → (⟨S1600000x1, .i32⟩ : BufTy).Contents (Elt F)),
    ternary main_v17 main_v18 main_v16 main_v19 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Operations 24 … 30 of the reference's @main. -/
abbrev R2 : List (HloOp τ sig (Elt F)) :=
  [ unary main_arg2 main_v20 (broadcastInDim S1x128 ![1] bcast_S128_S1x128_1 : (⟨S128, .f32⟩ : BufTy).Contents (Elt F) → (⟨S1x128, .f32⟩ : BufTy).Contents (Elt F)),
    unary main_v20 main_v21 (broadcastInDim S100000x128 ![0, 1] bcast_S1x128_S100000x128_0_1 : (⟨S1x128, .f32⟩ : BufTy).Contents (Elt F) → (⟨S100000x128, .f32⟩ : BufTy).Contents (Elt F)),
    binary main_v19 main_v21 main_v22 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v22) (TRef.of (T := ⟨S100000x128, .f32⟩) main_call0_v0) (TRef.of (T := ⟨S100000x128, .f32⟩) main_v23) maximumf,
    binary main_v23 main_arg3 main_v24 ((fun l r => Host.dotGeneral dot_S100000x128_S128x10_S100000x10_1_0_0_1_n_n none l r) : (⟨S100000x128, .f32⟩ : BufTy).Contents (Elt F) → (⟨S128x10, .f32⟩ : BufTy).Contents (Elt F) → (⟨S100000x10, .f32⟩ : BufTy).Contents (Elt F)) ]

/-- Operations 31 … 46 of the reference's @main. -/
abbrev R3 : List (HloOp τ sig (Elt F)) :=
  [ unary main_v5 main_v25 (broadcastInDim S1600000x1 ![0] bcast_S1600000_S1600000x1_0 : (⟨S1600000, .f32⟩ : BufTy).Contents (Elt F) → (⟨S1600000x1, .f32⟩ : BufTy).Contents (Elt F)),
    nullary main_c_1 (constantI S_ 32 0#32),
    unary main_c_1 main_v26 (broadcastInDim S1600000 ![] bcast_S_S1600000 : (⟨S_, .i32⟩ : BufTy).Contents (Elt F) → (⟨S1600000, .i32⟩ : BufTy).Contents (Elt F)),
    binary main_v3 main_v26 main_v27 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v28 (broadcastInDim S1600000 ![] bcast_S_S1600000 : (⟨S_, .i32⟩ : BufTy).Contents (Elt F) → (⟨S1600000, .i32⟩ : BufTy).Contents (Elt F)),
    binary main_v3 main_v28 main_v29 (addi : (⟨S1600000, .i32⟩ : BufTy).Contents (Elt F) → (⟨S1600000, .i32⟩ : BufTy).Contents (Elt F) → (⟨S1600000, .i32⟩ : BufTy).Contents (Elt F)),
    ternary main_v27 main_v29 main_v3 main_v30 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v30 main_v31 (broadcastInDim S1600000x1 ![0] bcast_S1600000_S1600000x1_0 : (⟨S1600000, .i32⟩ : BufTy).Contents (Elt F) → (⟨S1600000x1, .i32⟩ : BufTy).Contents (Elt F)),
    binary main_v24 main_v31 main_v32 ((fun x i => Host.gather gather_S100000x10_S1600000x1_S1600000x10_1_0_n_n_0_1_110 x i) : (⟨S100000x10, .f32⟩ : BufTy).Contents (Elt F) → (⟨S1600000x1, .i32⟩ : BufTy).Contents (Elt F) → (⟨S1600000x10, .f32⟩ : BufTy).Contents (Elt F)),
    unary main_v25 main_v33 (broadcastInDim S1600000x10 ![0, 1] bcast_S1600000x1_S1600000x10_0_1 : (⟨S1600000x1, .f32⟩ : BufTy).Contents (Elt F) → (⟨S1600000x10, .f32⟩ : BufTy).Contents (Elt F)),
    binary main_v33 main_v32 main_v34 (mulf : (⟨S1600000x10, .f32⟩ : BufTy).Contents (Elt F) → (⟨S1600000x10, .f32⟩ : BufTy).Contents (Elt F) → (⟨S1600000x10, .f32⟩ : BufTy).Contents (Elt F)),
    nullary main_cst_3 (constant S_ .f32 0x00000000#32),
    unary main_cst_3 main_v35 (broadcastInDim S100000x10 ![] bcast_S_S100000x10 : (⟨S_, .f32⟩ : BufTy).Contents (Elt F) → (⟨S100000x10, .f32⟩ : BufTy).Contents (Elt F)),
    unary main_v1 main_v36 (broadcastInDim S1600000x1 ![0] bcast_S1600000_S1600000x1_0 : (⟨S1600000, .i32⟩ : BufTy).Contents (Elt F) → (⟨S1600000x1, .i32⟩ : BufTy).Contents (Elt F)),
    ternary main_v35 main_v36 main_v34 main_v37 ((fun x i u => Host.scatterAdd scatter_S100000x10_S1600000x1_S1600000x10_1_0_0_1 x i u) : (⟨S100000x10, .f32⟩ : BufTy).Contents (Elt F) → (⟨S1600000x1, .i32⟩ : BufTy).Contents (Elt F) → (⟨S1600000x10, .f32⟩ : BufTy).Contents (Elt F) → (⟨S100000x10, .f32⟩ : BufTy).Contents (Elt F)) ]

/-- Operations 47 … 52 of the reference's @main. -/
abbrev R4 : List (HloOp τ sig (Elt F)) :=
  [ unary main_arg4 main_v38 (broadcastInDim S1x10 ![1] bcast_S10_S1x10_1 : (⟨S10, .f32⟩ : BufTy).Contents (Elt F) → (⟨S1x10, .f32⟩ : BufTy).Contents (Elt F)),
    unary main_v38 main_v39 (broadcastInDim S100000x10 ![0, 1] bcast_S1x10_S100000x10_0_1 : (⟨S1x10, .f32⟩ : BufTy).Contents (Elt F) → (⟨S100000x10, .f32⟩ : BufTy).Contents (Elt F)),
    binary main_v37 main_v39 main_v40 (addf : (⟨S100000x10, .f32⟩ : BufTy).Contents (Elt F) → (⟨S100000x10, .f32⟩ : BufTy).Contents (Elt F) → (⟨S100000x10, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x10, .f32⟩) main_call1_v0) (broadcastInDim S100000x10 ![] bcast_S_S100000x10),
    TRef.binary (TRef.of (T := ⟨S100000x10, .f32⟩) main_v40) (TRef.of (T := ⟨S100000x10, .f32⟩) main_call1_v0) (TRef.of (T := ⟨S100000x10, .f32⟩) main_v41) maximumf ]

/-- Operations 53 … 75 of the reference's @main. -/
abbrev R5 : List (HloOp τ sig (Elt F)) :=
  [ unary main_arg6 main_v42 ((extractStridedSlice S1x1600000 ![1, 0] · slices_S2x1600000_S1x1600000_1_0) : (⟨S2x1600000, .i32⟩ : BufTy).Contents (Elt F) → (⟨S1x1600000, .i32⟩ : BufTy).Contents (Elt F)),
    reshape main_v42 main_v43 rfl shapeCasts_S1x1600000_S1600000,
    unary main_arg7 main_v44 ((extractStridedSlice S1x1600000 ![1, 0] · slices_S2x1600000_S1x1600000_1_0) : (⟨S2x1600000, .i32⟩ : BufTy).Contents (Elt F) → (⟨S1x1600000, .i32⟩ : BufTy).Contents (Elt F)),
    reshape main_v44 main_v45 rfl shapeCasts_S1x1600000_S1600000,
    unary main_arg5 main_v46 ((extractStridedSlice S1x1600000 ![1, 0] · slices_S2x1600000_S1x1600000_1_0) : (⟨S2x1600000, .f32⟩ : BufTy).Contents (Elt F) → (⟨S1x1600000, .f32⟩ : BufTy).Contents (Elt F)),
    reshape main_v46 main_v47 rfl shapeCasts_S1x1600000_S1600000,
    binary main_arg0 main_arg1 main_v48 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_v47 main_v49 (broadcastInDim S1600000x1 ![0] bcast_S1600000_S1600000x1_0 : (⟨S1600000, .f32⟩ : BufTy).Contents (Elt F) → (⟨S1600000x1, .f32⟩ : BufTy).Contents (Elt F)),
    nullary main_c_4 (constantI S_ 32 0#32),
    unary main_c_4 main_v50 (broadcastInDim S1600000 ![] bcast_S_S1600000 : (⟨S_, .i32⟩ : BufTy).Contents (Elt F) → (⟨S1600000, .i32⟩ : BufTy).Contents (Elt F)),
    binary main_v45 main_v50 main_v51 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v52 (broadcastInDim S1600000 ![] bcast_S_S1600000 : (⟨S_, .i32⟩ : BufTy).Contents (Elt F) → (⟨S1600000, .i32⟩ : BufTy).Contents (Elt F)),
    binary main_v45 main_v52 main_v53 (addi : (⟨S1600000, .i32⟩ : BufTy).Contents (Elt F) → (⟨S1600000, .i32⟩ : BufTy).Contents (Elt F) → (⟨S1600000, .i32⟩ : BufTy).Contents (Elt F)),
    ternary main_v51 main_v53 main_v45 main_v54 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v54 main_v55 (broadcastInDim S1600000x1 ![0] bcast_S1600000_S1600000x1_0 : (⟨S1600000, .i32⟩ : BufTy).Contents (Elt F) → (⟨S1600000x1, .i32⟩ : BufTy).Contents (Elt F)),
    binary main_v48 main_v55 main_v56 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v49 main_v57 (broadcastInDim S1600000x128 ![0, 1] bcast_S1600000x1_S1600000x128_0_1 : (⟨S1600000x1, .f32⟩ : BufTy).Contents (Elt F) → (⟨S1600000x128, .f32⟩ : BufTy).Contents (Elt F)),
    binary main_v57 main_v56 main_v58 (mulf : (⟨S1600000x128, .f32⟩ : BufTy).Contents (Elt F) → (⟨S1600000x128, .f32⟩ : BufTy).Contents (Elt F) → (⟨S1600000x128, .f32⟩ : BufTy).Contents (Elt F)),
    nullary main_cst_6 (constant S_ .f32 0x00000000#32),
    unary main_cst_6 main_v59 (broadcastInDim S100000x128 ![] bcast_S_S100000x128 : (⟨S_, .f32⟩ : BufTy).Contents (Elt F) → (⟨S100000x128, .f32⟩ : BufTy).Contents (Elt F)),
    unary main_v43 main_v60 (broadcastInDim S1600000x1 ![0] bcast_S1600000_S1600000x1_0 : (⟨S1600000, .i32⟩ : BufTy).Contents (Elt F) → (⟨S1600000x1, .i32⟩ : BufTy).Contents (Elt F)),
    ternary main_v59 main_v60 main_v58 main_v61 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Operations 76 … 82 of the reference's @main. -/
abbrev R6 : List (HloOp τ sig (Elt F)) :=
  [ unary main_arg2 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v64) (TRef.of (T := ⟨S100000x128, .f32⟩) main_call2_v0) (TRef.of (T := ⟨S100000x128, .f32⟩) main_v65) maximumf,
    binary main_v65 main_arg3 main_v66 ((fun l r => Host.dotGeneral dot_S100000x128_S128x10_S100000x10_1_0_0_1_n_n none l r) : (⟨S100000x128, .f32⟩ : BufTy).Contents (Elt F) → (⟨S128x10, .f32⟩ : BufTy).Contents (Elt F) → (⟨S100000x10, .f32⟩ : BufTy).Contents (Elt F)) ]

/-- Operations 83 … 98 of the reference's @main. -/
abbrev R7 : List (HloOp τ sig (Elt F)) :=
  [ unary main_v47 main_v67 (broadcastInDim S1600000x1 ![0] bcast_S1600000_S1600000x1_0 : (⟨S1600000, .f32⟩ : BufTy).Contents (Elt F) → (⟨S1600000x1, .f32⟩ : BufTy).Contents (Elt F)),
    nullary main_c_7 (constantI S_ 32 0#32),
    unary main_c_7 main_v68 (broadcastInDim S1600000 ![] bcast_S_S1600000 : (⟨S_, .i32⟩ : BufTy).Contents (Elt F) → (⟨S1600000, .i32⟩ : BufTy).Contents (Elt F)),
    binary main_v45 main_v68 main_v69 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v70 (broadcastInDim S1600000 ![] bcast_S_S1600000 : (⟨S_, .i32⟩ : BufTy).Contents (Elt F) → (⟨S1600000, .i32⟩ : BufTy).Contents (Elt F)),
    binary main_v45 main_v70 main_v71 (addi : (⟨S1600000, .i32⟩ : BufTy).Contents (Elt F) → (⟨S1600000, .i32⟩ : BufTy).Contents (Elt F) → (⟨S1600000, .i32⟩ : BufTy).Contents (Elt F)),
    ternary main_v69 main_v71 main_v45 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v72 main_v73 (broadcastInDim S1600000x1 ![0] bcast_S1600000_S1600000x1_0 : (⟨S1600000, .i32⟩ : BufTy).Contents (Elt F) → (⟨S1600000x1, .i32⟩ : BufTy).Contents (Elt F)),
    binary main_v66 main_v73 main_v74 ((fun x i => Host.gather gather_S100000x10_S1600000x1_S1600000x10_1_0_n_n_0_1_110 x i) : (⟨S100000x10, .f32⟩ : BufTy).Contents (Elt F) → (⟨S1600000x1, .i32⟩ : BufTy).Contents (Elt F) → (⟨S1600000x10, .f32⟩ : BufTy).Contents (Elt F)),
    unary main_v67 main_v75 (broadcastInDim S1600000x10 ![0, 1] bcast_S1600000x1_S1600000x10_0_1 : (⟨S1600000x1, .f32⟩ : BufTy).Contents (Elt F) → (⟨S1600000x10, .f32⟩ : BufTy).Contents (Elt F)),
    binary main_v75 main_v74 main_v76 (mulf : (⟨S1600000x10, .f32⟩ : BufTy).Contents (Elt F) → (⟨S1600000x10, .f32⟩ : BufTy).Contents (Elt F) → (⟨S1600000x10, .f32⟩ : BufTy).Contents (Elt F)),
    nullary main_cst_9 (constant S_ .f32 0x00000000#32),
    unary main_cst_9 main_v77 (broadcastInDim S100000x10 ![] bcast_S_S100000x10 : (⟨S_, .f32⟩ : BufTy).Contents (Elt F) → (⟨S100000x10, .f32⟩ : BufTy).Contents (Elt F)),
    unary main_v43 main_v78 (broadcastInDim S1600000x1 ![0] bcast_S1600000_S1600000x1_0 : (⟨S1600000, .i32⟩ : BufTy).Contents (Elt F) → (⟨S1600000x1, .i32⟩ : BufTy).Contents (Elt F)),
    ternary main_v77 main_v78 main_v76 main_v79 ((fun x i u => Host.scatterAdd scatter_S100000x10_S1600000x1_S1600000x10_1_0_0_1 x i u) : (⟨S100000x10, .f32⟩ : BufTy).Contents (Elt F) → (⟨S1600000x1, .i32⟩ : BufTy).Contents (Elt F) → (⟨S1600000x10, .f32⟩ : BufTy).Contents (Elt F) → (⟨S100000x10, .f32⟩ : BufTy).Contents (Elt F)) ]

/-- Operations 99 … 108 of the reference's @main. -/
abbrev R8 : List (HloOp τ sig (Elt F)) :=
  [ unary main_arg4 main_v80 (broadcastInDim S1x10 ![1] bcast_S10_S1x10_1 : (⟨S10, .f32⟩ : BufTy).Contents (Elt F) → (⟨S1x10, .f32⟩ : BufTy).Contents (Elt F)),
    unary main_v80 main_v81 (broadcastInDim S100000x10 ![0, 1] bcast_S1x10_S100000x10_0_1 : (⟨S1x10, .f32⟩ : BufTy).Contents (Elt F) → (⟨S100000x10, .f32⟩ : BufTy).Contents (Elt F)),
    binary main_v79 main_v81 main_v82 (addf : (⟨S100000x10, .f32⟩ : BufTy).Contents (Elt F) → (⟨S100000x10, .f32⟩ : BufTy).Contents (Elt F) → (⟨S100000x10, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x10, .f32⟩) main_call3_v0) (broadcastInDim S100000x10 ![] bcast_S_S100000x10),
    TRef.binary (TRef.of (T := ⟨S100000x10, .f32⟩) main_v82) (TRef.of (T := ⟨S100000x10, .f32⟩) main_call3_v0) (TRef.of (T := ⟨S100000x10, .f32⟩) main_v83) maximumf,
    binary main_v41 main_v83 main_v84 (addf : (⟨S100000x10, .f32⟩ : BufTy).Contents (Elt F) → (⟨S100000x10, .f32⟩ : BufTy).Contents (Elt F) → (⟨S100000x10, .f32⟩ : BufTy).Contents (Elt F)),
    nullary main_cst_10 (constant S_ .f32 0x40000000#32),
    unary main_cst_10 main_v85 (broadcastInDim S100000x10 ![] bcast_S_S100000x10 : (⟨S_, .f32⟩ : BufTy).Contents (Elt F) → (⟨S100000x10, .f32⟩ : BufTy).Contents (Elt F)),
    binary main_v84 main_v85 main_v86 (Host.divf : (⟨S100000x10, .f32⟩ : BufTy).Contents (Elt F) → (⟨S100000x10, .f32⟩ : BufTy).Contents (Elt F) → (⟨S100000x10, .f32⟩ : BufTy).Contents (Elt F)) ]

/-- Operations 109 … 117 of the reference's @main. -/
abbrev T1 : List (HloOp τ sig (Elt F)) :=
  [ nullary main_c_11 (constantI S_ 32 0#32),
    unary main_c_11 main_v87 (broadcastInDim S5000 ![] bcast_S_S5000 : (⟨S_, .i32⟩ : BufTy).Contents (Elt F) → (⟨S5000, .i32⟩ : BufTy).Contents (Elt F)),
    binary main_arg9 main_v87 main_v88 (cmpi .slt : (⟨S5000, .i32⟩ : BufTy).Contents (Elt F) → (⟨S5000, .i32⟩ : BufTy).Contents (Elt F) → (⟨S5000, .i1⟩ : BufTy).Contents (Elt F)),
    nullary main_c_12 (constantI S_ 32 100000#32),
    unary main_c_12 main_v89 (broadcastInDim S5000 ![] bcast_S_S5000 : (⟨S_, .i32⟩ : BufTy).Contents (Elt F) → (⟨S5000, .i32⟩ : BufTy).Contents (Elt F)),
    binary main_arg9 main_v89 main_v90 (addi : (⟨S5000, .i32⟩ : BufTy).Contents (Elt F) → (⟨S5000, .i32⟩ : BufTy).Contents (Elt F) → (⟨S5000, .i32⟩ : BufTy).Contents (Elt F)),
    ternary main_v88 main_v90 main_arg9 main_v91 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    unary main_v91 main_v92 (broadcastInDim S5000x1 ![0] bcast_S5000_S5000x1_0 : (⟨S5000, .i32⟩ : BufTy).Contents (Elt F) → (⟨S5000x1, .i32⟩ : BufTy).Contents (Elt F)),
    binary main_v86 main_v92 main_v93 ((fun x i => Host.gather gather_S100000x10_S5000x1_S5000x10_1_0_n_n_0_1_110 x i) : (⟨S100000x10, .f32⟩ : BufTy).Contents (Elt F) → (⟨S5000x1, .i32⟩ : BufTy).Contents (Elt F) → (⟨S5000x10, .f32⟩ : BufTy).Contents (Elt F)) ]

/-- Operations 118 … 132 of the reference's @main. -/
abbrev T2 : List (HloOp τ sig (Elt F)) :=
  [ TRef.nullary (TRef.of (T := ⟨S_, .f32⟩) main_call4_cst) (constant S_ .f32 0xFF800000#32),
    TRef.binary (TRef.of (T := ⟨S5000x10, .f32⟩) main_v93) (TRef.of (T := ⟨S_, .f32⟩) main_call4_cst) (TRef.of (T := ⟨S5000, .f32⟩) main_call4_v0) (fun x v => Host.reduce FloatOps.maximumf x v reducesTo_S5000x10_S5000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S5000, .f32⟩) main_call4_v1) (broadcastInDim S5000 ![] bcast_S_S5000),
    TRef.binary (TRef.of (T := ⟨S5000, .f32⟩) main_call4_v1) (TRef.of (T := ⟨S5000, .f32⟩) main_call4_v0) (TRef.of (T := ⟨S5000, .f32⟩) main_call4_v2) maximumf,
    TRef.unary (TRef.of (T := ⟨S5000, .f32⟩) main_call4_v2) (TRef.of (T := ⟨S5000x1, .f32⟩) main_call4_v3) (broadcastInDim S5000x1 ![0] bcast_S5000_S5000x1_0),
    TRef.unary (TRef.of (T := ⟨S5000x1, .f32⟩) main_call4_v3) (TRef.of (T := ⟨S5000x10, .f32⟩) main_call4_v4) (broadcastInDim S5000x10 ![0, 1] bcast_S5000x1_S5000x10_0_1),
    TRef.binary (TRef.of (T := ⟨S5000x10, .f32⟩) main_v93) (TRef.of (T := ⟨S5000x10, .f32⟩) main_call4_v4) (TRef.of (T := ⟨S5000x10, .f32⟩) main_call4_v5) subf,
    TRef.unary (TRef.of (T := ⟨S5000x10, .f32⟩) main_call4_v5) (TRef.of (T := ⟨S5000x10, .f32⟩) main_call4_v6) Host.exp,
    TRef.nullary (TRef.of (T := ⟨S_, .f32⟩) main_call4_cst_1) (constant S_ .f32 0x00000000#32),
    TRef.binary (TRef.of (T := ⟨S5000x10, .f32⟩) main_call4_v6) (TRef.of (T := ⟨S_, .f32⟩) main_call4_cst_1) (TRef.of (T := ⟨S5000, .f32⟩) main_call4_v7) (fun x v => Host.reduceAdd x v reducesTo_S5000x10_S5000_d1 h_S_),
    TRef.unary (TRef.of (T := ⟨S5000, .f32⟩) main_call4_v7) (TRef.of (T := ⟨S5000x1, .f32⟩) main_call4_v8) (broadcastInDim S5000x1 ![0] bcast_S5000_S5000x1_0),
    TRef.unary (TRef.of (T := ⟨S5000x1, .f32⟩) main_call4_v8) (TRef.of (T := ⟨S5000x1, .f32⟩) main_call4_v9) Host.log,
    TRef.unary (TRef.of (T := ⟨S5000x1, .f32⟩) main_call4_v9) (TRef.of (T := ⟨S5000x10, .f32⟩) main_call4_v10) (broadcastInDim S5000x10 ![0, 1] bcast_S5000x1_S5000x10_0_1),
    TRef.binary (TRef.of (T := ⟨S5000x10, .f32⟩) main_call4_v5) (TRef.of (T := ⟨S5000x10, .f32⟩) main_call4_v10) (TRef.of (T := ⟨S5000x10, .f32⟩) main_v94) subf ]

/-- Operations 133 … 142 of the reference's @main. -/
abbrev T3 : List (HloOp τ sig (Elt F)) :=
  [ nullary main_c_13 (constantI S_ 32 0#32),
    unary main_c_13 main_v95 (broadcastInDim S5000 ![] bcast_S_S5000 : (⟨S_, .i32⟩ : BufTy).Contents (Elt F) → (⟨S5000, .i32⟩ : BufTy).Contents (Elt F)),
    binary main_arg9 main_v95 main_v96 (cmpi .slt : (⟨S5000, .i32⟩ : BufTy).Contents (Elt F) → (⟨S5000, .i32⟩ : BufTy).Contents (Elt F) → (⟨S5000, .i1⟩ : BufTy).Contents (Elt F)),
    nullary main_c_14 (constantI S_ 32 100000#32),
    unary main_c_14 main_v97 (broadcastInDim S5000 ![] bcast_S_S5000 : (⟨S_, .i32⟩ : BufTy).Contents (Elt F) → (⟨S5000, .i32⟩ : BufTy).Contents (Elt F)),
    binary main_arg9 main_v97 main_v98 (addi : (⟨S5000, .i32⟩ : BufTy).Contents (Elt F) → (⟨S5000, .i32⟩ : BufTy).Contents (Elt F) → (⟨S5000, .i32⟩ : BufTy).Contents (Elt F)),
    ternary main_v96 main_v98 main_arg9 main_v99 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    unary main_v99 main_v100 (broadcastInDim S5000x1 ![0] bcast_S5000_S5000x1_0 : (⟨S5000, .i32⟩ : BufTy).Contents (Elt F) → (⟨S5000x1, .i32⟩ : BufTy).Contents (Elt F)),
    binary main_arg8 main_v100 main_v101 ((fun x i => Host.gather gather_S100000_S5000x1_S5000_n_0_n_n_0_1_1 x i) : (⟨S100000, .i32⟩ : BufTy).Contents (Elt F) → (⟨S5000x1, .i32⟩ : BufTy).Contents (Elt F) → (⟨S5000, .i32⟩ : BufTy).Contents (Elt F)),
    unary main_v101 main_v102 (broadcastInDim S5000x1 ![0] bcast_S5000_S5000x1_0 : (⟨S5000, .i32⟩ : BufTy).Contents (Elt F) → (⟨S5000x1, .i32⟩ : BufTy).Contents (Elt F)) ]

/-- Operations 143 … 164 of the reference's @main. -/
abbrev T4 : List (HloOp τ sig (Elt F)) :=
  [ TRef.nullary (TRef.of (T := ⟨S_, .i32⟩) main_call5_c) (constantI S_ 32 0#32),
    TRef.unary (TRef.of (T := ⟨S_, .i32⟩) main_call5_c) (TRef.of (T := ⟨S5000x1, .i32⟩) main_call5_v0) (broadcastInDim S5000x1 ![] bcast_S_S5000x1),
    TRef.binary (TRef.of (T := ⟨S5000x1, .i32⟩) main_v102) (TRef.of (T := ⟨S5000x1, .i32⟩) main_call5_v0) (TRef.of (T := ⟨S5000x1, .i1⟩) main_call5_v1) (cmpi .slt),
    TRef.nullary (TRef.of (T := ⟨S_, .i32⟩) main_call5_c_0) (constantI S_ 32 10#32),
    TRef.unary (TRef.of (T := ⟨S_, .i32⟩) main_call5_c_0) (TRef.of (T := ⟨S5000x1, .i32⟩) main_call5_v2) (broadcastInDim S5000x1 ![] bcast_S_S5000x1),
    TRef.binary (TRef.of (T := ⟨S5000x1, .i32⟩) main_v102) (TRef.of (T := ⟨S5000x1, .i32⟩) main_call5_v2) (TRef.of (T := ⟨S5000x1, .i32⟩) main_call5_v3) addi,
    TRef.ternary (TRef.of (T := ⟨S5000x1, .i1⟩) main_call5_v1) (TRef.of (T := ⟨S5000x1, .i32⟩) main_call5_v3) (TRef.of (T := ⟨S5000x1, .i32⟩) main_v102) (TRef.of (T := ⟨S5000x1, .i32⟩) main_call5_v4) select,
    TRef.reshape (TRef.of (T := ⟨S5000x1, .i32⟩) main_call5_v4) (TRef.of (T := ⟨S5000x1x1, .i32⟩) main_call5_v5) rfl shapeCasts_S5000x1_S5000x1x1,
    TRef.nullary (TRef.of (T := ⟨S1, .i32⟩) main_call5_c_1) (constantI S1 32 9#32),
    TRef.nullary (TRef.of (T := ⟨S_, .i32⟩) main_call5_c_2) (constantI S_ 32 0#32),
    TRef.unary (TRef.of (T := ⟨S_, .i32⟩) main_call5_c_2) (TRef.of (T := ⟨S5000x1x1, .i32⟩) main_call5_v6) (broadcastInDim S5000x1x1 ![] bcast_S_S5000x1x1),
    TRef.binary (TRef.of (T := ⟨S5000x1x1, .i32⟩) main_call5_v5) (TRef.of (T := ⟨S5000x1x1, .i32⟩) main_call5_v6) (TRef.of (T := ⟨S5000x1x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S5000x1x1, .i32⟩) main_call5_v9) (broadcastInDim S5000x1x1 ![0, 1, 2] bcast_S1x1x1_S5000x1x1_0_1_2),
    TRef.binary (TRef.of (T := ⟨S5000x1x1, .i32⟩) main_call5_v5) (TRef.of (T := ⟨S5000x1x1, .i32⟩) main_call5_v9) (TRef.of (T := ⟨S5000x1x1, .i1⟩) main_call5_v10) (cmpi .sle),
    TRef.binary (TRef.of (T := ⟨S5000x1x1, .i1⟩) main_call5_v7) (TRef.of (T := ⟨S5000x1x1, .i1⟩) main_call5_v10) (TRef.of (T := ⟨S5000x1x1, .i1⟩) main_call5_v11) andi,
    TRef.nullary (TRef.of (T := ⟨S_, .i1⟩) main_call5_c_3) (constantI S_ 1 1#1),
    TRef.binary (TRef.of (T := ⟨S5000x1x1, .i1⟩) main_call5_v11) (TRef.of (T := ⟨S_, .i1⟩) main_call5_c_3) (TRef.of (T := ⟨S5000x1, .i1⟩) main_call5_v12) (fun x v => Host.reduce IntOp.andi x v reducesTo_S5000x1x1_S5000x1_d2 h_S_),
    TRef.binary (TRef.of (T := ⟨S5000x10, .f32⟩) main_v94) (TRef.of (T := ⟨S5000x1x1, .i32⟩) main_call5_v5) (TRef.of (T := ⟨S5000x1, .f32⟩) main_call5_v13) (fun x i => Host.gather gather_S5000x10_S5000x1x1_S5000x1_n_1_0_0_1_2_11 x i),
    TRef.nullary (TRef.of (T := ⟨S_, .f32⟩) main_call5_cst) (constant S_ .f32 0x7FC00000#32),
    TRef.unary (TRef.of (T := ⟨S_, .f32⟩) main_call5_cst) (TRef.of (T := ⟨S5000x1, .f32⟩) main_call5_v14) (broadcastInDim S5000x1 ![] bcast_S_S5000x1),
    TRef.ternary (TRef.of (T := ⟨S5000x1, .i1⟩) main_call5_v12) (TRef.of (T := ⟨S5000x1, .f32⟩) main_call5_v13) (TRef.of (T := ⟨S5000x1, .f32⟩) main_call5_v14) (TRef.of (T := ⟨S5000x1, .f32⟩) main_v103) select ]

/-- Operations 165 … 170 of the reference's @main. -/
abbrev T5 : List (HloOp τ sig (Elt F)) :=
  [ reshape main_v103 main_v104 rfl shapeCasts_S5000x1_S5000,
    unary main_v104 main_v105 (Host.negf : (⟨S5000, .f32⟩ : BufTy).Contents (Elt F) → (⟨S5000, .f32⟩ : BufTy).Contents (Elt F)),
    nullary main_cst_15 (constant S_ .f32 0x00000000#32),
    binary main_v105 main_cst_15 main_v106 ((fun x v => Host.reduceAdd x v reducesTo_S5000_S_d0 h_S_) : (⟨S5000, .f32⟩ : BufTy).Contents (Elt F) → (⟨S_, .f32⟩ : BufTy).Contents (Elt F) → (⟨S_, .f32⟩ : BufTy).Contents (Elt F)),
    nullary main_cst_16 (constant S_ .f32 0x459C4000#32),
    binary main_v106 main_cst_16 main_v107 (Host.divf : (⟨S_, .f32⟩ : BufTy).Contents (Elt F) → (⟨S_, .f32⟩ : BufTy).Contents (Elt F) → (⟨S_, .f32⟩ : BufTy).Contents (Elt F)) ]

set_option maxRecDepth 16384 in
/-- The pieces, joined in order, are the line. -/
theorem ops_split : (ops : List (HloOp τ sig (Elt F))) = R1 ++ (R2 ++ (R3 ++ (R4 ++ (R5 ++ (R6 ++ (R7 ++ (R8 ++ (T1 ++ (T2 ++ (T3 ++ (T4 ++ (T5)))))))))))) := rfl

/-- Running a joined line is running its first part, then the rest from what the first part leaves. -/
theorem after_append (A B : List (HloOp τ sig (Elt F))) (M : Valuation τ sig (Elt F)) :
    after (A ++ B) M = after B (after A M) := by
  induction A generalizing M with
  | nil => rfl
  | cons op A ih => simp only [List.cons_append, after_cons, ih]

end Cert.Gcn.RefRun

end
-- ==== Proof.RHost.lean ====
/-
  The reference's line, one piece at a time.  For each piece, and each array a later piece reads, the array's contents
  after the piece as a function of the arrays the piece itself reads (its operations composed in order); an array the
  piece does not write is unchanged.
-/
import proofs.«172191_j33054068310209_1_alg».proof.ReferenceIdeal
import proofs.«172191_j33054068310209_1_alg».proof.Proof.RefRun
import Idealize.ShloMosaic.Lib.StableHlo.Run

set_option maxRecDepth 16384

noncomputable section

namespace Cert.Gcn.RHost

open Cert.ReferenceIdeal Cert.ReferenceIdeal.Gen Idealize.ShloMosaic Idealize.ShloMosaic.TcCoe Idealize.SL.Sem Idealize.ShloMosaic.StableHlo
open Cert.Gcn.RefRun

variable {F : FTy → Type} [FloatOps F]

/-- What main_v5 holds after this stretch, as a function of the arrays the stretch reads. -/
def R_R1_main_v5 (x_main_arg5 : (⟨S2x1600000, .f32⟩ : BufTy).Contents (Elt F)) : (⟨S1600000, .f32⟩ : BufTy).Contents (Elt F) :=
  (shapeCast S1600000 (((extractStridedSlice S1x1600000 ![0, 0] · slices_S2x1600000_S1x1600000_0_0) : (⟨S2x1600000, .f32⟩ : BufTy).Contents (Elt F) → (⟨S1x1600000, .f32⟩ : BufTy).Contents (Elt F)) x_main_arg5) shapeCasts_S1x1600000_S1600000)

/-- What main_v3 holds after this stretch, as a function of the arrays the stretch reads. -/
def R_R1_main_v3 (x_main_arg7 : (⟨S2x1600000, .i32⟩ : BufTy).Contents (Elt F)) : (⟨S1600000, .i32⟩ : BufTy).Contents (Elt F) :=
  (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) x_main_arg7) shapeCasts_S1x1600000_S1600000)

/-- What main_v1 holds after this stretch, as a function of the arrays the stretch reads. -/
def R_R1_main_v1 (x_main_arg6 : (⟨S2x1600000, .i32⟩ : BufTy).Contents (Elt F)) : (⟨S1600000, .i32⟩ : BufTy).Contents (Elt F) :=
  (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) x_main_arg6) shapeCasts_S1x1600000_S1600000)

/-- What main_v19 holds after this stretch, as a function of the arrays the stretch reads. -/
def R_R1_main_v19 (x_main_arg6 : (⟨S2x1600000, .i32⟩ : BufTy).Contents (Elt F)) (x_main_arg5 : (⟨S2x1600000, .f32⟩ : BufTy).Contents (Elt F)) (x_main_arg0 : (⟨S100000x256, .f32⟩ : BufTy).Contents (Elt F)) (x_main_arg1 : (⟨S256x128, .f32⟩ : BufTy).Contents (Elt F)) (x_main_arg7 : (⟨S2x1600000, .i32⟩ : BufTy).Contents (Elt F)) : (⟨S100000x128, .f32⟩ : BufTy).Contents (Elt F) :=
  (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) ((constant S_ .f32 0x00000000#32) : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) x_main_arg6) shapeCasts_S1x1600000_S1600000)) ((mulf : (⟨S1600000x128, .f32⟩ : BufTy).Contents (Elt F) → (⟨S1600000x128, .f32⟩ : BufTy).Contents (Elt F) → (⟨S1600000x128, .f32⟩ : BufTy).Contents (Elt F)) ((broadcastInDim S1600000x128 ![0, 1] bcast_S1600000x1_S1600000x128_0_1 : (⟨S1600000x1, .f32⟩ : BufTy).Contents (Elt F) → (⟨S1600000x128, .f32⟩ : BufTy).Contents (Elt F)) ((broadcastInDim S1600000x1 ![0] bcast_S1600000_S1600000x1_0 : (⟨S1600000, .f32⟩ : BufTy).Contents (Elt F) → (⟨S1600000x1, .f32⟩ : BufTy).Contents (Elt F)) (shapeCast S1600000 (((extractStridedSlice S1x1600000 ![0, 0] · slices_S2x1600000_S1x1600000_0_0) : (⟨S2x1600000, .f32⟩ : BufTy).Contents (Elt F) → (⟨S1x1600000, .f32⟩ : BufTy).Contents (Elt F)) x_main_arg5) shapeCasts_S1x1600000_S1600000))) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) x_main_arg0 x_main_arg1) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) x_main_arg7) shapeCasts_S1x1600000_S1600000) ((broadcastInDim S1600000 ![] bcast_S_S1600000 : (⟨S_, .i32⟩ : BufTy).Contents (Elt F) → (⟨S1600000, .i32⟩ : BufTy).Contents (Elt F)) ((constantI S_ 32 0#32) : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) x_main_arg7) shapeCasts_S1x1600000_S1600000) ((broadcastInDim S1600000 ![] bcast_S_S1600000 : (⟨S_, .i32⟩ : BufTy).Contents (Elt F) → (⟨S1600000, .i32⟩ : BufTy).Contents (Elt F)) ((constantI S_ 32 100000#32) : (⟨S_, .i32⟩ : BufTy).Contents (Elt F)))) (shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) x_main_arg7) shapeCasts_S1x1600000_S1600000))))))

/-- What main_v24 holds after this stretch, as a function of the arrays the stretch reads. -/
def R_R2_main_v24 (x_main_v19 : (⟨S100000x128, .f32⟩ : BufTy).Contents (Elt F)) (x_main_arg2 : (⟨S128, .f32⟩ : BufTy).Contents (Elt F)) (x_main_arg3 : (⟨S128x10, .f32⟩ : BufTy).Contents (Elt F)) : (⟨S100000x10, .f32⟩ : BufTy).Contents (Elt F) :=
  (((fun l r => Host.dotGeneral dot_S100000x128_S128x10_S100000x10_1_0_0_1_n_n none l r) : (⟨S100000x128, .f32⟩ : BufTy).Contents (Elt F) → (⟨S128x10, .f32⟩ : BufTy).Contents (Elt F) → (⟨S100000x10, .f32⟩ : BufTy).Contents (Elt F)) ((maximumf : (⟨S100000x128, .f32⟩ : BufTy).Contents (Elt F) → (⟨S100000x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) x_main_v19 ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg2))) (((broadcastInDim S100000x128 ![] bcast_S_S100000x128) : (⟨S_, .f32⟩ : BufTy).Contents (Elt F) → (⟨S100000x128, .f32⟩ : BufTy).Contents (Elt F)) ((constant S_ .f32 0x00000000#32) : (⟨S_, .f32⟩ : BufTy).Contents (Elt F)))) x_main_arg3)

/-- What main_v37 holds after this stretch, as a function of the arrays the stretch reads. -/
def R_R3_main_v37 (x_main_v1 : (⟨S1600000, .i32⟩ : BufTy).Contents (Elt F)) (x_main_v5 : (⟨S1600000, .f32⟩ : BufTy).Contents (Elt F)) (x_main_v24 : (⟨S100000x10, .f32⟩ : BufTy).Contents (Elt F)) (x_main_v3 : (⟨S1600000, .i32⟩ : BufTy).Contents (Elt F)) : (⟨S100000x10, .f32⟩ : BufTy).Contents (Elt F) :=
  (((fun x i u => Host.scatterAdd scatter_S100000x10_S1600000x1_S1600000x10_1_0_0_1 x i u) : (⟨S100000x10, .f32⟩ : BufTy).Contents (Elt F) → (⟨S1600000x1, .i32⟩ : BufTy).Contents (Elt F) → (⟨S1600000x10, .f32⟩ : BufTy).Contents (Elt F) → (⟨S100000x10, .f32⟩ : BufTy).Contents (Elt F)) ((broadcastInDim S100000x10 ![] bcast_S_S100000x10 : (⟨S_, .f32⟩ : BufTy).Contents (Elt F) → (⟨S100000x10, .f32⟩ : BufTy).Contents (Elt F)) ((constant S_ .f32 0x00000000#32) : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) x_main_v1) ((mulf : (⟨S1600000x10, .f32⟩ : BufTy).Contents (Elt F) → (⟨S1600000x10, .f32⟩ : BufTy).Contents (Elt F) → (⟨S1600000x10, .f32⟩ : BufTy).Contents (Elt F)) ((broadcastInDim S1600000x10 ![0, 1] bcast_S1600000x1_S1600000x10_0_1 : (⟨S1600000x1, .f32⟩ : BufTy).Contents (Elt F) → (⟨S1600000x10, .f32⟩ : BufTy).Contents (Elt F)) ((broadcastInDim S1600000x1 ![0] bcast_S1600000_S1600000x1_0 : (⟨S1600000, .f32⟩ : BufTy).Contents (Elt F) → (⟨S1600000x1, .f32⟩ : BufTy).Contents (Elt F)) x_main_v5)) (((fun x i => Host.gather gather_S100000x10_S1600000x1_S1600000x10_1_0_n_n_0_1_110 x i) : (⟨S100000x10, .f32⟩ : BufTy).Contents (Elt F) → (⟨S1600000x1, .i32⟩ : BufTy).Contents (Elt F) → (⟨S1600000x10, .f32⟩ : BufTy).Contents (Elt F)) x_main_v24 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_main_v3 ((broadcastInDim S1600000 ![] bcast_S_S1600000 : (⟨S_, .i32⟩ : BufTy).Contents (Elt F) → (⟨S1600000, .i32⟩ : BufTy).Contents (Elt F)) ((constantI S_ 32 0#32) : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) x_main_v3 ((broadcastInDim S1600000 ![] bcast_S_S1600000 : (⟨S_, .i32⟩ : BufTy).Contents (Elt F) → (⟨S1600000, .i32⟩ : BufTy).Contents (Elt F)) ((constantI S_ 32 100000#32) : (⟨S_, .i32⟩ : BufTy).Contents (Elt F)))) x_main_v3)))))

/-- What main_v41 holds after this stretch, as a function of the arrays the stretch reads. -/
def R_R4_main_v41 (x_main_v37 : (⟨S100000x10, .f32⟩ : BufTy).Contents (Elt F)) (x_main_arg4 : (⟨S10, .f32⟩ : BufTy).Contents (Elt F)) : (⟨S100000x10, .f32⟩ : BufTy).Contents (Elt F) :=
  ((maximumf : (⟨S100000x10, .f32⟩ : BufTy).Contents (Elt F) → (⟨S100000x10, .f32⟩ : BufTy).Contents (Elt F) → (⟨S100000x10, .f32⟩ : BufTy).Contents (Elt F)) ((addf : (⟨S100000x10, .f32⟩ : BufTy).Contents (Elt F) → (⟨S100000x10, .f32⟩ : BufTy).Contents (Elt F) → (⟨S100000x10, .f32⟩ : BufTy).Contents (Elt F)) x_main_v37 ((broadcastInDim S100000x10 ![0, 1] bcast_S1x10_S100000x10_0_1 : (⟨S1x10, .f32⟩ : BufTy).Contents (Elt F) → (⟨S100000x10, .f32⟩ : BufTy).Contents (Elt F)) ((broadcastInDim S1x10 ![1] bcast_S10_S1x10_1 : (⟨S10, .f32⟩ : BufTy).Contents (Elt F) → (⟨S1x10, .f32⟩ : BufTy).Contents (Elt F)) x_main_arg4))) (((broadcastInDim S100000x10 ![] bcast_S_S100000x10) : (⟨S_, .f32⟩ : BufTy).Contents (Elt F) → (⟨S100000x10, .f32⟩ : BufTy).Contents (Elt F)) ((constant S_ .f32 0x00000000#32) : (⟨S_, .f32⟩ : BufTy).Contents (Elt F))))

/-- What main_v47 holds after this stretch, as a function of the arrays the stretch reads. -/
def R_R5_main_v47 (x_main_arg5 : (⟨S2x1600000, .f32⟩ : BufTy).Contents (Elt F)) : (⟨S1600000, .f32⟩ : BufTy).Contents (Elt F) :=
  (shapeCast S1600000 (((extractStridedSlice S1x1600000 ![1, 0] · slices_S2x1600000_S1x1600000_1_0) : (⟨S2x1600000, .f32⟩ : BufTy).Contents (Elt F) → (⟨S1x1600000, .f32⟩ : BufTy).Contents (Elt F)) x_main_arg5) shapeCasts_S1x1600000_S1600000)

/-- What main_v45 holds after this stretch, as a function of the arrays the stretch reads. -/
def R_R5_main_v45 (x_main_arg7 : (⟨S2x1600000, .i32⟩ : BufTy).Contents (Elt F)) : (⟨S1600000, .i32⟩ : BufTy).Contents (Elt F) :=
  (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) x_main_arg7) shapeCasts_S1x1600000_S1600000)

/-- What main_v43 holds after this stretch, as a function of the arrays the stretch reads. -/
def R_R5_main_v43 (x_main_arg6 : (⟨S2x1600000, .i32⟩ : BufTy).Contents (Elt F)) : (⟨S1600000, .i32⟩ : BufTy).Contents (Elt F) :=
  (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) x_main_arg6) shapeCasts_S1x1600000_S1600000)

/-- What main_v61 holds after this stretch, as a function of the arrays the stretch reads. -/
def R_R5_main_v61 (x_main_arg6 : (⟨S2x1600000, .i32⟩ : BufTy).Contents (Elt F)) (x_main_arg5 : (⟨S2x1600000, .f32⟩ : BufTy).Contents (Elt F)) (x_main_arg0 : (⟨S100000x256, .f32⟩ : BufTy).Contents (Elt F)) (x_main_arg1 : (⟨S256x128, .f32⟩ : BufTy).Contents (Elt F)) (x_main_arg7 : (⟨S2x1600000, .i32⟩ : BufTy).Contents (Elt F)) : (⟨S100000x128, .f32⟩ : BufTy).Contents (Elt F) :=
  (((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) ((constant S_ .f32 0x00000000#32) : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) x_main_arg6) shapeCasts_S1x1600000_S1600000)) ((mulf : (⟨S1600000x128, .f32⟩ : BufTy).Contents (Elt F) → (⟨S1600000x128, .f32⟩ : BufTy).Contents (Elt F) → (⟨S1600000x128, .f32⟩ : BufTy).Contents (Elt F)) ((broadcastInDim S1600000x128 ![0, 1] bcast_S1600000x1_S1600000x128_0_1 : (⟨S1600000x1, .f32⟩ : BufTy).Contents (Elt F) → (⟨S1600000x128, .f32⟩ : BufTy).Contents (Elt F)) ((broadcastInDim S1600000x1 ![0] bcast_S1600000_S1600000x1_0 : (⟨S1600000, .f32⟩ : BufTy).Contents (Elt F) → (⟨S1600000x1, .f32⟩ : BufTy).Contents (Elt F)) (shapeCast S1600000 (((extractStridedSlice S1x1600000 ![1, 0] · slices_S2x1600000_S1x1600000_1_0) : (⟨S2x1600000, .f32⟩ : BufTy).Contents (Elt F) → (⟨S1x1600000, .f32⟩ : BufTy).Contents (Elt F)) x_main_arg5) shapeCasts_S1x1600000_S1600000))) (((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) (((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) x_main_arg0 x_main_arg1) ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) x_main_arg7) shapeCasts_S1x1600000_S1600000) ((broadcastInDim S1600000 ![] bcast_S_S1600000 : (⟨S_, .i32⟩ : BufTy).Contents (Elt F) → (⟨S1600000, .i32⟩ : BufTy).Contents (Elt F)) ((constantI S_ 32 0#32) : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) x_main_arg7) shapeCasts_S1x1600000_S1600000) ((broadcastInDim S1600000 ![] bcast_S_S1600000 : (⟨S_, .i32⟩ : BufTy).Contents (Elt F) → (⟨S1600000, .i32⟩ : BufTy).Contents (Elt F)) ((constantI S_ 32 100000#32) : (⟨S_, .i32⟩ : BufTy).Contents (Elt F)))) (shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) x_main_arg7) shapeCasts_S1x1600000_S1600000))))))

/-- What main_v66 holds after this stretch, as a function of the arrays the stretch reads. -/
def R_R6_main_v66 (x_main_v61 : (⟨S100000x128, .f32⟩ : BufTy).Contents (Elt F)) (x_main_arg2 : (⟨S128, .f32⟩ : BufTy).Contents (Elt F)) (x_main_arg3 : (⟨S128x10, .f32⟩ : BufTy).Contents (Elt F)) : (⟨S100000x10, .f32⟩ : BufTy).Contents (Elt F) :=
  (((fun l r => Host.dotGeneral dot_S100000x128_S128x10_S100000x10_1_0_0_1_n_n none l r) : (⟨S100000x128, .f32⟩ : BufTy).Contents (Elt F) → (⟨S128x10, .f32⟩ : BufTy).Contents (Elt F) → (⟨S100000x10, .f32⟩ : BufTy).Contents (Elt F)) ((maximumf : (⟨S100000x128, .f32⟩ : BufTy).Contents (Elt F) → (⟨S100000x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) x_main_v61 ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) x_main_arg2))) (((broadcastInDim S100000x128 ![] bcast_S_S100000x128) : (⟨S_, .f32⟩ : BufTy).Contents (Elt F) → (⟨S100000x128, .f32⟩ : BufTy).Contents (Elt F)) ((constant S_ .f32 0x00000000#32) : (⟨S_, .f32⟩ : BufTy).Contents (Elt F)))) x_main_arg3)

/-- What main_v79 holds after this stretch, as a function of the arrays the stretch reads. -/
def R_R7_main_v79 (x_main_v43 : (⟨S1600000, .i32⟩ : BufTy).Contents (Elt F)) (x_main_v47 : (⟨S1600000, .f32⟩ : BufTy).Contents (Elt F)) (x_main_v66 : (⟨S100000x10, .f32⟩ : BufTy).Contents (Elt F)) (x_main_v45 : (⟨S1600000, .i32⟩ : BufTy).Contents (Elt F)) : (⟨S100000x10, .f32⟩ : BufTy).Contents (Elt F) :=
  (((fun x i u => Host.scatterAdd scatter_S100000x10_S1600000x1_S1600000x10_1_0_0_1 x i u) : (⟨S100000x10, .f32⟩ : BufTy).Contents (Elt F) → (⟨S1600000x1, .i32⟩ : BufTy).Contents (Elt F) → (⟨S1600000x10, .f32⟩ : BufTy).Contents (Elt F) → (⟨S100000x10, .f32⟩ : BufTy).Contents (Elt F)) ((broadcastInDim S100000x10 ![] bcast_S_S100000x10 : (⟨S_, .f32⟩ : BufTy).Contents (Elt F) → (⟨S100000x10, .f32⟩ : BufTy).Contents (Elt F)) ((constant S_ .f32 0x00000000#32) : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) x_main_v43) ((mulf : (⟨S1600000x10, .f32⟩ : BufTy).Contents (Elt F) → (⟨S1600000x10, .f32⟩ : BufTy).Contents (Elt F) → (⟨S1600000x10, .f32⟩ : BufTy).Contents (Elt F)) ((broadcastInDim S1600000x10 ![0, 1] bcast_S1600000x1_S1600000x10_0_1 : (⟨S1600000x1, .f32⟩ : BufTy).Contents (Elt F) → (⟨S1600000x10, .f32⟩ : BufTy).Contents (Elt F)) ((broadcastInDim S1600000x1 ![0] bcast_S1600000_S1600000x1_0 : (⟨S1600000, .f32⟩ : BufTy).Contents (Elt F) → (⟨S1600000x1, .f32⟩ : BufTy).Contents (Elt F)) x_main_v47)) (((fun x i => Host.gather gather_S100000x10_S1600000x1_S1600000x10_1_0_n_n_0_1_110 x i) : (⟨S100000x10, .f32⟩ : BufTy).Contents (Elt F) → (⟨S1600000x1, .i32⟩ : BufTy).Contents (Elt F) → (⟨S1600000x10, .f32⟩ : BufTy).Contents (Elt F)) x_main_v66 ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x_main_v45 ((broadcastInDim S1600000 ![] bcast_S_S1600000 : (⟨S_, .i32⟩ : BufTy).Contents (Elt F) → (⟨S1600000, .i32⟩ : BufTy).Contents (Elt F)) ((constantI S_ 32 0#32) : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) x_main_v45 ((broadcastInDim S1600000 ![] bcast_S_S1600000 : (⟨S_, .i32⟩ : BufTy).Contents (Elt F) → (⟨S1600000, .i32⟩ : BufTy).Contents (Elt F)) ((constantI S_ 32 100000#32) : (⟨S_, .i32⟩ : BufTy).Contents (Elt F)))) x_main_v45)))))

/-- What main_v86 holds after this stretch, as a function of the arrays the stretch reads. -/
def R_R8_main_v86 (x_main_v41 : (⟨S100000x10, .f32⟩ : BufTy).Contents (Elt F)) (x_main_v79 : (⟨S100000x10, .f32⟩ : BufTy).Contents (Elt F)) (x_main_arg4 : (⟨S10, .f32⟩ : BufTy).Contents (Elt F)) : (⟨S100000x10, .f32⟩ : BufTy).Contents (Elt F) :=
  ((Host.divf : (⟨S100000x10, .f32⟩ : BufTy).Contents (Elt F) → (⟨S100000x10, .f32⟩ : BufTy).Contents (Elt F) → (⟨S100000x10, .f32⟩ : BufTy).Contents (Elt F)) ((addf : (⟨S100000x10, .f32⟩ : BufTy).Contents (Elt F) → (⟨S100000x10, .f32⟩ : BufTy).Contents (Elt F) → (⟨S100000x10, .f32⟩ : BufTy).Contents (Elt F)) x_main_v41 ((maximumf : (⟨S100000x10, .f32⟩ : BufTy).Contents (Elt F) → (⟨S100000x10, .f32⟩ : BufTy).Contents (Elt F) → (⟨S100000x10, .f32⟩ : BufTy).Contents (Elt F)) ((addf : (⟨S100000x10, .f32⟩ : BufTy).Contents (Elt F) → (⟨S100000x10, .f32⟩ : BufTy).Contents (Elt F) → (⟨S100000x10, .f32⟩ : BufTy).Contents (Elt F)) x_main_v79 ((broadcastInDim S100000x10 ![0, 1] bcast_S1x10_S100000x10_0_1 : (⟨S1x10, .f32⟩ : BufTy).Contents (Elt F) → (⟨S100000x10, .f32⟩ : BufTy).Contents (Elt F)) ((broadcastInDim S1x10 ![1] bcast_S10_S1x10_1 : (⟨S10, .f32⟩ : BufTy).Contents (Elt F) → (⟨S1x10, .f32⟩ : BufTy).Contents (Elt F)) x_main_arg4))) (((broadcastInDim S100000x10 ![] bcast_S_S100000x10) : (⟨S_, .f32⟩ : BufTy).Contents (Elt F) → (⟨S100000x10, .f32⟩ : BufTy).Contents (Elt F)) ((constant S_ .f32 0x00000000#32) : (⟨S_, .f32⟩ : BufTy).Contents (Elt F))))) ((broadcastInDim S100000x10 ![] bcast_S_S100000x10 : (⟨S_, .f32⟩ : BufTy).Contents (Elt F) → (⟨S100000x10, .f32⟩ : BufTy).Contents (Elt F)) ((constant S_ .f32 0x40000000#32) : (⟨S_, .f32⟩ : BufTy).Contents (Elt F))))

/-- What main_v93 holds after this stretch, as a function of the arrays the stretch reads. -/
def R_T1_main_v93 (x_main_v86 : (⟨S100000x10, .f32⟩ : BufTy).Contents (Elt F)) (x_main_arg9 : (⟨S5000, .i32⟩ : BufTy).Contents (Elt F)) : (⟨S5000x10, .f32⟩ : BufTy).Contents (Elt F) :=
  (((fun x i => Host.gather gather_S100000x10_S5000x1_S5000x10_1_0_n_n_0_1_110 x i) : (⟨S100000x10, .f32⟩ : BufTy).Contents (Elt F) → (⟨S5000x1, .i32⟩ : BufTy).Contents (Elt F) → (⟨S5000x10, .f32⟩ : BufTy).Contents (Elt F)) x_main_v86 ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) x_main_arg9 ((broadcastInDim S5000 ![] bcast_S_S5000 : (⟨S_, .i32⟩ : BufTy).Contents (Elt F) → (⟨S5000, .i32⟩ : BufTy).Contents (Elt F)) ((constantI S_ 32 0#32) : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) x_main_arg9 ((broadcastInDim S5000 ![] bcast_S_S5000 : (⟨S_, .i32⟩ : BufTy).Contents (Elt F) → (⟨S5000, .i32⟩ : BufTy).Contents (Elt F)) ((constantI S_ 32 100000#32) : (⟨S_, .i32⟩ : BufTy).Contents (Elt F)))) x_main_arg9)))

/-- What main_v94 holds after this stretch, as a function of the arrays the stretch reads. -/
def R_T2_main_v94 (x_main_v93 : (⟨S5000x10, .f32⟩ : BufTy).Contents (Elt F)) : (⟨S5000x10, .f32⟩ : BufTy).Contents (Elt F) :=
  ((subf : (⟨S5000x10, .f32⟩ : BufTy).Contents (Elt F) → (⟨S5000x10, .f32⟩ : BufTy).Contents (Elt F) → (⟨S5000x10, .f32⟩ : BufTy).Contents (Elt F)) ((subf : (⟨S5000x10, .f32⟩ : BufTy).Contents (Elt F) → (⟨S5000x10, .f32⟩ : BufTy).Contents (Elt F) → (⟨S5000x10, .f32⟩ : BufTy).Contents (Elt F)) x_main_v93 (((broadcastInDim S5000x10 ![0, 1] bcast_S5000x1_S5000x10_0_1) : (⟨S5000x1, .f32⟩ : BufTy).Contents (Elt F) → (⟨S5000x10, .f32⟩ : BufTy).Contents (Elt F)) (((broadcastInDim S5000x1 ![0] bcast_S5000_S5000x1_0) : (⟨S5000, .f32⟩ : BufTy).Contents (Elt F) → (⟨S5000x1, .f32⟩ : BufTy).Contents (Elt F)) ((maximumf : (⟨S5000, .f32⟩ : BufTy).Contents (Elt F) → (⟨S5000, .f32⟩ : BufTy).Contents (Elt F) → (⟨S5000, .f32⟩ : BufTy).Contents (Elt F)) (((broadcastInDim S5000 ![] bcast_S_S5000) : (⟨S_, .f32⟩ : BufTy).Contents (Elt F) → (⟨S5000, .f32⟩ : BufTy).Contents (Elt F)) ((constant S_ .f32 0xFF800000#32) : (⟨S_, .f32⟩ : BufTy).Contents (Elt F))) (((fun x v => Host.reduce FloatOps.maximumf x v reducesTo_S5000x10_S5000_d1 h_S_) : (⟨S5000x10, .f32⟩ : BufTy).Contents (Elt F) → (⟨S_, .f32⟩ : BufTy).Contents (Elt F) → (⟨S5000, .f32⟩ : BufTy).Contents (Elt F)) x_main_v93 ((constant S_ .f32 0xFF800000#32) : (⟨S_, .f32⟩ : BufTy).Contents (Elt F))))))) (((broadcastInDim S5000x10 ![0, 1] bcast_S5000x1_S5000x10_0_1) : (⟨S5000x1, .f32⟩ : BufTy).Contents (Elt F) → (⟨S5000x10, .f32⟩ : BufTy).Contents (Elt F)) ((Host.log : (⟨S5000x1, .f32⟩ : BufTy).Contents (Elt F) → (⟨S5000x1, .f32⟩ : BufTy).Contents (Elt F)) (((broadcastInDim S5000x1 ![0] bcast_S5000_S5000x1_0) : (⟨S5000, .f32⟩ : BufTy).Contents (Elt F) → (⟨S5000x1, .f32⟩ : BufTy).Contents (Elt F)) (((fun x v => Host.reduceAdd x v reducesTo_S5000x10_S5000_d1 h_S_) : (⟨S5000x10, .f32⟩ : BufTy).Contents (Elt F) → (⟨S_, .f32⟩ : BufTy).Contents (Elt F) → (⟨S5000, .f32⟩ : BufTy).Contents (Elt F)) ((Host.exp : (⟨S5000x10, .f32⟩ : BufTy).Contents (Elt F) → (⟨S5000x10, .f32⟩ : BufTy).Contents (Elt F)) ((subf : (⟨S5000x10, .f32⟩ : BufTy).Contents (Elt F) → (⟨S5000x10, .f32⟩ : BufTy).Contents (Elt F) → (⟨S5000x10, .f32⟩ : BufTy).Contents (Elt F)) x_main_v93 (((broadcastInDim S5000x10 ![0, 1] bcast_S5000x1_S5000x10_0_1) : (⟨S5000x1, .f32⟩ : BufTy).Contents (Elt F) → (⟨S5000x10, .f32⟩ : BufTy).Contents (Elt F)) (((broadcastInDim S5000x1 ![0] bcast_S5000_S5000x1_0) : (⟨S5000, .f32⟩ : BufTy).Contents (Elt F) → (⟨S5000x1, .f32⟩ : BufTy).Contents (Elt F)) ((maximumf : (⟨S5000, .f32⟩ : BufTy).Contents (Elt F) → (⟨S5000, .f32⟩ : BufTy).Contents (Elt F) → (⟨S5000, .f32⟩ : BufTy).Contents (Elt F)) (((broadcastInDim S5000 ![] bcast_S_S5000) : (⟨S_, .f32⟩ : BufTy).Contents (Elt F) → (⟨S5000, .f32⟩ : BufTy).Contents (Elt F)) ((constant S_ .f32 0xFF800000#32) : (⟨S_, .f32⟩ : BufTy).Contents (Elt F))) (((fun x v => Host.reduce FloatOps.maximumf x v reducesTo_S5000x10_S5000_d1 h_S_) : (⟨S5000x10, .f32⟩ : BufTy).Contents (Elt F) → (⟨S_, .f32⟩ : BufTy).Contents (Elt F) → (⟨S5000, .f32⟩ : BufTy).Contents (Elt F)) x_main_v93 ((constant S_ .f32 0xFF800000#32) : (⟨S_, .f32⟩ : BufTy).Contents (Elt F)))))))) ((constant S_ .f32 0x00000000#32) : (⟨S_, .f32⟩ : BufTy).Contents (Elt F)))))))

/-- What main_v102 holds after this stretch, as a function of the arrays the stretch reads. -/
def R_T3_main_v102 (x_main_arg8 : (⟨S100000, .i32⟩ : BufTy).Contents (Elt F)) (x_main_arg9 : (⟨S5000, .i32⟩ : BufTy).Contents (Elt F)) : (⟨S5000x1, .i32⟩ : BufTy).Contents (Elt F) :=
  ((broadcastInDim S5000x1 ![0] bcast_S5000_S5000x1_0 : (⟨S5000, .i32⟩ : BufTy).Contents (Elt F) → (⟨S5000x1, .i32⟩ : BufTy).Contents (Elt F)) (((fun x i => Host.gather gather_S100000_S5000x1_S5000_n_0_n_n_0_1_1 x i) : (⟨S100000, .i32⟩ : BufTy).Contents (Elt F) → (⟨S5000x1, .i32⟩ : BufTy).Contents (Elt F) → (⟨S5000, .i32⟩ : BufTy).Contents (Elt F)) x_main_arg8 ((broadcastInDim S5000x1 ![0] bcast_S5000_S5000x1_0 : (⟨S5000, .i32⟩ : BufTy).Contents (Elt F) → (⟨S5000x1, .i32⟩ : BufTy).Contents (Elt F)) ((select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) ((cmpi .slt : (⟨S5000, .i32⟩ : BufTy).Contents (Elt F) → (⟨S5000, .i32⟩ : BufTy).Contents (Elt F) → (⟨S5000, .i1⟩ : BufTy).Contents (Elt F)) x_main_arg9 ((broadcastInDim S5000 ![] bcast_S_S5000 : (⟨S_, .i32⟩ : BufTy).Contents (Elt F) → (⟨S5000, .i32⟩ : BufTy).Contents (Elt F)) ((constantI S_ 32 0#32) : (⟨S_, .i32⟩ : BufTy).Contents (Elt F)))) ((addi : (⟨S5000, .i32⟩ : BufTy).Contents (Elt F) → (⟨S5000, .i32⟩ : BufTy).Contents (Elt F) → (⟨S5000, .i32⟩ : BufTy).Contents (Elt F)) x_main_arg9 ((broadcastInDim S5000 ![] bcast_S_S5000 : (⟨S_, .i32⟩ : BufTy).Contents (Elt F) → (⟨S5000, .i32⟩ : BufTy).Contents (Elt F)) ((constantI S_ 32 100000#32) : (⟨S_, .i32⟩ : BufTy).Contents (Elt F)))) x_main_arg9))))

/-- What main_v103 holds after this stretch, as a function of the arrays the stretch reads. -/
def R_T4_main_v103 (x_main_v102 : (⟨S5000x1, .i32⟩ : BufTy).Contents (Elt F)) (x_main_v94 : (⟨S5000x10, .f32⟩ : BufTy).Contents (Elt F)) : (⟨S5000x1, .f32⟩ : BufTy).Contents (Elt F) :=
  ((select : (⟨S5000x1, .i1⟩ : BufTy).Contents (Elt F) → (⟨S5000x1, .f32⟩ : BufTy).Contents (Elt F) → (⟨S5000x1, .f32⟩ : BufTy).Contents (Elt F) → (⟨S5000x1, .f32⟩ : BufTy).Contents (Elt F)) (((fun x v => Host.reduce IntOp.andi x v reducesTo_S5000x1x1_S5000x1_d2 h_S_) : (⟨S5000x1x1, .i1⟩ : BufTy).Contents (Elt F) → (⟨S_, .i1⟩ : BufTy).Contents (Elt F) → (⟨S5000x1, .i1⟩ : BufTy).Contents (Elt F)) ((andi : (⟨S5000x1x1, .i1⟩ : BufTy).Contents (Elt F) → (⟨S5000x1x1, .i1⟩ : BufTy).Contents (Elt F) → (⟨S5000x1x1, .i1⟩ : BufTy).Contents (Elt F)) (((cmpi .sge) : (⟨S5000x1x1, .i32⟩ : BufTy).Contents (Elt F) → (⟨S5000x1x1, .i32⟩ : BufTy).Contents (Elt F) → (⟨S5000x1x1, .i1⟩ : BufTy).Contents (Elt F)) (shapeCast S5000x1x1 ((select : (⟨S5000x1, .i1⟩ : BufTy).Contents (Elt F) → (⟨S5000x1, .i32⟩ : BufTy).Contents (Elt F) → (⟨S5000x1, .i32⟩ : BufTy).Contents (Elt F) → (⟨S5000x1, .i32⟩ : BufTy).Contents (Elt F)) (((cmpi .slt) : (⟨S5000x1, .i32⟩ : BufTy).Contents (Elt F) → (⟨S5000x1, .i32⟩ : BufTy).Contents (Elt F) → (⟨S5000x1, .i1⟩ : BufTy).Contents (Elt F)) x_main_v102 (((broadcastInDim S5000x1 ![] bcast_S_S5000x1) : (⟨S_, .i32⟩ : BufTy).Contents (Elt F) → (⟨S5000x1, .i32⟩ : BufTy).Contents (Elt F)) ((constantI S_ 32 0#32) : (⟨S_, .i32⟩ : BufTy).Contents (Elt F)))) ((addi : (⟨S5000x1, .i32⟩ : BufTy).Contents (Elt F) → (⟨S5000x1, .i32⟩ : BufTy).Contents (Elt F) → (⟨S5000x1, .i32⟩ : BufTy).Contents (Elt F)) x_main_v102 (((broadcastInDim S5000x1 ![] bcast_S_S5000x1) : (⟨S_, .i32⟩ : BufTy).Contents (Elt F) → (⟨S5000x1, .i32⟩ : BufTy).Contents (Elt F)) ((constantI S_ 32 10#32) : (⟨S_, .i32⟩ : BufTy).Contents (Elt F)))) x_main_v102) shapeCasts_S5000x1_S5000x1x1) (((broadcastInDim S5000x1x1 ![] bcast_S_S5000x1x1) : (⟨S_, .i32⟩ : BufTy).Contents (Elt F) → (⟨S5000x1x1, .i32⟩ : BufTy).Contents (Elt F)) ((constantI S_ 32 0#32) : (⟨S_, .i32⟩ : BufTy).Contents (Elt F)))) (((cmpi .sle) : (⟨S5000x1x1, .i32⟩ : BufTy).Contents (Elt F) → (⟨S5000x1x1, .i32⟩ : BufTy).Contents (Elt F) → (⟨S5000x1x1, .i1⟩ : BufTy).Contents (Elt F)) (shapeCast S5000x1x1 ((select : (⟨S5000x1, .i1⟩ : BufTy).Contents (Elt F) → (⟨S5000x1, .i32⟩ : BufTy).Contents (Elt F) → (⟨S5000x1, .i32⟩ : BufTy).Contents (Elt F) → (⟨S5000x1, .i32⟩ : BufTy).Contents (Elt F)) (((cmpi .slt) : (⟨S5000x1, .i32⟩ : BufTy).Contents (Elt F) → (⟨S5000x1, .i32⟩ : BufTy).Contents (Elt F) → (⟨S5000x1, .i1⟩ : BufTy).Contents (Elt F)) x_main_v102 (((broadcastInDim S5000x1 ![] bcast_S_S5000x1) : (⟨S_, .i32⟩ : BufTy).Contents (Elt F) → (⟨S5000x1, .i32⟩ : BufTy).Contents (Elt F)) ((constantI S_ 32 0#32) : (⟨S_, .i32⟩ : BufTy).Contents (Elt F)))) ((addi : (⟨S5000x1, .i32⟩ : BufTy).Contents (Elt F) → (⟨S5000x1, .i32⟩ : BufTy).Contents (Elt F) → (⟨S5000x1, .i32⟩ : BufTy).Contents (Elt F)) x_main_v102 (((broadcastInDim S5000x1 ![] bcast_S_S5000x1) : (⟨S_, .i32⟩ : BufTy).Contents (Elt F) → (⟨S5000x1, .i32⟩ : BufTy).Contents (Elt F)) ((constantI S_ 32 10#32) : (⟨S_, .i32⟩ : BufTy).Contents (Elt F)))) x_main_v102) shapeCasts_S5000x1_S5000x1x1) (((broadcastInDim S5000x1x1 ![0, 1, 2] bcast_S1x1x1_S5000x1x1_0_1_2) : (⟨S1x1x1, .i32⟩ : BufTy).Contents (Elt F) → (⟨S5000x1x1, .i32⟩ : BufTy).Contents (Elt F)) (((broadcastInDim S1x1x1 ![2] bcast_S1_S1x1x1_2) : (⟨S1, .i32⟩ : BufTy).Contents (Elt F) → (⟨S1x1x1, .i32⟩ : BufTy).Contents (Elt F)) ((constantI S1 32 9#32) : (⟨S1, .i32⟩ : BufTy).Contents (Elt F)))))) ((constantI S_ 1 1#1) : (⟨S_, .i1⟩ : BufTy).Contents (Elt F))) (((fun x i => Host.gather gather_S5000x10_S5000x1x1_S5000x1_n_1_0_0_1_2_11 x i) : (⟨S5000x10, .f32⟩ : BufTy).Contents (Elt F) → (⟨S5000x1x1, .i32⟩ : BufTy).Contents (Elt F) → (⟨S5000x1, .f32⟩ : BufTy).Contents (Elt F)) x_main_v94 (shapeCast S5000x1x1 ((select : (⟨S5000x1, .i1⟩ : BufTy).Contents (Elt F) → (⟨S5000x1, .i32⟩ : BufTy).Contents (Elt F) → (⟨S5000x1, .i32⟩ : BufTy).Contents (Elt F) → (⟨S5000x1, .i32⟩ : BufTy).Contents (Elt F)) (((cmpi .slt) : (⟨S5000x1, .i32⟩ : BufTy).Contents (Elt F) → (⟨S5000x1, .i32⟩ : BufTy).Contents (Elt F) → (⟨S5000x1, .i1⟩ : BufTy).Contents (Elt F)) x_main_v102 (((broadcastInDim S5000x1 ![] bcast_S_S5000x1) : (⟨S_, .i32⟩ : BufTy).Contents (Elt F) → (⟨S5000x1, .i32⟩ : BufTy).Contents (Elt F)) ((constantI S_ 32 0#32) : (⟨S_, .i32⟩ : BufTy).Contents (Elt F)))) ((addi : (⟨S5000x1, .i32⟩ : BufTy).Contents (Elt F) → (⟨S5000x1, .i32⟩ : BufTy).Contents (Elt F) → (⟨S5000x1, .i32⟩ : BufTy).Contents (Elt F)) x_main_v102 (((broadcastInDim S5000x1 ![] bcast_S_S5000x1) : (⟨S_, .i32⟩ : BufTy).Contents (Elt F) → (⟨S5000x1, .i32⟩ : BufTy).Contents (Elt F)) ((constantI S_ 32 10#32) : (⟨S_, .i32⟩ : BufTy).Contents (Elt F)))) x_main_v102) shapeCasts_S5000x1_S5000x1x1)) (((broadcastInDim S5000x1 ![] bcast_S_S5000x1) : (⟨S_, .f32⟩ : BufTy).Contents (Elt F) → (⟨S5000x1, .f32⟩ : BufTy).Contents (Elt F)) ((constant S_ .f32 0x7FC00000#32) : (⟨S_, .f32⟩ : BufTy).Contents (Elt F))))

/-- What main_v107 holds after this stretch, as a function of the arrays the stretch reads. -/
def R_T5_main_v107 (x_main_v103 : (⟨S5000x1, .f32⟩ : BufTy).Contents (Elt F)) : (⟨S_, .f32⟩ : BufTy).Contents (Elt F) :=
  ((Host.divf : (⟨S_, .f32⟩ : BufTy).Contents (Elt F) → (⟨S_, .f32⟩ : BufTy).Contents (Elt F) → (⟨S_, .f32⟩ : BufTy).Contents (Elt F)) (((fun x v => Host.reduceAdd x v reducesTo_S5000_S_d0 h_S_) : (⟨S5000, .f32⟩ : BufTy).Contents (Elt F) → (⟨S_, .f32⟩ : BufTy).Contents (Elt F) → (⟨S_, .f32⟩ : BufTy).Contents (Elt F)) ((Host.negf : (⟨S5000, .f32⟩ : BufTy).Contents (Elt F) → (⟨S5000, .f32⟩ : BufTy).Contents (Elt F)) (shapeCast S5000 x_main_v103 shapeCasts_S5000x1_S5000)) ((constant S_ .f32 0x00000000#32) : (⟨S_, .f32⟩ : BufTy).Contents (Elt F))) ((constant S_ .f32 0x459C4000#32) : (⟨S_, .f32⟩ : BufTy).Contents (Elt F)))

theorem R_R1_main_arg9_keep (N : Valuation τ sig (Elt F)) :
    StableHlo.after R1 N (Proc.devRef .tc main_arg9) = N (Proc.devRef .tc main_arg9) := by
  after_results_simp

theorem R_R1_main_arg8_keep (N : Valuation τ sig (Elt F)) :
    StableHlo.after R1 N (Proc.devRef .tc main_arg8) = N (Proc.devRef .tc main_arg8) := by
  after_results_simp

theorem R_R1_main_arg4_keep (N : Valuation τ sig (Elt F)) :
    StableHlo.after R1 N (Proc.devRef .tc main_arg4) = N (Proc.devRef .tc main_arg4) := by
  after_results_simp

theorem R_R1_main_arg2_keep (N : Valuation τ sig (Elt F)) :
    StableHlo.after R1 N (Proc.devRef .tc main_arg2) = N (Proc.devRef .tc main_arg2) := by
  after_results_simp

theorem R_R1_main_arg3_keep (N : Valuation τ sig (Elt F)) :
    StableHlo.after R1 N (Proc.devRef .tc main_arg3) = N (Proc.devRef .tc main_arg3) := by
  after_results_simp

theorem R_R1_main_arg6_keep (N : Valuation τ sig (Elt F)) :
    StableHlo.after R1 N (Proc.devRef .tc main_arg6) = N (Proc.devRef .tc main_arg6) := by
  after_results_simp

theorem R_R1_main_arg7_keep (N : Valuation τ sig (Elt F)) :
    StableHlo.after R1 N (Proc.devRef .tc main_arg7) = N (Proc.devRef .tc main_arg7) := by
  after_results_simp

theorem R_R1_main_arg5_keep (N : Valuation τ sig (Elt F)) :
    StableHlo.after R1 N (Proc.devRef .tc main_arg5) = N (Proc.devRef .tc main_arg5) := by
  after_results_simp

theorem R_R1_main_arg0_keep (N : Valuation τ sig (Elt F)) :
    StableHlo.after R1 N (Proc.devRef .tc main_arg0) = N (Proc.devRef .tc main_arg0) := by
  after_results_simp

theorem R_R1_main_arg1_keep (N : Valuation τ sig (Elt F)) :
    StableHlo.after R1 N (Proc.devRef .tc main_arg1) = N (Proc.devRef .tc main_arg1) := by
  after_results_simp

theorem R_R1_main_v5_eval (N : Valuation τ sig (Elt F)) :
    StableHlo.after R1 N (Proc.devRef .tc main_v5) = R_R1_main_v5 (N (Proc.devRef .tc main_arg5)) := by
  after_results_simp <;> (try simp only [TRef.toBuf, TRef.ofBuf, cast_cast, cast_eq]) <;> rfl

theorem R_R1_main_v3_eval (N : Valuation τ sig (Elt F)) :
    StableHlo.after R1 N (Proc.devRef .tc main_v3) = R_R1_main_v3 (N (Proc.devRef .tc main_arg7)) := by
  after_results_simp <;> (try simp only [TRef.toBuf, TRef.ofBuf, cast_cast, cast_eq]) <;> rfl

theorem R_R1_main_v1_eval (N : Valuation τ sig (Elt F)) :
    StableHlo.after R1 N (Proc.devRef .tc main_v1) = R_R1_main_v1 (N (Proc.devRef .tc main_arg6)) := by
  after_results_simp <;> (try simp only [TRef.toBuf, TRef.ofBuf, cast_cast, cast_eq]) <;> rfl

theorem R_R1_main_v19_eval (N : Valuation τ sig (Elt F)) :
    StableHlo.after R1 N (Proc.devRef .tc main_v19) = R_R1_main_v19 (N (Proc.devRef .tc main_arg6)) (N (Proc.devRef .tc main_arg5)) (N (Proc.devRef .tc main_arg0)) (N (Proc.devRef .tc main_arg1)) (N (Proc.devRef .tc main_arg7)) := by
  after_results_simp <;> (try simp only [TRef.toBuf, TRef.ofBuf, cast_cast, cast_eq]) <;> rfl

theorem R_R2_main_arg9_keep (N : Valuation τ sig (Elt F)) :
    StableHlo.after R2 N (Proc.devRef .tc main_arg9) = N (Proc.devRef .tc main_arg9) := by
  after_results_simp

theorem R_R2_main_arg8_keep (N : Valuation τ sig (Elt F)) :
    StableHlo.after R2 N (Proc.devRef .tc main_arg8) = N (Proc.devRef .tc main_arg8) := by
  after_results_simp

theorem R_R2_main_arg4_keep (N : Valuation τ sig (Elt F)) :
    StableHlo.after R2 N (Proc.devRef .tc main_arg4) = N (Proc.devRef .tc main_arg4) := by
  after_results_simp

theorem R_R2_main_arg2_keep (N : Valuation τ sig (Elt F)) :
    StableHlo.after R2 N (Proc.devRef .tc main_arg2) = N (Proc.devRef .tc main_arg2) := by
  after_results_simp

theorem R_R2_main_arg3_keep (N : Valuation τ sig (Elt F)) :
    StableHlo.after R2 N (Proc.devRef .tc main_arg3) = N (Proc.devRef .tc main_arg3) := by
  after_results_simp

theorem R_R2_main_arg6_keep (N : Valuation τ sig (Elt F)) :
    StableHlo.after R2 N (Proc.devRef .tc main_arg6) = N (Proc.devRef .tc main_arg6) := by
  after_results_simp

theorem R_R2_main_arg7_keep (N : Valuation τ sig (Elt F)) :
    StableHlo.after R2 N (Proc.devRef .tc main_arg7) = N (Proc.devRef .tc main_arg7) := by
  after_results_simp

theorem R_R2_main_arg5_keep (N : Valuation τ sig (Elt F)) :
    StableHlo.after R2 N (Proc.devRef .tc main_arg5) = N (Proc.devRef .tc main_arg5) := by
  after_results_simp

theorem R_R2_main_arg0_keep (N : Valuation τ sig (Elt F)) :
    StableHlo.after R2 N (Proc.devRef .tc main_arg0) = N (Proc.devRef .tc main_arg0) := by
  after_results_simp

theorem R_R2_main_arg1_keep (N : Valuation τ sig (Elt F)) :
    StableHlo.after R2 N (Proc.devRef .tc main_arg1) = N (Proc.devRef .tc main_arg1) := by
  after_results_simp

theorem R_R2_main_v5_keep (N : Valuation τ sig (Elt F)) :
    StableHlo.after R2 N (Proc.devRef .tc main_v5) = N (Proc.devRef .tc main_v5) := by
  after_results_simp

theorem R_R2_main_v3_keep (N : Valuation τ sig (Elt F)) :
    StableHlo.after R2 N (Proc.devRef .tc main_v3) = N (Proc.devRef .tc main_v3) := by
  after_results_simp

theorem R_R2_main_v24_eval (N : Valuation τ sig (Elt F)) :
    StableHlo.after R2 N (Proc.devRef .tc main_v24) = R_R2_main_v24 (N (Proc.devRef .tc main_v19)) (N (Proc.devRef .tc main_arg2)) (N (Proc.devRef .tc main_arg3)) := by
  after_results_simp <;> (try simp only [TRef.toBuf, TRef.ofBuf, cast_cast, cast_eq]) <;> rfl

theorem R_R2_main_v1_keep (N : Valuation τ sig (Elt F)) :
    StableHlo.after R2 N (Proc.devRef .tc main_v1) = N (Proc.devRef .tc main_v1) := by
  after_results_simp

theorem R_R3_main_arg9_keep (N : Valuation τ sig (Elt F)) :
    StableHlo.after R3 N (Proc.devRef .tc main_arg9) = N (Proc.devRef .tc main_arg9) := by
  after_results_simp

theorem R_R3_main_arg8_keep (N : Valuation τ sig (Elt F)) :
    StableHlo.after R3 N (Proc.devRef .tc main_arg8) = N (Proc.devRef .tc main_arg8) := by
  after_results_simp

theorem R_R3_main_arg4_keep (N : Valuation τ sig (Elt F)) :
    StableHlo.after R3 N (Proc.devRef .tc main_arg4) = N (Proc.devRef .tc main_arg4) := by
  after_results_simp

theorem R_R3_main_arg2_keep (N : Valuation τ sig (Elt F)) :
    StableHlo.after R3 N (Proc.devRef .tc main_arg2) = N (Proc.devRef .tc main_arg2) := by
  after_results_simp

theorem R_R3_main_arg3_keep (N : Valuation τ sig (Elt F)) :
    StableHlo.after R3 N (Proc.devRef .tc main_arg3) = N (Proc.devRef .tc main_arg3) := by
  after_results_simp

theorem R_R3_main_arg6_keep (N : Valuation τ sig (Elt F)) :
    StableHlo.after R3 N (Proc.devRef .tc main_arg6) = N (Proc.devRef .tc main_arg6) := by
  after_results_simp

theorem R_R3_main_arg7_keep (N : Valuation τ sig (Elt F)) :
    StableHlo.after R3 N (Proc.devRef .tc main_arg7) = N (Proc.devRef .tc main_arg7) := by
  after_results_simp

theorem R_R3_main_arg5_keep (N : Valuation τ sig (Elt F)) :
    StableHlo.after R3 N (Proc.devRef .tc main_arg5) = N (Proc.devRef .tc main_arg5) := by
  after_results_simp

theorem R_R3_main_arg0_keep (N : Valuation τ sig (Elt F)) :
    StableHlo.after R3 N (Proc.devRef .tc main_arg0) = N (Proc.devRef .tc main_arg0) := by
  after_results_simp

theorem R_R3_main_arg1_keep (N : Valuation τ sig (Elt F)) :
    StableHlo.after R3 N (Proc.devRef .tc main_arg1) = N (Proc.devRef .tc main_arg1) := by
  after_results_simp

theorem R_R3_main_v37_eval (N : Valuation τ sig (Elt F)) :
    StableHlo.after R3 N (Proc.devRef .tc main_v37) = R_R3_main_v37 (N (Proc.devRef .tc main_v1)) (N (Proc.devRef .tc main_v5)) (N (Proc.devRef .tc main_v24)) (N (Proc.devRef .tc main_v3)) := by
  after_results_simp <;> (try simp only [TRef.toBuf, TRef.ofBuf, cast_cast, cast_eq]) <;> rfl

theorem R_R4_main_arg9_keep (N : Valuation τ sig (Elt F)) :
    StableHlo.after R4 N (Proc.devRef .tc main_arg9) = N (Proc.devRef .tc main_arg9) := by
  after_results_simp

theorem R_R4_main_arg8_keep (N : Valuation τ sig (Elt F)) :
    StableHlo.after R4 N (Proc.devRef .tc main_arg8) = N (Proc.devRef .tc main_arg8) := by
  after_results_simp

theorem R_R4_main_arg4_keep (N : Valuation τ sig (Elt F)) :
    StableHlo.after R4 N (Proc.devRef .tc main_arg4) = N (Proc.devRef .tc main_arg4) := by
  after_results_simp

theorem R_R4_main_v41_eval (N : Valuation τ sig (Elt F)) :
    StableHlo.after R4 N (Proc.devRef .tc main_v41) = R_R4_main_v41 (N (Proc.devRef .tc main_v37)) (N (Proc.devRef .tc main_arg4)) := by
  after_results_simp <;> (try simp only [TRef.toBuf, TRef.ofBuf, cast_cast, cast_eq]) <;> rfl

theorem R_R4_main_arg2_keep (N : Valuation τ sig (Elt F)) :
    StableHlo.after R4 N (Proc.devRef .tc main_arg2) = N (Proc.devRef .tc main_arg2) := by
  after_results_simp

theorem R_R4_main_arg3_keep (N : Valuation τ sig (Elt F)) :
    StableHlo.after R4 N (Proc.devRef .tc main_arg3) = N (Proc.devRef .tc main_arg3) := by
  after_results_simp

theorem R_R4_main_arg6_keep (N : Valuation τ sig (Elt F)) :
    StableHlo.after R4 N (Proc.devRef .tc main_arg6) = N (Proc.devRef .tc main_arg6) := by
  after_results_simp

theorem R_R4_main_arg7_keep (N : Valuation τ sig (Elt F)) :
    StableHlo.after R4 N (Proc.devRef .tc main_arg7) = N (Proc.devRef .tc main_arg7) := by
  after_results_simp

theorem R_R4_main_arg5_keep (N : Valuation τ sig (Elt F)) :
    StableHlo.after R4 N (Proc.devRef .tc main_arg5) = N (Proc.devRef .tc main_arg5) := by
  after_results_simp

theorem R_R4_main_arg0_keep (N : Valuation τ sig (Elt F)) :
    StableHlo.after R4 N (Proc.devRef .tc main_arg0) = N (Proc.devRef .tc main_arg0) := by
  after_results_simp

theorem R_R4_main_arg1_keep (N : Valuation τ sig (Elt F)) :
    StableHlo.after R4 N (Proc.devRef .tc main_arg1) = N (Proc.devRef .tc main_arg1) := by
  after_results_simp

theorem R_R5_main_arg9_keep (N : Valuation τ sig (Elt F)) :
    StableHlo.after R5 N (Proc.devRef .tc main_arg9) = N (Proc.devRef .tc main_arg9) := by
  after_results_simp

theorem R_R5_main_arg8_keep (N : Valuation τ sig (Elt F)) :
    StableHlo.after R5 N (Proc.devRef .tc main_arg8) = N (Proc.devRef .tc main_arg8) := by
  after_results_simp

theorem R_R5_main_arg4_keep (N : Valuation τ sig (Elt F)) :
    StableHlo.after R5 N (Proc.devRef .tc main_arg4) = N (Proc.devRef .tc main_arg4) := by
  after_results_simp

theorem R_R5_main_v41_keep (N : Valuation τ sig (Elt F)) :
    StableHlo.after R5 N (Proc.devRef .tc main_v41) = N (Proc.devRef .tc main_v41) := by
  after_results_simp

theorem R_R5_main_v47_eval (N : Valuation τ sig (Elt F)) :
    StableHlo.after R5 N (Proc.devRef .tc main_v47) = R_R5_main_v47 (N (Proc.devRef .tc main_arg5)) := by
  after_results_simp <;> (try simp only [TRef.toBuf, TRef.ofBuf, cast_cast, cast_eq]) <;> rfl

theorem R_R5_main_v45_eval (N : Valuation τ sig (Elt F)) :
    StableHlo.after R5 N (Proc.devRef .tc main_v45) = R_R5_main_v45 (N (Proc.devRef .tc main_arg7)) := by
  after_results_simp <;> (try simp only [TRef.toBuf, TRef.ofBuf, cast_cast, cast_eq]) <;> rfl

theorem R_R5_main_v43_eval (N : Valuation τ sig (Elt F)) :
    StableHlo.after R5 N (Proc.devRef .tc main_v43) = R_R5_main_v43 (N (Proc.devRef .tc main_arg6)) := by
  after_results_simp <;> (try simp only [TRef.toBuf, TRef.ofBuf, cast_cast, cast_eq]) <;> rfl

theorem R_R5_main_arg2_keep (N : Valuation τ sig (Elt F)) :
    StableHlo.after R5 N (Proc.devRef .tc main_arg2) = N (Proc.devRef .tc main_arg2) := by
  after_results_simp

theorem R_R5_main_v61_eval (N : Valuation τ sig (Elt F)) :
    StableHlo.after R5 N (Proc.devRef .tc main_v61) = R_R5_main_v61 (N (Proc.devRef .tc main_arg6)) (N (Proc.devRef .tc main_arg5)) (N (Proc.devRef .tc main_arg0)) (N (Proc.devRef .tc main_arg1)) (N (Proc.devRef .tc main_arg7)) := by
  after_results_simp <;> (try simp only [TRef.toBuf, TRef.ofBuf, cast_cast, cast_eq]) <;> rfl

theorem R_R5_main_arg3_keep (N : Valuation τ sig (Elt F)) :
    StableHlo.after R5 N (Proc.devRef .tc main_arg3) = N (Proc.devRef .tc main_arg3) := by
  after_results_simp

theorem R_R6_main_arg9_keep (N : Valuation τ sig (Elt F)) :
    StableHlo.after R6 N (Proc.devRef .tc main_arg9) = N (Proc.devRef .tc main_arg9) := by
  after_results_simp

theorem R_R6_main_arg8_keep (N : Valuation τ sig (Elt F)) :
    StableHlo.after R6 N (Proc.devRef .tc main_arg8) = N (Proc.devRef .tc main_arg8) := by
  after_results_simp

theorem R_R6_main_arg4_keep (N : Valuation τ sig (Elt F)) :
    StableHlo.after R6 N (Proc.devRef .tc main_arg4) = N (Proc.devRef .tc main_arg4) := by
  after_results_simp

theorem R_R6_main_v41_keep (N : Valuation τ sig (Elt F)) :
    StableHlo.after R6 N (Proc.devRef .tc main_v41) = N (Proc.devRef .tc main_v41) := by
  after_results_simp

theorem R_R6_main_v47_keep (N : Valuation τ sig (Elt F)) :
    StableHlo.after R6 N (Proc.devRef .tc main_v47) = N (Proc.devRef .tc main_v47) := by
  after_results_simp

theorem R_R6_main_v45_keep (N : Valuation τ sig (Elt F)) :
    StableHlo.after R6 N (Proc.devRef .tc main_v45) = N (Proc.devRef .tc main_v45) := by
  after_results_simp

theorem R_R6_main_v66_eval (N : Valuation τ sig (Elt F)) :
    StableHlo.after R6 N (Proc.devRef .tc main_v66) = R_R6_main_v66 (N (Proc.devRef .tc main_v61)) (N (Proc.devRef .tc main_arg2)) (N (Proc.devRef .tc main_arg3)) := by
  after_results_simp <;> (try simp only [TRef.toBuf, TRef.ofBuf, cast_cast, cast_eq]) <;> rfl

theorem R_R6_main_v43_keep (N : Valuation τ sig (Elt F)) :
    StableHlo.after R6 N (Proc.devRef .tc main_v43) = N (Proc.devRef .tc main_v43) := by
  after_results_simp

theorem R_R7_main_arg9_keep (N : Valuation τ sig (Elt F)) :
    StableHlo.after R7 N (Proc.devRef .tc main_arg9) = N (Proc.devRef .tc main_arg9) := by
  after_results_simp

theorem R_R7_main_arg8_keep (N : Valuation τ sig (Elt F)) :
    StableHlo.after R7 N (Proc.devRef .tc main_arg8) = N (Proc.devRef .tc main_arg8) := by
  after_results_simp

theorem R_R7_main_arg4_keep (N : Valuation τ sig (Elt F)) :
    StableHlo.after R7 N (Proc.devRef .tc main_arg4) = N (Proc.devRef .tc main_arg4) := by
  after_results_simp

theorem R_R7_main_v79_eval (N : Valuation τ sig (Elt F)) :
    StableHlo.after R7 N (Proc.devRef .tc main_v79) = R_R7_main_v79 (N (Proc.devRef .tc main_v43)) (N (Proc.devRef .tc main_v47)) (N (Proc.devRef .tc main_v66)) (N (Proc.devRef .tc main_v45)) := by
  after_results_simp <;> (try simp only [TRef.toBuf, TRef.ofBuf, cast_cast, cast_eq]) <;> rfl

theorem R_R7_main_v41_keep (N : Valuation τ sig (Elt F)) :
    StableHlo.after R7 N (Proc.devRef .tc main_v41) = N (Proc.devRef .tc main_v41) := by
  after_results_simp

theorem R_R8_main_arg9_keep (N : Valuation τ sig (Elt F)) :
    StableHlo.after R8 N (Proc.devRef .tc main_arg9) = N (Proc.devRef .tc main_arg9) := by
  after_results_simp

theorem R_R8_main_arg8_keep (N : Valuation τ sig (Elt F)) :
    StableHlo.after R8 N (Proc.devRef .tc main_arg8) = N (Proc.devRef .tc main_arg8) := by
  after_results_simp

theorem R_R8_main_v86_eval (N : Valuation τ sig (Elt F)) :
    StableHlo.after R8 N (Proc.devRef .tc main_v86) = R_R8_main_v86 (N (Proc.devRef .tc main_v41)) (N (Proc.devRef .tc main_v79)) (N (Proc.devRef .tc main_arg4)) := by
  after_results_simp <;> (try simp only [TRef.toBuf, TRef.ofBuf, cast_cast, cast_eq]) <;> rfl

theorem R_T1_main_arg9_keep (N : Valuation τ sig (Elt F)) :
    StableHlo.after T1 N (Proc.devRef .tc main_arg9) = N (Proc.devRef .tc main_arg9) := by
  after_results_simp

theorem R_T1_main_arg8_keep (N : Valuation τ sig (Elt F)) :
    StableHlo.after T1 N (Proc.devRef .tc main_arg8) = N (Proc.devRef .tc main_arg8) := by
  after_results_simp

theorem R_T1_main_v93_eval (N : Valuation τ sig (Elt F)) :
    StableHlo.after T1 N (Proc.devRef .tc main_v93) = R_T1_main_v93 (N (Proc.devRef .tc main_v86)) (N (Proc.devRef .tc main_arg9)) := by
  after_results_simp <;> (try simp only [TRef.toBuf, TRef.ofBuf, cast_cast, cast_eq]) <;> rfl

theorem R_T2_main_v94_eval (N : Valuation τ sig (Elt F)) :
    StableHlo.after T2 N (Proc.devRef .tc main_v94) = R_T2_main_v94 (N (Proc.devRef .tc main_v93)) := by
  after_results_simp <;> (try simp only [TRef.toBuf, TRef.ofBuf, cast_cast, cast_eq]) <;> rfl

theorem R_T2_main_arg9_keep (N : Valuation τ sig (Elt F)) :
    StableHlo.after T2 N (Proc.devRef .tc main_arg9) = N (Proc.devRef .tc main_arg9) := by
  after_results_simp

theorem R_T2_main_arg8_keep (N : Valuation τ sig (Elt F)) :
    StableHlo.after T2 N (Proc.devRef .tc main_arg8) = N (Proc.devRef .tc main_arg8) := by
  after_results_simp

theorem R_T3_main_v102_eval (N : Valuation τ sig (Elt F)) :
    StableHlo.after T3 N (Proc.devRef .tc main_v102) = R_T3_main_v102 (N (Proc.devRef .tc main_arg8)) (N (Proc.devRef .tc main_arg9)) := by
  after_results_simp <;> (try simp only [TRef.toBuf, TRef.ofBuf, cast_cast, cast_eq]) <;> rfl

theorem R_T3_main_v94_keep (N : Valuation τ sig (Elt F)) :
    StableHlo.after T3 N (Proc.devRef .tc main_v94) = N (Proc.devRef .tc main_v94) := by
  after_results_simp

theorem R_T4_main_v103_eval (N : Valuation τ sig (Elt F)) :
    StableHlo.after T4 N (Proc.devRef .tc main_v103) = R_T4_main_v103 (N (Proc.devRef .tc main_v102)) (N (Proc.devRef .tc main_v94)) := by
  after_results_simp <;> (try simp only [TRef.toBuf, TRef.ofBuf, cast_cast, cast_eq]) <;> rfl

theorem R_T5_main_v107_eval (N : Valuation τ sig (Elt F)) :
    StableHlo.after T5 N (Proc.devRef .tc main_v107) = R_T5_main_v107 (N (Proc.devRef .tc main_v103)) := by
  after_results_simp <;> (try simp only [TRef.toBuf, TRef.ofBuf, cast_cast, cast_eq]) <;> rfl

end Cert.Gcn.RHost

end
-- ==== Proof.RValue.lean ====
/-
  What the reference returns, as ONE function of its ten argument arrays: its line of host operations followed piece
  by piece, each piece's result a function of what the earlier pieces left.  Then the reference's run in full: every
  weakly fair execution terminates with the result at that function of the arguments and the arguments unchanged.
-/
import proofs.«172191_j33054068310209_1_alg».proof.ReferenceIdeal
import proofs.«172191_j33054068310209_1_alg».proof.Proof.Gen.ReferenceIdeal
import proofs.«172191_j33054068310209_1_alg».proof.Proof.RefRun
import proofs.«172191_j33054068310209_1_alg».proof.Proof.RHost
import Idealize.ShloMosaic.Lib.StableHlo.Run

set_option maxRecDepth 16384

noncomputable section

namespace Cert.Gcn.RValue

open Cert.ReferenceIdeal Cert.ReferenceIdeal.Gen Idealize.ShloMosaic Idealize.ShloMosaic.TcCoe Idealize.SL.Sem Idealize.ShloMosaic.StableHlo
open Cert.Gcn.RefRun Cert.Gcn.RHost

variable {F : FTy → Type} [FloatOps F]

/-- The reference's result as a function of the argument arrays. -/
def rval (x_main_arg0 : (⟨S100000x256, .f32⟩ : BufTy).Contents (Elt F)) (x_main_arg1 : (⟨S256x128, .f32⟩ : BufTy).Contents (Elt F)) (x_main_arg2 : (⟨S128, .f32⟩ : BufTy).Contents (Elt F)) (x_main_arg3 : (⟨S128x10, .f32⟩ : BufTy).Contents (Elt F)) (x_main_arg4 : (⟨S10, .f32⟩ : BufTy).Contents (Elt F)) (x_main_arg5 : (⟨S2x1600000, .f32⟩ : BufTy).Contents (Elt F)) (x_main_arg6 : (⟨S2x1600000, .i32⟩ : BufTy).Contents (Elt F)) (x_main_arg7 : (⟨S2x1600000, .i32⟩ : BufTy).Contents (Elt F)) (x_main_arg8 : (⟨S100000, .i32⟩ : BufTy).Contents (Elt F)) (x_main_arg9 : (⟨S5000, .i32⟩ : BufTy).Contents (Elt F)) : (⟨S_, .f32⟩ : BufTy).Contents (Elt F) :=
  (R_T5_main_v107 (R_T4_main_v103 (R_T3_main_v102 x_main_arg8 x_main_arg9) (R_T2_main_v94 (R_T1_main_v93 (R_R8_main_v86 (R_R4_main_v41 (R_R3_main_v37 (R_R1_main_v1 x_main_arg6) (R_R1_main_v5 x_main_arg5) (R_R2_main_v24 (R_R1_main_v19 x_main_arg6 x_main_arg5 x_main_arg0 x_main_arg1 x_main_arg7) x_main_arg2 x_main_arg3) (R_R1_main_v3 x_main_arg7)) x_main_arg4) (R_R7_main_v79 (R_R5_main_v43 x_main_arg6) (R_R5_main_v47 x_main_arg5) (R_R6_main_v66 (R_R5_main_v61 x_main_arg6 x_main_arg5 x_main_arg0 x_main_arg1 x_main_arg7) x_main_arg2 x_main_arg3) (R_R5_main_v45 x_main_arg7)) x_main_arg4) x_main_arg9))))

set_option maxHeartbeats 4000000 in
/-- After the whole line the result buffer holds that function of the contents the line started from. -/
theorem value (M : Valuation τ sig (Elt F)) :
    StableHlo.after ops M (Proc.devRef .tc main_v107) = rval (M (Proc.devRef .tc main_arg0)) (M (Proc.devRef .tc main_arg1)) (M (Proc.devRef .tc main_arg2)) (M (Proc.devRef .tc main_arg3)) (M (Proc.devRef .tc main_arg4)) (M (Proc.devRef .tc main_arg5)) (M (Proc.devRef .tc main_arg6)) (M (Proc.devRef .tc main_arg7)) (M (Proc.devRef .tc main_arg8)) (M (Proc.devRef .tc main_arg9)) := by
  rw [ops_split]
  simp only [after_append]
  have h_i_main_arg9 : M (Proc.devRef .tc main_arg9) = (M (Proc.devRef .tc main_arg9)) := rfl
  have h_i_main_arg8 : M (Proc.devRef .tc main_arg8) = (M (Proc.devRef .tc main_arg8)) := rfl
  have h_i_main_arg4 : M (Proc.devRef .tc main_arg4) = (M (Proc.devRef .tc main_arg4)) := rfl
  have h_i_main_arg2 : M (Proc.devRef .tc main_arg2) = (M (Proc.devRef .tc main_arg2)) := rfl
  have h_i_main_arg3 : M (Proc.devRef .tc main_arg3) = (M (Proc.devRef .tc main_arg3)) := rfl
  have h_i_main_arg6 : M (Proc.devRef .tc main_arg6) = (M (Proc.devRef .tc main_arg6)) := rfl
  have h_i_main_arg7 : M (Proc.devRef .tc main_arg7) = (M (Proc.devRef .tc main_arg7)) := rfl
  have h_i_main_arg5 : M (Proc.devRef .tc main_arg5) = (M (Proc.devRef .tc main_arg5)) := rfl
  have h_i_main_arg0 : M (Proc.devRef .tc main_arg0) = (M (Proc.devRef .tc main_arg0)) := rfl
  have h_i_main_arg1 : M (Proc.devRef .tc main_arg1) = (M (Proc.devRef .tc main_arg1)) := rfl
  have h_R1_main_arg9 : (StableHlo.after R1 M) (Proc.devRef .tc main_arg9) = (M (Proc.devRef .tc main_arg9)) :=
    (R_R1_main_arg9_keep M).trans h_i_main_arg9
  have h_R1_main_arg8 : (StableHlo.after R1 M) (Proc.devRef .tc main_arg8) = (M (Proc.devRef .tc main_arg8)) :=
    (R_R1_main_arg8_keep M).trans h_i_main_arg8
  have h_R1_main_arg4 : (StableHlo.after R1 M) (Proc.devRef .tc main_arg4) = (M (Proc.devRef .tc main_arg4)) :=
    (R_R1_main_arg4_keep M).trans h_i_main_arg4
  have h_R1_main_arg2 : (StableHlo.after R1 M) (Proc.devRef .tc main_arg2) = (M (Proc.devRef .tc main_arg2)) :=
    (R_R1_main_arg2_keep M).trans h_i_main_arg2
  have h_R1_main_arg3 : (StableHlo.after R1 M) (Proc.devRef .tc main_arg3) = (M (Proc.devRef .tc main_arg3)) :=
    (R_R1_main_arg3_keep M).trans h_i_main_arg3
  have h_R1_main_arg6 : (StableHlo.after R1 M) (Proc.devRef .tc main_arg6) = (M (Proc.devRef .tc main_arg6)) :=
    (R_R1_main_arg6_keep M).trans h_i_main_arg6
  have h_R1_main_arg7 : (StableHlo.after R1 M) (Proc.devRef .tc main_arg7) = (M (Proc.devRef .tc main_arg7)) :=
    (R_R1_main_arg7_keep M).trans h_i_main_arg7
  have h_R1_main_arg5 : (StableHlo.after R1 M) (Proc.devRef .tc main_arg5) = (M (Proc.devRef .tc main_arg5)) :=
    (R_R1_main_arg5_keep M).trans h_i_main_arg5
  have h_R1_main_arg0 : (StableHlo.after R1 M) (Proc.devRef .tc main_arg0) = (M (Proc.devRef .tc main_arg0)) :=
    (R_R1_main_arg0_keep M).trans h_i_main_arg0
  have h_R1_main_arg1 : (StableHlo.after R1 M) (Proc.devRef .tc main_arg1) = (M (Proc.devRef .tc main_arg1)) :=
    (R_R1_main_arg1_keep M).trans h_i_main_arg1
  have h_R1_main_v5 : (StableHlo.after R1 M) (Proc.devRef .tc main_v5) = (R_R1_main_v5 (M (Proc.devRef .tc main_arg5))) :=
    (R_R1_main_v5_eval M).trans (by rw [h_i_main_arg5])
  have h_R1_main_v3 : (StableHlo.after R1 M) (Proc.devRef .tc main_v3) = (R_R1_main_v3 (M (Proc.devRef .tc main_arg7))) :=
    (R_R1_main_v3_eval M).trans (by rw [h_i_main_arg7])
  have h_R1_main_v1 : (StableHlo.after R1 M) (Proc.devRef .tc main_v1) = (R_R1_main_v1 (M (Proc.devRef .tc main_arg6))) :=
    (R_R1_main_v1_eval M).trans (by rw [h_i_main_arg6])
  have h_R1_main_v19 : (StableHlo.after R1 M) (Proc.devRef .tc main_v19) = (R_R1_main_v19 (M (Proc.devRef .tc main_arg6)) (M (Proc.devRef .tc main_arg5)) (M (Proc.devRef .tc main_arg0)) (M (Proc.devRef .tc main_arg1)) (M (Proc.devRef .tc main_arg7))) :=
    (R_R1_main_v19_eval M).trans (by rw [h_i_main_arg6, h_i_main_arg5, h_i_main_arg0, h_i_main_arg1, h_i_main_arg7])
  have h_R2_main_arg9 : (StableHlo.after R2 (StableHlo.after R1 M)) (Proc.devRef .tc main_arg9) = (M (Proc.devRef .tc main_arg9)) :=
    (R_R2_main_arg9_keep (StableHlo.after R1 M)).trans h_R1_main_arg9
  have h_R2_main_arg8 : (StableHlo.after R2 (StableHlo.after R1 M)) (Proc.devRef .tc main_arg8) = (M (Proc.devRef .tc main_arg8)) :=
    (R_R2_main_arg8_keep (StableHlo.after R1 M)).trans h_R1_main_arg8
  have h_R2_main_arg4 : (StableHlo.after R2 (StableHlo.after R1 M)) (Proc.devRef .tc main_arg4) = (M (Proc.devRef .tc main_arg4)) :=
    (R_R2_main_arg4_keep (StableHlo.after R1 M)).trans h_R1_main_arg4
  have h_R2_main_arg2 : (StableHlo.after R2 (StableHlo.after R1 M)) (Proc.devRef .tc main_arg2) = (M (Proc.devRef .tc main_arg2)) :=
    (R_R2_main_arg2_keep (StableHlo.after R1 M)).trans h_R1_main_arg2
  have h_R2_main_arg3 : (StableHlo.after R2 (StableHlo.after R1 M)) (Proc.devRef .tc main_arg3) = (M (Proc.devRef .tc main_arg3)) :=
    (R_R2_main_arg3_keep (StableHlo.after R1 M)).trans h_R1_main_arg3
  have h_R2_main_arg6 : (StableHlo.after R2 (StableHlo.after R1 M)) (Proc.devRef .tc main_arg6) = (M (Proc.devRef .tc main_arg6)) :=
    (R_R2_main_arg6_keep (StableHlo.after R1 M)).trans h_R1_main_arg6
  have h_R2_main_arg7 : (StableHlo.after R2 (StableHlo.after R1 M)) (Proc.devRef .tc main_arg7) = (M (Proc.devRef .tc main_arg7)) :=
    (R_R2_main_arg7_keep (StableHlo.after R1 M)).trans h_R1_main_arg7
  have h_R2_main_arg5 : (StableHlo.after R2 (StableHlo.after R1 M)) (Proc.devRef .tc main_arg5) = (M (Proc.devRef .tc main_arg5)) :=
    (R_R2_main_arg5_keep (StableHlo.after R1 M)).trans h_R1_main_arg5
  have h_R2_main_arg0 : (StableHlo.after R2 (StableHlo.after R1 M)) (Proc.devRef .tc main_arg0) = (M (Proc.devRef .tc main_arg0)) :=
    (R_R2_main_arg0_keep (StableHlo.after R1 M)).trans h_R1_main_arg0
  have h_R2_main_arg1 : (StableHlo.after R2 (StableHlo.after R1 M)) (Proc.devRef .tc main_arg1) = (M (Proc.devRef .tc main_arg1)) :=
    (R_R2_main_arg1_keep (StableHlo.after R1 M)).trans h_R1_main_arg1
  have h_R2_main_v5 : (StableHlo.after R2 (StableHlo.after R1 M)) (Proc.devRef .tc main_v5) = (R_R1_main_v5 (M (Proc.devRef .tc main_arg5))) :=
    (R_R2_main_v5_keep (StableHlo.after R1 M)).trans h_R1_main_v5
  have h_R2_main_v3 : (StableHlo.after R2 (StableHlo.after R1 M)) (Proc.devRef .tc main_v3) = (R_R1_main_v3 (M (Proc.devRef .tc main_arg7))) :=
    (R_R2_main_v3_keep (StableHlo.after R1 M)).trans h_R1_main_v3
  have h_R2_main_v24 : (StableHlo.after R2 (StableHlo.after R1 M)) (Proc.devRef .tc main_v24) = (R_R2_main_v24 (R_R1_main_v19 (M (Proc.devRef .tc main_arg6)) (M (Proc.devRef .tc main_arg5)) (M (Proc.devRef .tc main_arg0)) (M (Proc.devRef .tc main_arg1)) (M (Proc.devRef .tc main_arg7))) (M (Proc.devRef .tc main_arg2)) (M (Proc.devRef .tc main_arg3))) :=
    (R_R2_main_v24_eval (StableHlo.after R1 M)).trans (by rw [h_R1_main_v19, h_R1_main_arg2, h_R1_main_arg3])
  have h_R2_main_v1 : (StableHlo.after R2 (StableHlo.after R1 M)) (Proc.devRef .tc main_v1) = (R_R1_main_v1 (M (Proc.devRef .tc main_arg6))) :=
    (R_R2_main_v1_keep (StableHlo.after R1 M)).trans h_R1_main_v1
  have h_R3_main_arg9 : (StableHlo.after R3 (StableHlo.after R2 (StableHlo.after R1 M))) (Proc.devRef .tc main_arg9) = (M (Proc.devRef .tc main_arg9)) :=
    (R_R3_main_arg9_keep (StableHlo.after R2 (StableHlo.after R1 M))).trans h_R2_main_arg9
  have h_R3_main_arg8 : (StableHlo.after R3 (StableHlo.after R2 (StableHlo.after R1 M))) (Proc.devRef .tc main_arg8) = (M (Proc.devRef .tc main_arg8)) :=
    (R_R3_main_arg8_keep (StableHlo.after R2 (StableHlo.after R1 M))).trans h_R2_main_arg8
  have h_R3_main_arg4 : (StableHlo.after R3 (StableHlo.after R2 (StableHlo.after R1 M))) (Proc.devRef .tc main_arg4) = (M (Proc.devRef .tc main_arg4)) :=
    (R_R3_main_arg4_keep (StableHlo.after R2 (StableHlo.after R1 M))).trans h_R2_main_arg4
  have h_R3_main_arg2 : (StableHlo.after R3 (StableHlo.after R2 (StableHlo.after R1 M))) (Proc.devRef .tc main_arg2) = (M (Proc.devRef .tc main_arg2)) :=
    (R_R3_main_arg2_keep (StableHlo.after R2 (StableHlo.after R1 M))).trans h_R2_main_arg2
  have h_R3_main_arg3 : (StableHlo.after R3 (StableHlo.after R2 (StableHlo.after R1 M))) (Proc.devRef .tc main_arg3) = (M (Proc.devRef .tc main_arg3)) :=
    (R_R3_main_arg3_keep (StableHlo.after R2 (StableHlo.after R1 M))).trans h_R2_main_arg3
  have h_R3_main_arg6 : (StableHlo.after R3 (StableHlo.after R2 (StableHlo.after R1 M))) (Proc.devRef .tc main_arg6) = (M (Proc.devRef .tc main_arg6)) :=
    (R_R3_main_arg6_keep (StableHlo.after R2 (StableHlo.after R1 M))).trans h_R2_main_arg6
  have h_R3_main_arg7 : (StableHlo.after R3 (StableHlo.after R2 (StableHlo.after R1 M))) (Proc.devRef .tc main_arg7) = (M (Proc.devRef .tc main_arg7)) :=
    (R_R3_main_arg7_keep (StableHlo.after R2 (StableHlo.after R1 M))).trans h_R2_main_arg7
  have h_R3_main_arg5 : (StableHlo.after R3 (StableHlo.after R2 (StableHlo.after R1 M))) (Proc.devRef .tc main_arg5) = (M (Proc.devRef .tc main_arg5)) :=
    (R_R3_main_arg5_keep (StableHlo.after R2 (StableHlo.after R1 M))).trans h_R2_main_arg5
  have h_R3_main_arg0 : (StableHlo.after R3 (StableHlo.after R2 (StableHlo.after R1 M))) (Proc.devRef .tc main_arg0) = (M (Proc.devRef .tc main_arg0)) :=
    (R_R3_main_arg0_keep (StableHlo.after R2 (StableHlo.after R1 M))).trans h_R2_main_arg0
  have h_R3_main_arg1 : (StableHlo.after R3 (StableHlo.after R2 (StableHlo.after R1 M))) (Proc.devRef .tc main_arg1) = (M (Proc.devRef .tc main_arg1)) :=
    (R_R3_main_arg1_keep (StableHlo.after R2 (StableHlo.after R1 M))).trans h_R2_main_arg1
  have h_R3_main_v37 : (StableHlo.after R3 (StableHlo.after R2 (StableHlo.after R1 M))) (Proc.devRef .tc main_v37) = (R_R3_main_v37 (R_R1_main_v1 (M (Proc.devRef .tc main_arg6))) (R_R1_main_v5 (M (Proc.devRef .tc main_arg5))) (R_R2_main_v24 (R_R1_main_v19 (M (Proc.devRef .tc main_arg6)) (M (Proc.devRef .tc main_arg5)) (M (Proc.devRef .tc main_arg0)) (M (Proc.devRef .tc main_arg1)) (M (Proc.devRef .tc main_arg7))) (M (Proc.devRef .tc main_arg2)) (M (Proc.devRef .tc main_arg3))) (R_R1_main_v3 (M (Proc.devRef .tc main_arg7)))) :=
    (R_R3_main_v37_eval (StableHlo.after R2 (StableHlo.after R1 M))).trans (by rw [h_R2_main_v1, h_R2_main_v5, h_R2_main_v24, h_R2_main_v3])
  have h_R4_main_arg9 : (StableHlo.after R4 (StableHlo.after R3 (StableHlo.after R2 (StableHlo.after R1 M)))) (Proc.devRef .tc main_arg9) = (M (Proc.devRef .tc main_arg9)) :=
    (R_R4_main_arg9_keep (StableHlo.after R3 (StableHlo.after R2 (StableHlo.after R1 M)))).trans h_R3_main_arg9
  have h_R4_main_arg8 : (StableHlo.after R4 (StableHlo.after R3 (StableHlo.after R2 (StableHlo.after R1 M)))) (Proc.devRef .tc main_arg8) = (M (Proc.devRef .tc main_arg8)) :=
    (R_R4_main_arg8_keep (StableHlo.after R3 (StableHlo.after R2 (StableHlo.after R1 M)))).trans h_R3_main_arg8
  have h_R4_main_arg4 : (StableHlo.after R4 (StableHlo.after R3 (StableHlo.after R2 (StableHlo.after R1 M)))) (Proc.devRef .tc main_arg4) = (M (Proc.devRef .tc main_arg4)) :=
    (R_R4_main_arg4_keep (StableHlo.after R3 (StableHlo.after R2 (StableHlo.after R1 M)))).trans h_R3_main_arg4
  have h_R4_main_v41 : (StableHlo.after R4 (StableHlo.after R3 (StableHlo.after R2 (StableHlo.after R1 M)))) (Proc.devRef .tc main_v41) = (R_R4_main_v41 (R_R3_main_v37 (R_R1_main_v1 (M (Proc.devRef .tc main_arg6))) (R_R1_main_v5 (M (Proc.devRef .tc main_arg5))) (R_R2_main_v24 (R_R1_main_v19 (M (Proc.devRef .tc main_arg6)) (M (Proc.devRef .tc main_arg5)) (M (Proc.devRef .tc main_arg0)) (M (Proc.devRef .tc main_arg1)) (M (Proc.devRef .tc main_arg7))) (M (Proc.devRef .tc main_arg2)) (M (Proc.devRef .tc main_arg3))) (R_R1_main_v3 (M (Proc.devRef .tc main_arg7)))) (M (Proc.devRef .tc main_arg4))) :=
    (R_R4_main_v41_eval (StableHlo.after R3 (StableHlo.after R2 (StableHlo.after R1 M)))).trans (by rw [h_R3_main_v37, h_R3_main_arg4])
  have h_R4_main_arg2 : (StableHlo.after R4 (StableHlo.after R3 (StableHlo.after R2 (StableHlo.after R1 M)))) (Proc.devRef .tc main_arg2) = (M (Proc.devRef .tc main_arg2)) :=
    (R_R4_main_arg2_keep (StableHlo.after R3 (StableHlo.after R2 (StableHlo.after R1 M)))).trans h_R3_main_arg2
  have h_R4_main_arg3 : (StableHlo.after R4 (StableHlo.after R3 (StableHlo.after R2 (StableHlo.after R1 M)))) (Proc.devRef .tc main_arg3) = (M (Proc.devRef .tc main_arg3)) :=
    (R_R4_main_arg3_keep (StableHlo.after R3 (StableHlo.after R2 (StableHlo.after R1 M)))).trans h_R3_main_arg3
  have h_R4_main_arg6 : (StableHlo.after R4 (StableHlo.after R3 (StableHlo.after R2 (StableHlo.after R1 M)))) (Proc.devRef .tc main_arg6) = (M (Proc.devRef .tc main_arg6)) :=
    (R_R4_main_arg6_keep (StableHlo.after R3 (StableHlo.after R2 (StableHlo.after R1 M)))).trans h_R3_main_arg6
  have h_R4_main_arg7 : (StableHlo.after R4 (StableHlo.after R3 (StableHlo.after R2 (StableHlo.after R1 M)))) (Proc.devRef .tc main_arg7) = (M (Proc.devRef .tc main_arg7)) :=
    (R_R4_main_arg7_keep (StableHlo.after R3 (StableHlo.after R2 (StableHlo.after R1 M)))).trans h_R3_main_arg7
  have h_R4_main_arg5 : (StableHlo.after R4 (StableHlo.after R3 (StableHlo.after R2 (StableHlo.after R1 M)))) (Proc.devRef .tc main_arg5) = (M (Proc.devRef .tc main_arg5)) :=
    (R_R4_main_arg5_keep (StableHlo.after R3 (StableHlo.after R2 (StableHlo.after R1 M)))).trans h_R3_main_arg5
  have h_R4_main_arg0 : (StableHlo.after R4 (StableHlo.after R3 (StableHlo.after R2 (StableHlo.after R1 M)))) (Proc.devRef .tc main_arg0) = (M (Proc.devRef .tc main_arg0)) :=
    (R_R4_main_arg0_keep (StableHlo.after R3 (StableHlo.after R2 (StableHlo.after R1 M)))).trans h_R3_main_arg0
  have h_R4_main_arg1 : (StableHlo.after R4 (StableHlo.after R3 (StableHlo.after R2 (StableHlo.after R1 M)))) (Proc.devRef .tc main_arg1) = (M (Proc.devRef .tc main_arg1)) :=
    (R_R4_main_arg1_keep (StableHlo.after R3 (StableHlo.after R2 (StableHlo.after R1 M)))).trans h_R3_main_arg1
  have h_R5_main_arg9 : (StableHlo.after R5 (StableHlo.after R4 (StableHlo.after R3 (StableHlo.after R2 (StableHlo.after R1 M))))) (Proc.devRef .tc main_arg9) = (M (Proc.devRef .tc main_arg9)) :=
    (R_R5_main_arg9_keep (StableHlo.after R4 (StableHlo.after R3 (StableHlo.after R2 (StableHlo.after R1 M))))).trans h_R4_main_arg9
  have h_R5_main_arg8 : (StableHlo.after R5 (StableHlo.after R4 (StableHlo.after R3 (StableHlo.after R2 (StableHlo.after R1 M))))) (Proc.devRef .tc main_arg8) = (M (Proc.devRef .tc main_arg8)) :=
    (R_R5_main_arg8_keep (StableHlo.after R4 (StableHlo.after R3 (StableHlo.after R2 (StableHlo.after R1 M))))).trans h_R4_main_arg8
  have h_R5_main_arg4 : (StableHlo.after R5 (StableHlo.after R4 (StableHlo.after R3 (StableHlo.after R2 (StableHlo.after R1 M))))) (Proc.devRef .tc main_arg4) = (M (Proc.devRef .tc main_arg4)) :=
    (R_R5_main_arg4_keep (StableHlo.after R4 (StableHlo.after R3 (StableHlo.after R2 (StableHlo.after R1 M))))).trans h_R4_main_arg4
  have h_R5_main_v41 : (StableHlo.after R5 (StableHlo.after R4 (StableHlo.after R3 (StableHlo.after R2 (StableHlo.after R1 M))))) (Proc.devRef .tc main_v41) = (R_R4_main_v41 (R_R3_main_v37 (R_R1_main_v1 (M (Proc.devRef .tc main_arg6))) (R_R1_main_v5 (M (Proc.devRef .tc main_arg5))) (R_R2_main_v24 (R_R1_main_v19 (M (Proc.devRef .tc main_arg6)) (M (Proc.devRef .tc main_arg5)) (M (Proc.devRef .tc main_arg0)) (M (Proc.devRef .tc main_arg1)) (M (Proc.devRef .tc main_arg7))) (M (Proc.devRef .tc main_arg2)) (M (Proc.devRef .tc main_arg3))) (R_R1_main_v3 (M (Proc.devRef .tc main_arg7)))) (M (Proc.devRef .tc main_arg4))) :=
    (R_R5_main_v41_keep (StableHlo.after R4 (StableHlo.after R3 (StableHlo.after R2 (StableHlo.after R1 M))))).trans h_R4_main_v41
  have h_R5_main_v47 : (StableHlo.after R5 (StableHlo.after R4 (StableHlo.after R3 (StableHlo.after R2 (StableHlo.after R1 M))))) (Proc.devRef .tc main_v47) = (R_R5_main_v47 (M (Proc.devRef .tc main_arg5))) :=
    (R_R5_main_v47_eval (StableHlo.after R4 (StableHlo.after R3 (StableHlo.after R2 (StableHlo.after R1 M))))).trans (by rw [h_R4_main_arg5])
  have h_R5_main_v45 : (StableHlo.after R5 (StableHlo.after R4 (StableHlo.after R3 (StableHlo.after R2 (StableHlo.after R1 M))))) (Proc.devRef .tc main_v45) = (R_R5_main_v45 (M (Proc.devRef .tc main_arg7))) :=
    (R_R5_main_v45_eval (StableHlo.after R4 (StableHlo.after R3 (StableHlo.after R2 (StableHlo.after R1 M))))).trans (by rw [h_R4_main_arg7])
  have h_R5_main_v43 : (StableHlo.after R5 (StableHlo.after R4 (StableHlo.after R3 (StableHlo.after R2 (StableHlo.after R1 M))))) (Proc.devRef .tc main_v43) = (R_R5_main_v43 (M (Proc.devRef .tc main_arg6))) :=
    (R_R5_main_v43_eval (StableHlo.after R4 (StableHlo.after R3 (StableHlo.after R2 (StableHlo.after R1 M))))).trans (by rw [h_R4_main_arg6])
  have h_R5_main_arg2 : (StableHlo.after R5 (StableHlo.after R4 (StableHlo.after R3 (StableHlo.after R2 (StableHlo.after R1 M))))) (Proc.devRef .tc main_arg2) = (M (Proc.devRef .tc main_arg2)) :=
    (R_R5_main_arg2_keep (StableHlo.after R4 (StableHlo.after R3 (StableHlo.after R2 (StableHlo.after R1 M))))).trans h_R4_main_arg2
  have h_R5_main_v61 : (StableHlo.after R5 (StableHlo.after R4 (StableHlo.after R3 (StableHlo.after R2 (StableHlo.after R1 M))))) (Proc.devRef .tc main_v61) = (R_R5_main_v61 (M (Proc.devRef .tc main_arg6)) (M (Proc.devRef .tc main_arg5)) (M (Proc.devRef .tc main_arg0)) (M (Proc.devRef .tc main_arg1)) (M (Proc.devRef .tc main_arg7))) :=
    (R_R5_main_v61_eval (StableHlo.after R4 (StableHlo.after R3 (StableHlo.after R2 (StableHlo.after R1 M))))).trans (by rw [h_R4_main_arg6, h_R4_main_arg5, h_R4_main_arg0, h_R4_main_arg1, h_R4_main_arg7])
  have h_R5_main_arg3 : (StableHlo.after R5 (StableHlo.after R4 (StableHlo.after R3 (StableHlo.after R2 (StableHlo.after R1 M))))) (Proc.devRef .tc main_arg3) = (M (Proc.devRef .tc main_arg3)) :=
    (R_R5_main_arg3_keep (StableHlo.after R4 (StableHlo.after R3 (StableHlo.after R2 (StableHlo.after R1 M))))).trans h_R4_main_arg3
  have h_R6_main_arg9 : (StableHlo.after R6 (StableHlo.after R5 (StableHlo.after R4 (StableHlo.after R3 (StableHlo.after R2 (StableHlo.after R1 M)))))) (Proc.devRef .tc main_arg9) = (M (Proc.devRef .tc main_arg9)) :=
    (R_R6_main_arg9_keep (StableHlo.after R5 (StableHlo.after R4 (StableHlo.after R3 (StableHlo.after R2 (StableHlo.after R1 M)))))).trans h_R5_main_arg9
  have h_R6_main_arg8 : (StableHlo.after R6 (StableHlo.after R5 (StableHlo.after R4 (StableHlo.after R3 (StableHlo.after R2 (StableHlo.after R1 M)))))) (Proc.devRef .tc main_arg8) = (M (Proc.devRef .tc main_arg8)) :=
    (R_R6_main_arg8_keep (StableHlo.after R5 (StableHlo.after R4 (StableHlo.after R3 (StableHlo.after R2 (StableHlo.after R1 M)))))).trans h_R5_main_arg8
  have h_R6_main_arg4 : (StableHlo.after R6 (StableHlo.after R5 (StableHlo.after R4 (StableHlo.after R3 (StableHlo.after R2 (StableHlo.after R1 M)))))) (Proc.devRef .tc main_arg4) = (M (Proc.devRef .tc main_arg4)) :=
    (R_R6_main_arg4_keep (StableHlo.after R5 (StableHlo.after R4 (StableHlo.after R3 (StableHlo.after R2 (StableHlo.after R1 M)))))).trans h_R5_main_arg4
  have h_R6_main_v41 : (StableHlo.after R6 (StableHlo.after R5 (StableHlo.after R4 (StableHlo.after R3 (StableHlo.after R2 (StableHlo.after R1 M)))))) (Proc.devRef .tc main_v41) = (R_R4_main_v41 (R_R3_main_v37 (R_R1_main_v1 (M (Proc.devRef .tc main_arg6))) (R_R1_main_v5 (M (Proc.devRef .tc main_arg5))) (R_R2_main_v24 (R_R1_main_v19 (M (Proc.devRef .tc main_arg6)) (M (Proc.devRef .tc main_arg5)) (M (Proc.devRef .tc main_arg0)) (M (Proc.devRef .tc main_arg1)) (M (Proc.devRef .tc main_arg7))) (M (Proc.devRef .tc main_arg2)) (M (Proc.devRef .tc main_arg3))) (R_R1_main_v3 (M (Proc.devRef .tc main_arg7)))) (M (Proc.devRef .tc main_arg4))) :=
    (R_R6_main_v41_keep (StableHlo.after R5 (StableHlo.after R4 (StableHlo.after R3 (StableHlo.after R2 (StableHlo.after R1 M)))))).trans h_R5_main_v41
  have h_R6_main_v47 : (StableHlo.after R6 (StableHlo.after R5 (StableHlo.after R4 (StableHlo.after R3 (StableHlo.after R2 (StableHlo.after R1 M)))))) (Proc.devRef .tc main_v47) = (R_R5_main_v47 (M (Proc.devRef .tc main_arg5))) :=
    (R_R6_main_v47_keep (StableHlo.after R5 (StableHlo.after R4 (StableHlo.after R3 (StableHlo.after R2 (StableHlo.after R1 M)))))).trans h_R5_main_v47
  have h_R6_main_v45 : (StableHlo.after R6 (StableHlo.after R5 (StableHlo.after R4 (StableHlo.after R3 (StableHlo.after R2 (StableHlo.after R1 M)))))) (Proc.devRef .tc main_v45) = (R_R5_main_v45 (M (Proc.devRef .tc main_arg7))) :=
    (R_R6_main_v45_keep (StableHlo.after R5 (StableHlo.after R4 (StableHlo.after R3 (StableHlo.after R2 (StableHlo.after R1 M)))))).trans h_R5_main_v45
  have h_R6_main_v66 : (StableHlo.after R6 (StableHlo.after R5 (StableHlo.after R4 (StableHlo.after R3 (StableHlo.after R2 (StableHlo.after R1 M)))))) (Proc.devRef .tc main_v66) = (R_R6_main_v66 (R_R5_main_v61 (M (Proc.devRef .tc main_arg6)) (M (Proc.devRef .tc main_arg5)) (M (Proc.devRef .tc main_arg0)) (M (Proc.devRef .tc main_arg1)) (M (Proc.devRef .tc main_arg7))) (M (Proc.devRef .tc main_arg2)) (M (Proc.devRef .tc main_arg3))) :=
    (R_R6_main_v66_eval (StableHlo.after R5 (StableHlo.after R4 (StableHlo.after R3 (StableHlo.after R2 (StableHlo.after R1 M)))))).trans (by rw [h_R5_main_v61, h_R5_main_arg2, h_R5_main_arg3])
  have h_R6_main_v43 : (StableHlo.after R6 (StableHlo.after R5 (StableHlo.after R4 (StableHlo.after R3 (StableHlo.after R2 (StableHlo.after R1 M)))))) (Proc.devRef .tc main_v43) = (R_R5_main_v43 (M (Proc.devRef .tc main_arg6))) :=
    (R_R6_main_v43_keep (StableHlo.after R5 (StableHlo.after R4 (StableHlo.after R3 (StableHlo.after R2 (StableHlo.after R1 M)))))).trans h_R5_main_v43
  have h_R7_main_arg9 : (StableHlo.after R7 (StableHlo.after R6 (StableHlo.after R5 (StableHlo.after R4 (StableHlo.after R3 (StableHlo.after R2 (StableHlo.after R1 M))))))) (Proc.devRef .tc main_arg9) = (M (Proc.devRef .tc main_arg9)) :=
    (R_R7_main_arg9_keep (StableHlo.after R6 (StableHlo.after R5 (StableHlo.after R4 (StableHlo.after R3 (StableHlo.after R2 (StableHlo.after R1 M))))))).trans h_R6_main_arg9
  have h_R7_main_arg8 : (StableHlo.after R7 (StableHlo.after R6 (StableHlo.after R5 (StableHlo.after R4 (StableHlo.after R3 (StableHlo.after R2 (StableHlo.after R1 M))))))) (Proc.devRef .tc main_arg8) = (M (Proc.devRef .tc main_arg8)) :=
    (R_R7_main_arg8_keep (StableHlo.after R6 (StableHlo.after R5 (StableHlo.after R4 (StableHlo.after R3 (StableHlo.after R2 (StableHlo.after R1 M))))))).trans h_R6_main_arg8
  have h_R7_main_arg4 : (StableHlo.after R7 (StableHlo.after R6 (StableHlo.after R5 (StableHlo.after R4 (StableHlo.after R3 (StableHlo.after R2 (StableHlo.after R1 M))))))) (Proc.devRef .tc main_arg4) = (M (Proc.devRef .tc main_arg4)) :=
    (R_R7_main_arg4_keep (StableHlo.after R6 (StableHlo.after R5 (StableHlo.after R4 (StableHlo.after R3 (StableHlo.after R2 (StableHlo.after R1 M))))))).trans h_R6_main_arg4
  have h_R7_main_v79 : (StableHlo.after R7 (StableHlo.after R6 (StableHlo.after R5 (StableHlo.after R4 (StableHlo.after R3 (StableHlo.after R2 (StableHlo.after R1 M))))))) (Proc.devRef .tc main_v79) = (R_R7_main_v79 (R_R5_main_v43 (M (Proc.devRef .tc main_arg6))) (R_R5_main_v47 (M (Proc.devRef .tc main_arg5))) (R_R6_main_v66 (R_R5_main_v61 (M (Proc.devRef .tc main_arg6)) (M (Proc.devRef .tc main_arg5)) (M (Proc.devRef .tc main_arg0)) (M (Proc.devRef .tc main_arg1)) (M (Proc.devRef .tc main_arg7))) (M (Proc.devRef .tc main_arg2)) (M (Proc.devRef .tc main_arg3))) (R_R5_main_v45 (M (Proc.devRef .tc main_arg7)))) :=
    (R_R7_main_v79_eval (StableHlo.after R6 (StableHlo.after R5 (StableHlo.after R4 (StableHlo.after R3 (StableHlo.after R2 (StableHlo.after R1 M))))))).trans (by rw [h_R6_main_v43, h_R6_main_v47, h_R6_main_v66, h_R6_main_v45])
  have h_R7_main_v41 : (StableHlo.after R7 (StableHlo.after R6 (StableHlo.after R5 (StableHlo.after R4 (StableHlo.after R3 (StableHlo.after R2 (StableHlo.after R1 M))))))) (Proc.devRef .tc main_v41) = (R_R4_main_v41 (R_R3_main_v37 (R_R1_main_v1 (M (Proc.devRef .tc main_arg6))) (R_R1_main_v5 (M (Proc.devRef .tc main_arg5))) (R_R2_main_v24 (R_R1_main_v19 (M (Proc.devRef .tc main_arg6)) (M (Proc.devRef .tc main_arg5)) (M (Proc.devRef .tc main_arg0)) (M (Proc.devRef .tc main_arg1)) (M (Proc.devRef .tc main_arg7))) (M (Proc.devRef .tc main_arg2)) (M (Proc.devRef .tc main_arg3))) (R_R1_main_v3 (M (Proc.devRef .tc main_arg7)))) (M (Proc.devRef .tc main_arg4))) :=
    (R_R7_main_v41_keep (StableHlo.after R6 (StableHlo.after R5 (StableHlo.after R4 (StableHlo.after R3 (StableHlo.after R2 (StableHlo.after R1 M))))))).trans h_R6_main_v41
  have h_R8_main_arg9 : (StableHlo.after R8 (StableHlo.after R7 (StableHlo.after R6 (StableHlo.after R5 (StableHlo.after R4 (StableHlo.after R3 (StableHlo.after R2 (StableHlo.after R1 M)))))))) (Proc.devRef .tc main_arg9) = (M (Proc.devRef .tc main_arg9)) :=
    (R_R8_main_arg9_keep (StableHlo.after R7 (StableHlo.after R6 (StableHlo.after R5 (StableHlo.after R4 (StableHlo.after R3 (StableHlo.after R2 (StableHlo.after R1 M)))))))).trans h_R7_main_arg9
  have h_R8_main_arg8 : (StableHlo.after R8 (StableHlo.after R7 (StableHlo.after R6 (StableHlo.after R5 (StableHlo.after R4 (StableHlo.after R3 (StableHlo.after R2 (StableHlo.after R1 M)))))))) (Proc.devRef .tc main_arg8) = (M (Proc.devRef .tc main_arg8)) :=
    (R_R8_main_arg8_keep (StableHlo.after R7 (StableHlo.after R6 (StableHlo.after R5 (StableHlo.after R4 (StableHlo.after R3 (StableHlo.after R2 (StableHlo.after R1 M)))))))).trans h_R7_main_arg8
  have h_R8_main_v86 : (StableHlo.after R8 (StableHlo.after R7 (StableHlo.after R6 (StableHlo.after R5 (StableHlo.after R4 (StableHlo.after R3 (StableHlo.after R2 (StableHlo.after R1 M)))))))) (Proc.devRef .tc main_v86) = (R_R8_main_v86 (R_R4_main_v41 (R_R3_main_v37 (R_R1_main_v1 (M (Proc.devRef .tc main_arg6))) (R_R1_main_v5 (M (Proc.devRef .tc main_arg5))) (R_R2_main_v24 (R_R1_main_v19 (M (Proc.devRef .tc main_arg6)) (M (Proc.devRef .tc main_arg5)) (M (Proc.devRef .tc main_arg0)) (M (Proc.devRef .tc main_arg1)) (M (Proc.devRef .tc main_arg7))) (M (Proc.devRef .tc main_arg2)) (M (Proc.devRef .tc main_arg3))) (R_R1_main_v3 (M (Proc.devRef .tc main_arg7)))) (M (Proc.devRef .tc main_arg4))) (R_R7_main_v79 (R_R5_main_v43 (M (Proc.devRef .tc main_arg6))) (R_R5_main_v47 (M (Proc.devRef .tc main_arg5))) (R_R6_main_v66 (R_R5_main_v61 (M (Proc.devRef .tc main_arg6)) (M (Proc.devRef .tc main_arg5)) (M (Proc.devRef .tc main_arg0)) (M (Proc.devRef .tc main_arg1)) (M (Proc.devRef .tc main_arg7))) (M (Proc.devRef .tc main_arg2)) (M (Proc.devRef .tc main_arg3))) (R_R5_main_v45 (M (Proc.devRef .tc main_arg7)))) (M (Proc.devRef .tc main_arg4))) :=
    (R_R8_main_v86_eval (StableHlo.after R7 (StableHlo.after R6 (StableHlo.after R5 (StableHlo.after R4 (StableHlo.after R3 (StableHlo.after R2 (StableHlo.after R1 M)))))))).trans (by rw [h_R7_main_v41, h_R7_main_v79, h_R7_main_arg4])
  have h_T1_main_arg9 : (StableHlo.after T1 (StableHlo.after R8 (StableHlo.after R7 (StableHlo.after R6 (StableHlo.after R5 (StableHlo.after R4 (StableHlo.after R3 (StableHlo.after R2 (StableHlo.after R1 M))))))))) (Proc.devRef .tc main_arg9) = (M (Proc.devRef .tc main_arg9)) :=
    (R_T1_main_arg9_keep (StableHlo.after R8 (StableHlo.after R7 (StableHlo.after R6 (StableHlo.after R5 (StableHlo.after R4 (StableHlo.after R3 (StableHlo.after R2 (StableHlo.after R1 M))))))))).trans h_R8_main_arg9
  have h_T1_main_arg8 : (StableHlo.after T1 (StableHlo.after R8 (StableHlo.after R7 (StableHlo.after R6 (StableHlo.after R5 (StableHlo.after R4 (StableHlo.after R3 (StableHlo.after R2 (StableHlo.after R1 M))))))))) (Proc.devRef .tc main_arg8) = (M (Proc.devRef .tc main_arg8)) :=
    (R_T1_main_arg8_keep (StableHlo.after R8 (StableHlo.after R7 (StableHlo.after R6 (StableHlo.after R5 (StableHlo.after R4 (StableHlo.after R3 (StableHlo.after R2 (StableHlo.after R1 M))))))))).trans h_R8_main_arg8
  have h_T1_main_v93 : (StableHlo.after T1 (StableHlo.after R8 (StableHlo.after R7 (StableHlo.after R6 (StableHlo.after R5 (StableHlo.after R4 (StableHlo.after R3 (StableHlo.after R2 (StableHlo.after R1 M))))))))) (Proc.devRef .tc main_v93) = (R_T1_main_v93 (R_R8_main_v86 (R_R4_main_v41 (R_R3_main_v37 (R_R1_main_v1 (M (Proc.devRef .tc main_arg6))) (R_R1_main_v5 (M (Proc.devRef .tc main_arg5))) (R_R2_main_v24 (R_R1_main_v19 (M (Proc.devRef .tc main_arg6)) (M (Proc.devRef .tc main_arg5)) (M (Proc.devRef .tc main_arg0)) (M (Proc.devRef .tc main_arg1)) (M (Proc.devRef .tc main_arg7))) (M (Proc.devRef .tc main_arg2)) (M (Proc.devRef .tc main_arg3))) (R_R1_main_v3 (M (Proc.devRef .tc main_arg7)))) (M (Proc.devRef .tc main_arg4))) (R_R7_main_v79 (R_R5_main_v43 (M (Proc.devRef .tc main_arg6))) (R_R5_main_v47 (M (Proc.devRef .tc main_arg5))) (R_R6_main_v66 (R_R5_main_v61 (M (Proc.devRef .tc main_arg6)) (M (Proc.devRef .tc main_arg5)) (M (Proc.devRef .tc main_arg0)) (M (Proc.devRef .tc main_arg1)) (M (Proc.devRef .tc main_arg7))) (M (Proc.devRef .tc main_arg2)) (M (Proc.devRef .tc main_arg3))) (R_R5_main_v45 (M (Proc.devRef .tc main_arg7)))) (M (Proc.devRef .tc main_arg4))) (M (Proc.devRef .tc main_arg9))) :=
    (R_T1_main_v93_eval (StableHlo.after R8 (StableHlo.after R7 (StableHlo.after R6 (StableHlo.after R5 (StableHlo.after R4 (StableHlo.after R3 (StableHlo.after R2 (StableHlo.after R1 M))))))))).trans (by rw [h_R8_main_v86, h_R8_main_arg9])
  have h_T2_main_v94 : (StableHlo.after T2 (StableHlo.after T1 (StableHlo.after R8 (StableHlo.after R7 (StableHlo.after R6 (StableHlo.after R5 (StableHlo.after R4 (StableHlo.after R3 (StableHlo.after R2 (StableHlo.after R1 M)))))))))) (Proc.devRef .tc main_v94) = (R_T2_main_v94 (R_T1_main_v93 (R_R8_main_v86 (R_R4_main_v41 (R_R3_main_v37 (R_R1_main_v1 (M (Proc.devRef .tc main_arg6))) (R_R1_main_v5 (M (Proc.devRef .tc main_arg5))) (R_R2_main_v24 (R_R1_main_v19 (M (Proc.devRef .tc main_arg6)) (M (Proc.devRef .tc main_arg5)) (M (Proc.devRef .tc main_arg0)) (M (Proc.devRef .tc main_arg1)) (M (Proc.devRef .tc main_arg7))) (M (Proc.devRef .tc main_arg2)) (M (Proc.devRef .tc main_arg3))) (R_R1_main_v3 (M (Proc.devRef .tc main_arg7)))) (M (Proc.devRef .tc main_arg4))) (R_R7_main_v79 (R_R5_main_v43 (M (Proc.devRef .tc main_arg6))) (R_R5_main_v47 (M (Proc.devRef .tc main_arg5))) (R_R6_main_v66 (R_R5_main_v61 (M (Proc.devRef .tc main_arg6)) (M (Proc.devRef .tc main_arg5)) (M (Proc.devRef .tc main_arg0)) (M (Proc.devRef .tc main_arg1)) (M (Proc.devRef .tc main_arg7))) (M (Proc.devRef .tc main_arg2)) (M (Proc.devRef .tc main_arg3))) (R_R5_main_v45 (M (Proc.devRef .tc main_arg7)))) (M (Proc.devRef .tc main_arg4))) (M (Proc.devRef .tc main_arg9)))) :=
    (R_T2_main_v94_eval (StableHlo.after T1 (StableHlo.after R8 (StableHlo.after R7 (StableHlo.after R6 (StableHlo.after R5 (StableHlo.after R4 (StableHlo.after R3 (StableHlo.after R2 (StableHlo.after R1 M)))))))))).trans (by rw [h_T1_main_v93])
  have h_T2_main_arg9 : (StableHlo.after T2 (StableHlo.after T1 (StableHlo.after R8 (StableHlo.after R7 (StableHlo.after R6 (StableHlo.after R5 (StableHlo.after R4 (StableHlo.after R3 (StableHlo.after R2 (StableHlo.after R1 M)))))))))) (Proc.devRef .tc main_arg9) = (M (Proc.devRef .tc main_arg9)) :=
    (R_T2_main_arg9_keep (StableHlo.after T1 (StableHlo.after R8 (StableHlo.after R7 (StableHlo.after R6 (StableHlo.after R5 (StableHlo.after R4 (StableHlo.after R3 (StableHlo.after R2 (StableHlo.after R1 M)))))))))).trans h_T1_main_arg9
  have h_T2_main_arg8 : (StableHlo.after T2 (StableHlo.after T1 (StableHlo.after R8 (StableHlo.after R7 (StableHlo.after R6 (StableHlo.after R5 (StableHlo.after R4 (StableHlo.after R3 (StableHlo.after R2 (StableHlo.after R1 M)))))))))) (Proc.devRef .tc main_arg8) = (M (Proc.devRef .tc main_arg8)) :=
    (R_T2_main_arg8_keep (StableHlo.after T1 (StableHlo.after R8 (StableHlo.after R7 (StableHlo.after R6 (StableHlo.after R5 (StableHlo.after R4 (StableHlo.after R3 (StableHlo.after R2 (StableHlo.after R1 M)))))))))).trans h_T1_main_arg8
  have h_T3_main_v102 : (StableHlo.after T3 (StableHlo.after T2 (StableHlo.after T1 (StableHlo.after R8 (StableHlo.after R7 (StableHlo.after R6 (StableHlo.after R5 (StableHlo.after R4 (StableHlo.after R3 (StableHlo.after R2 (StableHlo.after R1 M))))))))))) (Proc.devRef .tc main_v102) = (R_T3_main_v102 (M (Proc.devRef .tc main_arg8)) (M (Proc.devRef .tc main_arg9))) :=
    (R_T3_main_v102_eval (StableHlo.after T2 (StableHlo.after T1 (StableHlo.after R8 (StableHlo.after R7 (StableHlo.after R6 (StableHlo.after R5 (StableHlo.after R4 (StableHlo.after R3 (StableHlo.after R2 (StableHlo.after R1 M))))))))))).trans (by rw [h_T2_main_arg8, h_T2_main_arg9])
  have h_T3_main_v94 : (StableHlo.after T3 (StableHlo.after T2 (StableHlo.after T1 (StableHlo.after R8 (StableHlo.after R7 (StableHlo.after R6 (StableHlo.after R5 (StableHlo.after R4 (StableHlo.after R3 (StableHlo.after R2 (StableHlo.after R1 M))))))))))) (Proc.devRef .tc main_v94) = (R_T2_main_v94 (R_T1_main_v93 (R_R8_main_v86 (R_R4_main_v41 (R_R3_main_v37 (R_R1_main_v1 (M (Proc.devRef .tc main_arg6))) (R_R1_main_v5 (M (Proc.devRef .tc main_arg5))) (R_R2_main_v24 (R_R1_main_v19 (M (Proc.devRef .tc main_arg6)) (M (Proc.devRef .tc main_arg5)) (M (Proc.devRef .tc main_arg0)) (M (Proc.devRef .tc main_arg1)) (M (Proc.devRef .tc main_arg7))) (M (Proc.devRef .tc main_arg2)) (M (Proc.devRef .tc main_arg3))) (R_R1_main_v3 (M (Proc.devRef .tc main_arg7)))) (M (Proc.devRef .tc main_arg4))) (R_R7_main_v79 (R_R5_main_v43 (M (Proc.devRef .tc main_arg6))) (R_R5_main_v47 (M (Proc.devRef .tc main_arg5))) (R_R6_main_v66 (R_R5_main_v61 (M (Proc.devRef .tc main_arg6)) (M (Proc.devRef .tc main_arg5)) (M (Proc.devRef .tc main_arg0)) (M (Proc.devRef .tc main_arg1)) (M (Proc.devRef .tc main_arg7))) (M (Proc.devRef .tc main_arg2)) (M (Proc.devRef .tc main_arg3))) (R_R5_main_v45 (M (Proc.devRef .tc main_arg7)))) (M (Proc.devRef .tc main_arg4))) (M (Proc.devRef .tc main_arg9)))) :=
    (R_T3_main_v94_keep (StableHlo.after T2 (StableHlo.after T1 (StableHlo.after R8 (StableHlo.after R7 (StableHlo.after R6 (StableHlo.after R5 (StableHlo.after R4 (StableHlo.after R3 (StableHlo.after R2 (StableHlo.after R1 M))))))))))).trans h_T2_main_v94
  have h_T4_main_v103 : (StableHlo.after T4 (StableHlo.after T3 (StableHlo.after T2 (StableHlo.after T1 (StableHlo.after R8 (StableHlo.after R7 (StableHlo.after R6 (StableHlo.after R5 (StableHlo.after R4 (StableHlo.after R3 (StableHlo.after R2 (StableHlo.after R1 M)))))))))))) (Proc.devRef .tc main_v103) = (R_T4_main_v103 (R_T3_main_v102 (M (Proc.devRef .tc main_arg8)) (M (Proc.devRef .tc main_arg9))) (R_T2_main_v94 (R_T1_main_v93 (R_R8_main_v86 (R_R4_main_v41 (R_R3_main_v37 (R_R1_main_v1 (M (Proc.devRef .tc main_arg6))) (R_R1_main_v5 (M (Proc.devRef .tc main_arg5))) (R_R2_main_v24 (R_R1_main_v19 (M (Proc.devRef .tc main_arg6)) (M (Proc.devRef .tc main_arg5)) (M (Proc.devRef .tc main_arg0)) (M (Proc.devRef .tc main_arg1)) (M (Proc.devRef .tc main_arg7))) (M (Proc.devRef .tc main_arg2)) (M (Proc.devRef .tc main_arg3))) (R_R1_main_v3 (M (Proc.devRef .tc main_arg7)))) (M (Proc.devRef .tc main_arg4))) (R_R7_main_v79 (R_R5_main_v43 (M (Proc.devRef .tc main_arg6))) (R_R5_main_v47 (M (Proc.devRef .tc main_arg5))) (R_R6_main_v66 (R_R5_main_v61 (M (Proc.devRef .tc main_arg6)) (M (Proc.devRef .tc main_arg5)) (M (Proc.devRef .tc main_arg0)) (M (Proc.devRef .tc main_arg1)) (M (Proc.devRef .tc main_arg7))) (M (Proc.devRef .tc main_arg2)) (M (Proc.devRef .tc main_arg3))) (R_R5_main_v45 (M (Proc.devRef .tc main_arg7)))) (M (Proc.devRef .tc main_arg4))) (M (Proc.devRef .tc main_arg9))))) :=
    (R_T4_main_v103_eval (StableHlo.after T3 (StableHlo.after T2 (StableHlo.after T1 (StableHlo.after R8 (StableHlo.after R7 (StableHlo.after R6 (StableHlo.after R5 (StableHlo.after R4 (StableHlo.after R3 (StableHlo.after R2 (StableHlo.after R1 M)))))))))))).trans (by rw [h_T3_main_v102, h_T3_main_v94])
  have h_T5_main_v107 : (StableHlo.after T5 (StableHlo.after T4 (StableHlo.after T3 (StableHlo.after T2 (StableHlo.after T1 (StableHlo.after R8 (StableHlo.after R7 (StableHlo.after R6 (StableHlo.after R5 (StableHlo.after R4 (StableHlo.after R3 (StableHlo.after R2 (StableHlo.after R1 M))))))))))))) (Proc.devRef .tc main_v107) = (R_T5_main_v107 (R_T4_main_v103 (R_T3_main_v102 (M (Proc.devRef .tc main_arg8)) (M (Proc.devRef .tc main_arg9))) (R_T2_main_v94 (R_T1_main_v93 (R_R8_main_v86 (R_R4_main_v41 (R_R3_main_v37 (R_R1_main_v1 (M (Proc.devRef .tc main_arg6))) (R_R1_main_v5 (M (Proc.devRef .tc main_arg5))) (R_R2_main_v24 (R_R1_main_v19 (M (Proc.devRef .tc main_arg6)) (M (Proc.devRef .tc main_arg5)) (M (Proc.devRef .tc main_arg0)) (M (Proc.devRef .tc main_arg1)) (M (Proc.devRef .tc main_arg7))) (M (Proc.devRef .tc main_arg2)) (M (Proc.devRef .tc main_arg3))) (R_R1_main_v3 (M (Proc.devRef .tc main_arg7)))) (M (Proc.devRef .tc main_arg4))) (R_R7_main_v79 (R_R5_main_v43 (M (Proc.devRef .tc main_arg6))) (R_R5_main_v47 (M (Proc.devRef .tc main_arg5))) (R_R6_main_v66 (R_R5_main_v61 (M (Proc.devRef .tc main_arg6)) (M (Proc.devRef .tc main_arg5)) (M (Proc.devRef .tc main_arg0)) (M (Proc.devRef .tc main_arg1)) (M (Proc.devRef .tc main_arg7))) (M (Proc.devRef .tc main_arg2)) (M (Proc.devRef .tc main_arg3))) (R_R5_main_v45 (M (Proc.devRef .tc main_arg7)))) (M (Proc.devRef .tc main_arg4))) (M (Proc.devRef .tc main_arg9)))))) :=
    (R_T5_main_v107_eval (StableHlo.after T4 (StableHlo.after T3 (StableHlo.after T2 (StableHlo.after T1 (StableHlo.after R8 (StableHlo.after R7 (StableHlo.after R6 (StableHlo.after R5 (StableHlo.after R4 (StableHlo.after R3 (StableHlo.after R2 (StableHlo.after R1 M))))))))))))).trans (by rw [h_T4_main_v103])
  exact h_T5_main_v107

set_option maxHeartbeats 4000000 in
/-- The run: the result at `rval` of the arguments as launched, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v107) = rval (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v107).trans (value (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_raw m ρ)

end Cert.Gcn.RValue

end
-- ==== Proof.LibHostDotSum.lean ====
/-
  The host's matrix product  [n, K] x [K, w] -> [n, w]  (a dot_general contracting the left operand's axis 1 with the
  right operand's axis 0) at the ideal values, read at entry (p, q): the sum over k < K of left(p, k) * right(k, q), for any
  sizes and whichever record of dimension numbers spells the product (the six index facts of a plain product).
-/
import proofs.«172191_j33054068310209_1_alg».proof.Proof.LibMatmulSum

noncomputable section

namespace Cert.LibMatmulSum

open Idealize.ShloMosaic Idealize.ShloMosaic.ValueIdx

/-- The host's plain matrix product at entry (p, q). -/
theorem hostDot_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    Host.dotGeneral d prec l r (ix2 p q) = ∑ k : Fin K, l (ix2 p k) * r (ix2 k q) := by
  simp only [Host.dotGeneral]
  rw [Ideal.dotGeneral_apply]
  exact sum_eq hd l r p q

end Cert.LibMatmulSum

end
-- ==== Proof.RefMm.lean ====
/-
  The reference's first product, read at an entry.  The host's dot_general of the [100000, 256] feature matrix with
  the [256, 128] weight matrix contracts the left operand's axis 1 with the right operand's axis 0, with no batch
  axes; entry (p, q) of the result is the sum over k < 256 of x0(p, k) · x1(k, q), which is the specification's matrix
  product.
-/
import proofs.«172191_j33054068310209_1_alg».proof.ReferenceIdeal
import proofs.«172191_j33054068310209_1_alg».proof.Proof.Spec
import proofs.«172191_j33054068310209_1_alg».proof.Proof.LibMatmulSum
import proofs.«172191_j33054068310209_1_alg».proof.Proof.LibPlainLists
import proofs.«172191_j33054068310209_1_alg».proof.Proof.LibHostDotSum

noncomputable section

namespace Cert.Gcn.RefMm

open Idealize.ShloMosaic Idealize.ShloMosaic.ValueIdx Cert.ReferenceIdeal

variable [Facts₀]

/-- The host's product of the features with the first weight matrix is the matrix product: at entry (p, q), the sum
    over the contracted position k of x0(p, k) · x1(k, q). -/
theorem dot1_eq (x0 : FVec Ideal S100000x256 .f32) (x1 : FVec Ideal S256x128 .f32) :
    Host.dotGeneral (F := Ideal) dot_S100000x256_S256x128_S100000x128_1_0_0_1_n_n none x0 x1
      = Cert.Gcn.mm x0 x1 := by
  funext i
  obtain ⟨p, q, rfl⟩ : ∃ (p : Fin 100000) (q : Fin 128), i = ix2 p q := ⟨i 0, i 1, eq_ix2 i⟩
  rw [Cert.Gcn.mm_apply]
  exact Cert.LibMatmulSum.hostDot_at
    (Cert.LibMatmulSum.Plain.of_lists dot_S100000x256_S256x128_S100000x128_1_0_0_1_n_n rfl rfl rfl rfl rfl rfl)
    none x0 x1 p q

end Cert.Gcn.RefMm

end
-- ==== Proof.LibHostRow.lean ====
/-
  A bias vector on the host, read at an entry, for any sizes and element type: a one-row matrix [1, b] repeated down
  a rows by broadcast_in_dim (dims [0, 1]) reads at (p, c) the row's entry c; a length-b vector laid as a [1, b] row by
  broadcast_in_dim (dims [1]) reads at (u, c) the vector's entry c; and a length-b vector CAST (reshaped) to a [1, b]
  row is that same row, so a kernel fed `b.reshape(1, d)` and a reference that broadcasts `b` see one array.
-/
import Idealize.ShloMosaic.Lib.Pipeline.Value
import Idealize.ShloMosaic.Lib.ValueIdx
import Idealize.ShloMosaic.Lib.ValueLayout

namespace Cert.LibHostRow

open Idealize.ShloMosaic Idealize.ShloMosaic.ValueIdx

variable {α : Type}

/-- A `[1, b]` array repeated down `a` rows by the host reads, at `(p, c)`, the one row at `c`. -/
theorem bcastRows_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A length-`b` vector laid as a `[1, b]` row by the host reads, at `(u, c)`, the vector's entry `c`. -/
theorem bcastRow_apply {b : ℕ} (v : (⟨1, ![b]⟩ : Shape).Idx → α)
    (h : (⟨1, ![b]⟩ : Shape).BroadcastsInDim ⟨2, ![1, b]⟩ (![1] : Fin 1 → Fin 2))
    (u : Fin 1) (c : Fin b) : broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A length-`b` vector cast to a `[1, b]` row is the host's laying of it as a row: both read the vector's entry in
    that column. -/
theorem castRow_eq_bcastRow {b : ℕ} (v : (⟨1, ![b]⟩ : Shape).Idx → α)
    (h : (⟨1, ![b]⟩ : Shape).ShapeCasts ⟨2, ![1, b]⟩)
    (h' : (⟨1, ![b]⟩ : Shape).BroadcastsInDim ⟨2, ![1, b]⟩ (![1] : Fin 1 → Fin 2)) :
    shapeCast ⟨2, ![1, b]⟩ v h = broadcastInDim ⟨2, ![1, b]⟩ ![1] h' v := by
  funext j
  obtain ⟨u, c, rfl⟩ : ∃ (u : Fin 1) (c : Fin b), j = ix2 u c := ⟨j 0, j 1, eq_ix2 j⟩
  rw [shapeCast_a_1a_apply, bcastRow_apply]

end Cert.LibHostRow
-- ==== Proof.RefDense.lean ====
/-
  The reference's second product applied to the positive part of (aggregate + bias row), read entry by entry: the
  host's matrix product at (p, q) is the sum over k < 128 of left(p, k) * right(k, q); the left operand at (p, k) is
  the maximum of s(p, k) + (the bias vector laid as a row, repeated down the rows)(p, k) and the zero word broadcast
  from a scalar; the repeated row reads the row at (0, k).  That is the dense layer of the specification at the bias
  row.
-/
import proofs.«172191_j33054068310209_1_alg».proof.ReferenceIdeal
import proofs.«172191_j33054068310209_1_alg».proof.Proof.Spec
import proofs.«172191_j33054068310209_1_alg».proof.Proof.LibMatmulSum
import proofs.«172191_j33054068310209_1_alg».proof.Proof.LibPlainLists
import proofs.«172191_j33054068310209_1_alg».proof.Proof.LibHostDotSum
import proofs.«172191_j33054068310209_1_alg».proof.Proof.LibHostRow
import Idealize.ShloMosaic.Lib.IdealHost

noncomputable section

namespace Cert.Gcn.RefDense

open Idealize.ShloMosaic Idealize.ShloMosaic.ValueIdx
open Cert.ReferenceIdeal Cert.ReferenceIdeal.Facts₀

variable [Facts₀]

/-- The reference's layer: dot_general of relu(s + bias rows) with the weight is the dense layer at the bias row. -/
theorem layer_eq (s : S100000x128.Idx → EReal) (x2 : S128.Idx → EReal) (x3 : S128x10.Idx → EReal) :
    Host.dotGeneral (F := Ideal) (φ₁ := .f32) (φ₂ := .f32) dot_S100000x128_S128x10_S100000x10_1_0_0_1_n_n none
        (maximumf (F := Ideal) (φ := .f32)
          (addf (F := Ideal) (φ := .f32) s
            (broadcastInDim S100000x128 ![0, 1] bcast_S1x128_S100000x128_0_1 (broadcastInDim S1x128 ![1] bcast_S128_S1x128_1 x2)))
          (broadcastInDim S100000x128 ![] bcast_S_S100000x128 (constant (F := Ideal) S_ .f32 0x00000000#32)))
        x3
      = Cert.Gcn.dense s (broadcastInDim S1x128 ![1] bcast_S128_S1x128_1 x2) x3 := by
  funext i
  obtain ⟨p, q, rfl⟩ : ∃ (p : Fin 100000) (q : Fin 10), i = ix2 p q := ⟨i 0, i 1, eq_ix2 i⟩
  refine (Cert.LibMatmulSum.hostDot_at
    (Cert.LibMatmulSum.Plain.of_lists dot_S100000x128_S128x10_S100000x10_1_0_0_1_n_n rfl rfl rfl rfl rfl rfl) none _ _ p q).trans ?_
  refine Eq.trans ?_ (Cert.Gcn.dense_apply _ _ _ p q).symm
  refine Finset.sum_congr rfl fun k _ => ?_
  rw [maximumf_apply, addf_apply, Cert.LibHostRow.bcastRows_apply, broadcastInDim_scalar_apply]
  rfl

end Cert.Gcn.RefDense

end
-- ==== Proof.Consts.lean ====
/- The float constants of the mean step, as the extended reals their patterns denote at `Ideal`:
   the pattern of `0.5` denotes the real `1 / 2`, the pattern of `2.0` denotes the real `2`, and
   dividing any extended real by the second is multiplying it by the first. The last law needs no
   finiteness: it holds at both infinities as well. -/
import Idealize.ShloMosaic.PureOps.Ideal

noncomputable section

namespace Cert.Gcn.Consts

open Idealize.ShloMosaic

/-- The pattern of `0.5` denotes the real `1 / 2`. -/
theorem ofBits_half : Ideal.ofBits .f32 0x3F000000#32 = ((1 / 2 : ℝ) : EReal) := by
  simp [Ideal.ofBits, Ideal.ieee, -EReal.coe_mul]; norm_num

/-- The pattern of `2.0` denotes the real `2`. -/
theorem ofBits_two : Ideal.ofBits .f32 0x40000000#32 = ((2 : ℝ) : EReal) := by
  simp [Ideal.ofBits, Ideal.ieee, -EReal.coe_mul]; norm_num

/-- Dividing by `2.0` is multiplying by `0.5`, for every extended real `y`: the quotient by a nonzero
    real `r` is the product with `1 / r`. -/
theorem div_two (y : EReal) :
    Ideal.div y (Ideal.ofBits .f32 0x40000000#32) = y * Ideal.ofBits .f32 0x3F000000#32 := by
  rw [ofBits_two, ofBits_half]
  exact Ideal.div_coe (two_ne_zero) y

end Cert.Gcn.Consts

end
-- ==== Proof.RefMean.lean ====
/-
  The reference's last host step, read at an entry.  The bias vector is laid as a one-row matrix and repeated down
  the rows; each view's aggregation gets the bias row added and keeps its positive part (the maximum with the zero
  word spread over the array); the two views are added and the sum is divided by the constant 2.0 spread over the
  array.  Entry (p, q) of the result is therefore

      (max (s0(p,q) + b(q)) 0 + max (s1(p,q) + b(q)) 0) / 2,

  and dividing an extended real by 2.0 is multiplying it by 0.5 (infinities included), which is the specification's
  mean of the two views.
-/
import proofs.«172191_j33054068310209_1_alg».proof.ReferenceIdeal
import proofs.«172191_j33054068310209_1_alg».proof.Proof.Spec
import proofs.«172191_j33054068310209_1_alg».proof.Proof.Consts
import proofs.«172191_j33054068310209_1_alg».proof.Proof.LibHostRow
import Idealize.ShloMosaic.Lib.IdealHost

noncomputable section

namespace Cert.Gcn.RefMean

open Idealize.ShloMosaic Idealize.ShloMosaic.ValueIdx Cert.ReferenceIdeal

variable [Facts₀]
open Facts₀

/-- The bias vector as a one-row matrix, repeated down the 100000 rows, reads at (p, q) the row's entry q. -/
theorem biasRows_apply (x4 : FVec Ideal S10 .f32) (p : Fin 100000) (q : Fin 10) :
    broadcastInDim S100000x10 ![0, 1] bcast_S1x10_S100000x10_0_1
        (broadcastInDim S1x10 ![1] bcast_S10_S1x10_1 x4) (ix2 p q)
      = broadcastInDim S1x10 ![1] bcast_S10_S1x10_1 x4 (ix2 (0 : Fin 1) q) :=
  Cert.LibHostRow.bcastRows_apply _ bcast_S1x10_S100000x10_0_1 p q

/-- A float constant spread from a scalar over the whole array reads the constant's value at every entry. -/
theorem spread_apply (w : BitVec 32) (i : S100000x10.Idx) :
    broadcastInDim S100000x10 ![] bcast_S_S100000x10 (constant (F := Ideal) S_ .f32 w) i
      = Ideal.ofBits .f32 w :=
  broadcastInDim_scalar_apply bcast_S_S100000x10 _ i

/-- The reference's mean step is the specification's: bias row, add, positive part per view, add the views,
    divide by 2.0. -/
theorem mean_eq (s0 s1 : FVec Ideal S100000x10 .f32) (x4 : FVec Ideal S10 .f32) :
    Host.divf (F := Ideal)
        (addf
          (maximumf
            (addf s0 (broadcastInDim S100000x10 ![0, 1] bcast_S1x10_S100000x10_0_1
              (broadcastInDim S1x10 ![1] bcast_S10_S1x10_1 x4)))
            (broadcastInDim S100000x10 ![] bcast_S_S100000x10 (constant (F := Ideal) S_ .f32 0x00000000#32)))
          (maximumf
            (addf s1 (broadcastInDim S100000x10 ![0, 1] bcast_S1x10_S100000x10_0_1
              (broadcastInDim S1x10 ![1] bcast_S10_S1x10_1 x4)))
            (broadcastInDim S100000x10 ![] bcast_S_S100000x10 (constant (F := Ideal) S_ .f32 0x00000000#32))))
        (broadcastInDim S100000x10 ![] bcast_S_S100000x10 (constant (F := Ideal) S_ .f32 0x40000000#32))
      = Cert.Gcn.mean2 s0 s1 (broadcastInDim S1x10 ![1] bcast_S10_S1x10_1 x4) := by
  funext i
  obtain ⟨p, q, rfl⟩ : ∃ (p : Fin 100000) (q : Fin 10), i = ix2 p q := ⟨i 0, i 1, eq_ix2 i⟩
  rw [Cert.Gcn.mean2_apply, hostDivf_apply, addf_apply, maximumf_apply, maximumf_apply, addf_apply, addf_apply,
    spread_apply, spread_apply, biasRows_apply, Cert.Gcn.Consts.div_two]

end Cert.Gcn.RefMean

end
-- ==== Proof.Bridge.lean ====
/-
  The two programs compute one function.  Piece by piece the reference's host operations are the kernel's (the same
  operations on the same arrays), and where the kernel runs a grid region the reference runs host operations that
  compute the region's whole-array function: its first product is the matrix product; its second product applied to
  the positive part of (aggregate + bias row) is the dense layer; and (relu + relu) / 2 is (relu + relu) · ½, a law
  that holds for every extended real.  A bias vector reshaped to one row and the same vector broadcast to one row are
  one array.
-/
import proofs.«172191_j33054068310209_1_alg».proof.Proof.Spec
import proofs.«172191_j33054068310209_1_alg».proof.Proof.KHost
import proofs.«172191_j33054068310209_1_alg».proof.Proof.RHost
import proofs.«172191_j33054068310209_1_alg».proof.Proof.KValue
import proofs.«172191_j33054068310209_1_alg».proof.Proof.RValue
import proofs.«172191_j33054068310209_1_alg».proof.Proof.RefMm
import proofs.«172191_j33054068310209_1_alg».proof.Proof.RefDense
import proofs.«172191_j33054068310209_1_alg».proof.Proof.RefMean
import proofs.«172191_j33054068310209_1_alg».proof.Proof.LibHostRow

set_option maxRecDepth 16384

noncomputable section

namespace Cert.Gcn.Bridge

open Idealize.ShloMosaic

/-! ## The same host operations in both programs -/

theorem R_R1_main_v1_eq (a0 : (⟨Cert.ReferenceIdeal.S2x1600000, .i32⟩ : BufTy).Contents (Elt Ideal)) :
    Cert.Gcn.RHost.R_R1_main_v1 (F := Ideal) a0 = Cert.Gcn.KHost.K_h1_main_v4 (F := Ideal) a0 := rfl

theorem R_R1_main_v5_eq (a0 : (⟨Cert.ReferenceIdeal.S2x1600000, .f32⟩ : BufTy).Contents (Elt Ideal)) :
    Cert.Gcn.RHost.R_R1_main_v5 (F := Ideal) a0 = Cert.Gcn.KHost.K_h1_main_v8 (F := Ideal) a0 := rfl

theorem R_R1_main_v3_eq (a0 : (⟨Cert.ReferenceIdeal.S2x1600000, .i32⟩ : BufTy).Contents (Elt Ideal)) :
    Cert.Gcn.RHost.R_R1_main_v3 (F := Ideal) a0 = Cert.Gcn.KHost.K_h1_main_v6 (F := Ideal) a0 := rfl

theorem R_R5_main_v43_eq (a0 : (⟨Cert.ReferenceIdeal.S2x1600000, .i32⟩ : BufTy).Contents (Elt Ideal)) :
    Cert.Gcn.RHost.R_R5_main_v43 (F := Ideal) a0 = Cert.Gcn.KHost.K_h2_main_v37 (F := Ideal) a0 := rfl

theorem R_R5_main_v47_eq (a0 : (⟨Cert.ReferenceIdeal.S2x1600000, .f32⟩ : BufTy).Contents (Elt Ideal)) :
    Cert.Gcn.RHost.R_R5_main_v47 (F := Ideal) a0 = Cert.Gcn.KHost.K_h2_main_v41 (F := Ideal) a0 := rfl

theorem R_R5_main_v45_eq (a0 : (⟨Cert.ReferenceIdeal.S2x1600000, .i32⟩ : BufTy).Contents (Elt Ideal)) :
    Cert.Gcn.RHost.R_R5_main_v45 (F := Ideal) a0 = Cert.Gcn.KHost.K_h2_main_v39 (F := Ideal) a0 := rfl

theorem R_R3_main_v37_eq (a0 : (⟨Cert.ReferenceIdeal.S1600000, .i32⟩ : BufTy).Contents (Elt Ideal)) (a1 : (⟨Cert.ReferenceIdeal.S1600000, .f32⟩ : BufTy).Contents (Elt Ideal)) (a2 : (⟨Cert.ReferenceIdeal.S100000x10, .f32⟩ : BufTy).Contents (Elt Ideal)) (a3 : (⟨Cert.ReferenceIdeal.S1600000, .i32⟩ : BufTy).Contents (Elt Ideal)) :
    Cert.Gcn.RHost.R_R3_main_v37 (F := Ideal) a0 a1 a2 a3 = Cert.Gcn.KHost.K_h2_main_v35 (F := Ideal) a0 a1 a2 a3 := rfl

theorem R_R7_main_v79_eq (a0 : (⟨Cert.ReferenceIdeal.S1600000, .i32⟩ : BufTy).Contents (Elt Ideal)) (a1 : (⟨Cert.ReferenceIdeal.S1600000, .f32⟩ : BufTy).Contents (Elt Ideal)) (a2 : (⟨Cert.ReferenceIdeal.S100000x10, .f32⟩ : BufTy).Contents (Elt Ideal)) (a3 : (⟨Cert.ReferenceIdeal.S1600000, .i32⟩ : BufTy).Contents (Elt Ideal)) :
    Cert.Gcn.RHost.R_R7_main_v79 (F := Ideal) a0 a1 a2 a3 = Cert.Gcn.KHost.K_h3_main_v68 (F := Ideal) a0 a1 a2 a3 := rfl

theorem R_T1_main_v93_eq (a0 : (⟨Cert.ReferenceIdeal.S100000x10, .f32⟩ : BufTy).Contents (Elt Ideal)) (a1 : (⟨Cert.ReferenceIdeal.S5000, .i32⟩ : BufTy).Contents (Elt Ideal)) :
    Cert.Gcn.RHost.R_T1_main_v93 (F := Ideal) a0 a1 = Cert.Gcn.KHost.K_t1_main_v76 (F := Ideal) a0 a1 := rfl

theorem R_T2_main_v94_eq (a0 : (⟨Cert.ReferenceIdeal.S5000x10, .f32⟩ : BufTy).Contents (Elt Ideal)) :
    Cert.Gcn.RHost.R_T2_main_v94 (F := Ideal) a0 = Cert.Gcn.KHost.K_t2_main_v77 (F := Ideal) a0 := rfl

theorem R_T3_main_v102_eq (a0 : (⟨Cert.ReferenceIdeal.S100000, .i32⟩ : BufTy).Contents (Elt Ideal)) (a1 : (⟨Cert.ReferenceIdeal.S5000, .i32⟩ : BufTy).Contents (Elt Ideal)) :
    Cert.Gcn.RHost.R_T3_main_v102 (F := Ideal) a0 a1 = Cert.Gcn.KHost.K_t3_main_v85 (F := Ideal) a0 a1 := rfl

theorem R_T4_main_v103_eq (a0 : (⟨Cert.ReferenceIdeal.S5000x1, .i32⟩ : BufTy).Contents (Elt Ideal)) (a1 : (⟨Cert.ReferenceIdeal.S5000x10, .f32⟩ : BufTy).Contents (Elt Ideal)) :
    Cert.Gcn.RHost.R_T4_main_v103 (F := Ideal) a0 a1 = Cert.Gcn.KHost.K_t4_main_v86 (F := Ideal) a0 a1 := rfl

theorem R_T5_main_v107_eq (a0 : (⟨Cert.ReferenceIdeal.S5000x1, .f32⟩ : BufTy).Contents (Elt Ideal)) :
    Cert.Gcn.RHost.R_T5_main_v107 (F := Ideal) a0 = Cert.Gcn.KHost.K_t5_main_v90 (F := Ideal) a0 := rfl

/-! ## Where the kernel has a grid region -/

/-- A bias vector of 128 entries reshaped to one row is the vector broadcast to one row. -/
theorem row128 (x2 : (⟨Cert.ReferenceIdeal.S128, .f32⟩ : BufTy).Contents (Elt Ideal)) :
    Cert.Gcn.KHost.K_h1_main_v1 (F := Ideal) x2
      = broadcastInDim Cert.ReferenceIdeal.S1x128 ![1] Cert.ReferenceIdeal.Gen.facts₀.bcast_S128_S1x128_1 x2 :=
  Cert.LibHostRow.castRow_eq_bcastRow x2 _ _

/-- The same for the 10-entry bias. -/
theorem row10 (x4 : (⟨Cert.ReferenceIdeal.S10, .f32⟩ : BufTy).Contents (Elt Ideal)) :
    Cert.Gcn.KHost.K_h1_main_v2 (F := Ideal) x4
      = broadcastInDim Cert.ReferenceIdeal.S1x10 ![1] Cert.ReferenceIdeal.Gen.facts₀.bcast_S10_S1x10_1 x4 :=
  Cert.LibHostRow.castRow_eq_bcastRow x4 _ _

/-- First view: the reference's aggregation of its first product is the kernel's aggregation of the matrix product. -/
theorem agg0 (x6 : (⟨Cert.ReferenceIdeal.S2x1600000, .i32⟩ : BufTy).Contents (Elt Ideal)) (x5 : (⟨Cert.ReferenceIdeal.S2x1600000, .f32⟩ : BufTy).Contents (Elt Ideal)) (x0 : (⟨Cert.ReferenceIdeal.S100000x256, .f32⟩ : BufTy).Contents (Elt Ideal)) (x1 : (⟨Cert.ReferenceIdeal.S256x128, .f32⟩ : BufTy).Contents (Elt Ideal)) (x7 : (⟨Cert.ReferenceIdeal.S2x1600000, .i32⟩ : BufTy).Contents (Elt Ideal)) :
    Cert.Gcn.RHost.R_R1_main_v19 (F := Ideal) x6 x5 x0 x1 x7 = Cert.Gcn.KHost.K_h1_main_v21 (F := Ideal) x6 x5 (Cert.Gcn.mm x0 x1) x7 := by
  rw [← Cert.Gcn.RefMm.dot1_eq x0 x1]; rfl

/-- Second view, likewise. -/
theorem agg1 (x6 : (⟨Cert.ReferenceIdeal.S2x1600000, .i32⟩ : BufTy).Contents (Elt Ideal)) (x5 : (⟨Cert.ReferenceIdeal.S2x1600000, .f32⟩ : BufTy).Contents (Elt Ideal)) (x0 : (⟨Cert.ReferenceIdeal.S100000x256, .f32⟩ : BufTy).Contents (Elt Ideal)) (x1 : (⟨Cert.ReferenceIdeal.S256x128, .f32⟩ : BufTy).Contents (Elt Ideal)) (x7 : (⟨Cert.ReferenceIdeal.S2x1600000, .i32⟩ : BufTy).Contents (Elt Ideal)) :
    Cert.Gcn.RHost.R_R5_main_v61 (F := Ideal) x6 x5 x0 x1 x7 = Cert.Gcn.KHost.K_h2_main_v54 (F := Ideal) x6 x5 (Cert.Gcn.mm x0 x1) x7 := by
  rw [← Cert.Gcn.RefMm.dot1_eq x0 x1]; rfl

/-- First view: bias, positive part and the second product are the dense layer. -/
theorem layer0 (s : (⟨Cert.ReferenceIdeal.S100000x128, .f32⟩ : BufTy).Contents (Elt Ideal)) (x2 : (⟨Cert.ReferenceIdeal.S128, .f32⟩ : BufTy).Contents (Elt Ideal)) (x3 : (⟨Cert.ReferenceIdeal.S128x10, .f32⟩ : BufTy).Contents (Elt Ideal)) :
    Cert.Gcn.RHost.R_R2_main_v24 (F := Ideal) s x2 x3 = Cert.Gcn.dense s (Cert.Gcn.KHost.K_h1_main_v1 (F := Ideal) x2) x3 := by
  rw [row128]; exact Cert.Gcn.RefDense.layer_eq s x2 x3

/-- Second view, likewise. -/
theorem layer1 (s : (⟨Cert.ReferenceIdeal.S100000x128, .f32⟩ : BufTy).Contents (Elt Ideal)) (x2 : (⟨Cert.ReferenceIdeal.S128, .f32⟩ : BufTy).Contents (Elt Ideal)) (x3 : (⟨Cert.ReferenceIdeal.S128x10, .f32⟩ : BufTy).Contents (Elt Ideal)) :
    Cert.Gcn.RHost.R_R6_main_v66 (F := Ideal) s x2 x3 = Cert.Gcn.dense s (Cert.Gcn.KHost.K_h1_main_v1 (F := Ideal) x2) x3 := by
  rw [row128]; exact Cert.Gcn.RefDense.layer_eq s x2 x3

/-- The mean of the two views: the sum of the positive parts divided by two is their sum times one half. -/
theorem mean (s0 : (⟨Cert.ReferenceIdeal.S100000x10, .f32⟩ : BufTy).Contents (Elt Ideal)) (s1 : (⟨Cert.ReferenceIdeal.S100000x10, .f32⟩ : BufTy).Contents (Elt Ideal)) (x4 : (⟨Cert.ReferenceIdeal.S10, .f32⟩ : BufTy).Contents (Elt Ideal)) :
    Cert.Gcn.RHost.R_R8_main_v86 (F := Ideal) (Cert.Gcn.RHost.R_R4_main_v41 (F := Ideal) s0 x4) s1 x4
      = Cert.Gcn.mean2 s0 s1 (Cert.Gcn.KHost.K_h1_main_v2 (F := Ideal) x4) := by
  rw [row10]; exact Cert.Gcn.RefMean.mean_eq s0 s1 x4

/-! ## The two results -/

/-- The kernel's result and the reference's are one function of the ten argument arrays. -/
theorem kval_eq_rval (x0 : (⟨Cert.ReferenceIdeal.S100000x256, .f32⟩ : BufTy).Contents (Elt Ideal)) (x1 : (⟨Cert.ReferenceIdeal.S256x128, .f32⟩ : BufTy).Contents (Elt Ideal)) (x2 : (⟨Cert.ReferenceIdeal.S128, .f32⟩ : BufTy).Contents (Elt Ideal)) (x3 : (⟨Cert.ReferenceIdeal.S128x10, .f32⟩ : BufTy).Contents (Elt Ideal)) (x4 : (⟨Cert.ReferenceIdeal.S10, .f32⟩ : BufTy).Contents (Elt Ideal)) (x5 : (⟨Cert.ReferenceIdeal.S2x1600000, .f32⟩ : BufTy).Contents (Elt Ideal)) (x6 : (⟨Cert.ReferenceIdeal.S2x1600000, .i32⟩ : BufTy).Contents (Elt Ideal)) (x7 : (⟨Cert.ReferenceIdeal.S2x1600000, .i32⟩ : BufTy).Contents (Elt Ideal)) (x8 : (⟨Cert.ReferenceIdeal.S100000, .i32⟩ : BufTy).Contents (Elt Ideal)) (x9 : (⟨Cert.ReferenceIdeal.S5000, .i32⟩ : BufTy).Contents (Elt Ideal)) :
    Cert.Gcn.KValue.kval x0 x1 x2 x3 x4 x5 x6 x7 x8 x9 = Cert.Gcn.RValue.rval (F := Ideal) x0 x1 x2 x3 x4 x5 x6 x7 x8 x9 := by
  unfold Cert.Gcn.KValue.kval Cert.Gcn.RValue.rval
  simp only [agg0, agg1, layer0, layer1, mean, R_R1_main_v1_eq, R_R1_main_v5_eq, R_R1_main_v3_eq, R_R5_main_v43_eq, R_R5_main_v47_eq, R_R5_main_v45_eq, R_R3_main_v37_eq, R_R7_main_v79_eq, R_T1_main_v93_eq, R_T2_main_v94_eq, R_T3_main_v102_eq, R_T4_main_v103_eq, R_T5_main_v107_eq]

end Cert.Gcn.Bridge

end
-- ==== Proof.lean ====
/-
  The certificate of a two-layer graph convolution with two adjacency views: a kernel that computes the dense
  stages in four grid regions (the first product; per view, bias + positive part + second product; the mean of
  the two views) among host gather / scatter-add aggregations, against a reference that computes everything
  with host operations.

  At the ideal values both programs return ONE function of their ten argument arrays.  The kernel's result is read
  off its run boundary by boundary: each region leaves its output array at the region's whole-array function of
  the arrays it found (its row blocks are restrictions of that function and tile the array), each host stretch at
  its operations' composition.  The reference's line of host operations is followed piece by piece.  The host
  pieces are the same operations in both programs; the region functions meet the reference's host expressions by
  three facts: a product into a zero accumulator is the host's product (one sum over the contracted position), a
  bias vector reshaped to a row is the vector broadcast to a row, and y / 2 = y · ½ for EVERY extended real y (so no
  finiteness of the inputs is used for the value).  The ideal pass rewrote nothing, so its conjunct is trivial.
-/
import proofs.«172191_j33054068310209_1_alg».proof.Defs
import proofs.«172191_j33054068310209_1_alg».proof.Proof.Gen.Kernel
import proofs.«172191_j33054068310209_1_alg».proof.Proof.Gen.Kernel.Frame
import proofs.«172191_j33054068310209_1_alg».proof.Proof.Gen.KernelIdeal
import proofs.«172191_j33054068310209_1_alg».proof.Proof.Gen.KernelIdeal.Frame
import proofs.«172191_j33054068310209_1_alg».proof.Proof.Gen.ReferenceIdeal
import proofs.«172191_j33054068310209_1_alg».proof.Proof.Gen.Pre_finite_inputs
import proofs.«172191_j33054068310209_1_alg».proof.Proof.KRun
import proofs.«172191_j33054068310209_1_alg».proof.Proof.KValue
import proofs.«172191_j33054068310209_1_alg».proof.Proof.RValue
import proofs.«172191_j33054068310209_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel terminates, faults nowhere, and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.Gcn.RValue.run (F := Ideal) m ρ)

/-- The ideal pass rewrote no operation. -/
theorem preserves : Cert.preserves_Kernel_KernelIdeal := trivial

/-- From memories agreeing on the arguments both programs end with the same result: the kernel's at its function
    of the arguments, the reference's at its own, and the two functions are one. -/
theorem algebraic : Cert.algebraic_KernelIdeal_ReferenceIdeal := by
  intro m ρ m' ρ' _ hagree
  refine ⟨fun c => Cert.Gcn.KValue.kval (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.Gcn.KValue.value m ρ c), (h c).2⟩) (Cert.Gcn.KRun.run_last (F := Ideal) m ρ)
  · refine (θ_run Cert.ReferenceIdeal.defs _ _).mono (fun _ h c => ⟨(h c).1.trans ?_, (h c).2⟩)
      (Cert.Gcn.RValue.run (F := Ideal) m' ρ')
    obtain ⟨a0, a1, a2, a3, a4, a5, a6, a7, a8, a9⟩ := hagree c
    rw [a0, a1, a2, a3, a4, a5, a6, a7, a8, a9]
    exact (Cert.Gcn.Bridge.kval_eq_rval _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
